-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S1x8 : Shape := ⟨2, ![1, 8]⟩
abbrev S8x8 : Shape := ⟨2, ![8, 8]⟩
abbrev S8x64 : Shape := ⟨2, ![8, 64]⟩
abbrev S64 : Shape := ⟨1, ![64]⟩
abbrev S1x64 : Shape := ⟨2, ![1, 64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S8x8 : S_.BroadcastsInDim S8x8 (![] : Fin 0 → Fin S8x8.rank)
  reducesTo_S8x8_S_d0_1 : S8x8.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S1x64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S8x8 .f32) (main_arg6 : FVec F S8 .f32) (main_arg7 : FVec F S8x64 .f32) (main_arg8 : FVec F S64 .f32) (main_arg9 : FVec F S1x64 .f32) (main_arg10 : FVec F S64x64 .f32) (main_arg11 : FVec F S64 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S8x8 .f32 := Host.absf main_arg5
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x64 .f32 := Host.absf main_arg7
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x512 .f32) (main_arg1 : IVec S2x3200000 32) (main_arg2 : FVec F S512x8 .f32) (main_arg3 : FVec F S8 .f32) (main_arg4 : FVec F S1x8 .f32) (main_arg5 : FVec F S8x8 .f32) (main_arg6 : FVec F S8 .f32) (main_arg7 : FVec F S8x64 .f32) (main_arg8 : FVec F S64 .f32) (main_arg9 : FVec F S1x64 .f32) (main_arg10 : FVec F S64x64 .f32) (main_arg11 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x8 .f32 := Host.absf main_arg2
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1x8 .f32 := Host.absf main_arg4
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg5 main_arg6 main_arg7 main_arg8 main_arg9 main_arg10 main_arg11 main_v13 main_v16
-- ==== Kernel.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S1x8 : Shape := ⟨2, ![1, 8]⟩
abbrev S8x8 : Shape := ⟨2, ![8, 8]⟩
abbrev S8x64 : Shape := ⟨2, ![8, 64]⟩
abbrev S64 : Shape := ⟨1, ![64]⟩
abbrev S1x64 : Shape := ⟨2, ![1, 64]⟩
abbrev S64x64 : Shape := ⟨2, ![64, 64]⟩
abbrev S1x3200000 : Shape := ⟨2, ![1, 3200000]⟩
abbrev S3200000 : Shape := ⟨1, ![3200000]⟩
abbrev S100000x8 : Shape := ⟨2, ![100000, 8]⟩
abbrev S5000x512 : Shape := ⟨2, ![5000, 512]⟩
abbrev S5000x8 : Shape := ⟨2, ![5000, 8]⟩
abbrev S_ : Shape := ⟨0, ![]⟩
abbrev S100000 : Shape := ⟨1, ![100000]⟩
abbrev S3200000x1 : Shape := ⟨2, ![3200000, 1]⟩
abbrev S3200000x8 : Shape := ⟨2, ![3200000, 8]⟩
abbrev S12800x1 : Shape := ⟨2, ![12800, 1]⟩
abbrev S12800x8 : Shape := ⟨2, ![12800, 8]⟩
abbrev S100000x64 : Shape := ⟨2, ![100000, 64]⟩
abbrev S5000x64 : Shape := ⟨2, ![5000, 64]⟩
abbrev S3200000x64 : Shape := ⟨2, ![3200000, 64]⟩
abbrev S12800x64 : Shape := ⟨2, ![12800, 64]⟩
abbrev S100000x1 : Shape := ⟨2, ![100000, 1]⟩

abbrev nBuf : Space → Nat
  | .hbm => 152
  | .vmem => 30
  | .smem => 0
  | _ => 0

abbrev hbmTy0_0 (i : Nat) : BufTy := match i % 128 with
  | 0 => ⟨S100000x512, .f32⟩
  | 1 => ⟨S2x3200000, .i32⟩
  | 2 => ⟨S512x8, .f32⟩
  | 3 => ⟨S8, .f32⟩
  | 4 => ⟨S1x8, .f32⟩
  | 5 => ⟨S8x8, .f32⟩
  | 6 => ⟨S8, .f32⟩
  | 7 => ⟨S8x64, .f32⟩
  | 8 => ⟨S64, .f32⟩
  | 9 => ⟨S1x64, .f32⟩
  | 10 => ⟨S64x64, .f32⟩
  | 11 => ⟨S64, .f32⟩
  | 12 => ⟨S1x3200000, .i32⟩
  | 13 => ⟨S3200000, .i32⟩
  | 14 => ⟨S1x3200000, .i32⟩
  | 15 => ⟨S3200000, .i32⟩
  | 16 => ⟨S1x8, .f32⟩
  | 17 => ⟨S100000x8, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S3200000x1, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x8, .f32⟩
  | 63 => ⟨S1x8, .f32⟩
  | 64 => ⟨S3200000x8, .f32⟩
  | 65 => ⟨S_, .f32⟩
  | 66 => ⟨S100000x8, .f32⟩
  | 67 => ⟨S3200000x1, .i32⟩
  | 68 => ⟨S100000x8, .f32⟩
  | 69 => ⟨S_, .f32⟩
  | 70 => ⟨S100000x8, .f32⟩
  | 71 => ⟨S100000x8, .i1⟩
  | 72 => ⟨S_, .f32⟩
  | 73 => ⟨S100000x8, .f32⟩
  | 74 => ⟨S100000x8, .i1⟩
  | 75 => ⟨S_, .f32⟩
  | 76 => ⟨S_, .f32⟩
  | 77 => ⟨S100000x8, .f32⟩
  | 78 => ⟨S100000x8, .f32⟩
  | 79 => ⟨S100000x8, .f32⟩
  | 80 => ⟨S_, .f32⟩
  | 81 => ⟨S100000x8, .f32⟩
  | 82 => ⟨S100000x8, .f32⟩
  | 83 => ⟨S100000x8, .f32⟩
  | 84 => ⟨S1x64, .f32⟩
  | 85 => ⟨S100000x64, .f32⟩
  | 86 => ⟨S_, .f32⟩
  | 87 => ⟨S3200000, .f32⟩
  | 88 => ⟨S_, .f32⟩
  | 89 => ⟨S100000, .f32⟩
  | 90 => ⟨S3200000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000, .f32⟩
  | 120 => ⟨S3200000, .f32⟩
  | 121 => ⟨S3200000x1, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x512, .f32⟩

abbrev hbmTy0_1 (i : Nat) : BufTy := match i % 128 with
  | 0 => ⟨S3200000, .i32⟩
  | 1 => ⟨S3200000x1, .i32⟩
  | 2 => ⟨S3200000x64, .f32⟩
  | 3 => ⟨S1x64, .f32⟩
  | 4 => ⟨S3200000x64, .f32⟩
  | 5 => ⟨S_, .f32⟩
  | 6 => ⟨S100000x64, .f32⟩
  | 7 => ⟨S3200000x1, .i32⟩
  | 8 => ⟨S100000x64, .f32⟩
  | 9 => ⟨S_, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x64, .f32⟩
  | 16 => ⟨S100000x64, .f32⟩
  | 17 => ⟨S100000x64, .f32⟩
  | 18 => ⟨S_, .f32⟩
  | 19 => ⟨S100000, .f32⟩
  | 20 => ⟨S100000x1, .f32⟩
  | 21 => ⟨S100000x1, .f32⟩
  | 22 => ⟨S100000x64, .f32⟩
  | 23 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x8, .f32⟩
  | .local _ .vmem, ⟨3, _⟩ => ⟨S1x8, .f32⟩
  | .local _ .vmem, ⟨4, _⟩ => ⟨S5000x8, .f32⟩
  | .local _ .vmem, ⟨5, _⟩ => ⟨S5000x8, .f32⟩
  | .local _ .vmem, ⟨6, _⟩ => ⟨S12800x1, .f32⟩
  | .local _ .vmem, ⟨7, _⟩ => ⟨S12800x1, .f32⟩
  | .local _ .vmem, ⟨8, _⟩ => ⟨S12800x8, .f32⟩
  | .local _ .vmem, ⟨9, _⟩ => ⟨S12800x8, .f32⟩
  | .local _ .vmem, ⟨10, _⟩ => ⟨S1x8, .f32⟩
  | .local _ .vmem, ⟨11, _⟩ => ⟨S8x8, .f32⟩
  | .local _ .vmem, ⟨12, _⟩ => ⟨S1x8, .f32⟩
  | .local _ .vmem, ⟨13, _⟩ => ⟨S12800x8, .f32⟩
  | .local _ .vmem, ⟨14, _⟩ => ⟨S12800x8, .f32⟩
  | .local _ .vmem, ⟨15, _⟩ => ⟨S5000x8, .f32⟩
  | .local _ .vmem, ⟨16, _⟩ => ⟨S5000x8, .f32⟩
  | .local _ .vmem, ⟨17, _⟩ => ⟨S8x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S12800x1, .f32⟩
  | .local _ .vmem, ⟨22, _⟩ => ⟨S12800x1, .f32⟩
  | .local _ .vmem, ⟨23, _⟩ => ⟨S12800x64, .f32⟩
  | .local _ .vmem, ⟨24, _⟩ => ⟨S12800x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S12800x64, .f32⟩
  | .local _ .vmem, ⟨29, _⟩ => ⟨S12800x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_10 : Ref sig .tc := ⟨.hbm, 86, rfl⟩
abbrev main_v46 : Ref sig .tc := ⟨.hbm, 87, rfl⟩
abbrev main_cst_11 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_12 : Ref sig .tc := ⟨.hbm, 92, rfl⟩
abbrev main_v50 : Ref sig .tc := ⟨.hbm, 93, rfl⟩
abbrev main_v51 : Ref sig .tc := ⟨.hbm, 94, rfl⟩
abbrev main_cst_13 : Ref sig .tc := ⟨.hbm, 95, rfl⟩
abbrev main_v52 : Ref sig .tc := ⟨.hbm, 96, rfl⟩
abbrev main_v53 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v54 : Ref sig .tc := ⟨.hbm, 101, rfl⟩
abbrev main_c_15 : Ref sig .tc := ⟨.hbm, 102, rfl⟩
abbrev main_v55 : Ref sig .tc := ⟨.hbm, 103, rfl⟩
abbrev main_v56 : Ref sig .tc := ⟨.hbm, 104, rfl⟩
abbrev main_c_16 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_17 : Ref sig .tc := ⟨.hbm, 111, rfl⟩
abbrev main_v62 : Ref sig .tc := ⟨.hbm, 112, rfl⟩
abbrev main_v63 : Ref sig .tc := ⟨.hbm, 113, rfl⟩
abbrev main_c_18 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_19 : Ref sig .tc := ⟨.hbm, 122, rfl⟩
abbrev main_v71 : Ref sig .tc := ⟨.hbm, 123, rfl⟩
abbrev main_v72 : Ref sig .tc := ⟨.hbm, 124, rfl⟩
abbrev main_c_20 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_21 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_cst_1 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_v83 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S12800x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12800x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S12800x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S8_S1x8 : S8.ShapeCasts S1x8
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S3200000_S3200000x1 : S3200000.ShapeCasts S3200000x1
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  inb_S12800x8_S12800x8_0_0 : ∀ a, (![0, 0] : Fin 2 → Nat) a + S12800x8.size a ≤ S12800x8.size a
  h_S12800x8 : 0 < S12800x8.numel
  shapeCasts_S12800x8_S12800x8 : S12800x8.ShapeCasts S12800x8
  inb_S8x8_S8x8_0_0 : ∀ a, (![0, 0] : Fin 2 → Nat) a + S8x8.size a ≤ S8x8.size a
  h_S8x8 : 0 < S8x8.numel
  broadcasts_S12800x1_S12800x8 : S12800x1.Broadcasts S12800x8
  broadcasts_S1x8_S12800x8 : S1x8.Broadcasts S12800x8
  bcast_S_S100000x8 : S_.BroadcastsInDim S100000x8 (![] : Fin 0 → Fin S100000x8.rank)
  shapeCasts_S64_S1x64 : S64.ShapeCasts S1x64
  shapeCasts_S5000x8_S5000x8 : S5000x8.ShapeCasts S5000x8
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S64x64_S64x64_0_0 : ∀ a, (![0, 0] : Fin 2 → Nat) a + S64x64.size a ≤ S64x64.size a
  h_S64x64 : 0 < S64x64.numel
  broadcasts_S12800x1_S12800x64 : S12800x1.Broadcasts S12800x64
  broadcasts_S1x64_S12800x64 : S1x64.Broadcasts S12800x64
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S5000x512_S512x8_S5000x8_1_0_0_1_n_n_wf : DotDims.WF S5000x512 S512x8 S5000x8 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x8_S3200000x1_S3200000x8_1_0_n_n_0_1_18_wf : GatherDims.WF S100000x8 S3200000x1 S3200000x8 [1] [0] [] [0] [] 1 ![1, 8]
  dot_S12800x8_S8x8_S12800x8_1_0_0_1_n_n_wf : DotDims.WF S12800x8 S8x8 S12800x8 [1] [0] [0] [1] [] []
  scatter_S100000x8_S3200000x1_S3200000x8_1_0_0_1_wf : ScatterDims.WF S100000x8 S3200000x1 S3200000x8 [1] [0] [0] 1
  dot_S5000x8_S8x64_S5000x64_1_0_0_1_n_n_wf : DotDims.WF S5000x8 S8x64 S5000x64 [1] [0] [0] [1] [] []
  gather_S100000x64_S3200000x1_S3200000x64_1_0_n_n_0_1_164_wf : GatherDims.WF S100000x64 S3200000x1 S3200000x64 [1] [0] [] [0] [] 1 ![1, 64]
  dot_S12800x64_S64x64_S12800x64_1_0_0_1_n_n_wf : DotDims.WF S12800x64 S64x64 S12800x64 [1] [0] [0] [1] [] []
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x8.size a ≤ S100000x8.size a
  hwx0_3 : ∀ i : grid0.Coords, EltTy.bits .f32 = 32 ∨ (Rect.block (s := S100000x8) S5000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x1.size a ≤ S3200000x1.size a
  hwx1_0 : ∀ i : grid1.Coords, EltTy.bits .f32 = 32 ∨ (Rect.block (s := S3200000x1) S12800x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x8.size a ≤ S3200000x8.size a
  hwx1_1 : ∀ i : grid1.Coords, EltTy.bits .f32 = 32 ∨ (Rect.block (s := S3200000x8) S12800x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x8.size a ≤ S8x8.size a
  hwx1_3 : ∀ i : grid1.Coords, EltTy.bits .f32 = 32 ∨ (Rect.block (s := S8x8) S8x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S12800x8.size a ≤ S3200000x8.size a
  hwx1_5 : ∀ i : grid1.Coords, EltTy.bits .f32 = 32 ∨ (Rect.block (s := S3200000x8) S12800x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64.size a ≤ S8x64.size a
  hwx2_1 : ∀ i : grid2.Coords, EltTy.bits .f32 = 32 ∨ (Rect.block (s := S8x64) S8x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12800x1.size a ≤ S3200000x1.size a
  hwx3_0 : ∀ i : grid3.Coords, EltTy.bits .f32 = 32 ∨ (Rect.block (s := S3200000x1) S12800x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12800x64.size a ≤ S3200000x64.size a
  hwx3_1 : ∀ i : grid3.Coords, EltTy.bits .f32 = 32 ∨ (Rect.block (s := S3200000x64) S12800x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S12800x64.size a ≤ S3200000x64.size a
  hwx3_5 : ∀ i : grid3.Coords, EltTy.bits .f32 = 32 ∨ (Rect.block (s := S3200000x64) S12800x64.size (cc3_transform_5 i) (hinb3_5 i)).WholeWords (EltTy.packing .f32)

variable [Facts₀]

def dot_S5000x512_S512x8_S5000x8_1_0_0_1_n_n : DotDims S5000x512 S512x8 S5000x8 where
  lhsContracting := [1]
  rhsContracting := [0]
  lhsNonContracting := [0]
  rhsNonContracting := [1]
  lhsBatch := []
  rhsBatch := []
  wf := dot_S5000x512_S512x8_S5000x8_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S12800x8_S8x8_S12800x8_1_0_0_1_n_n : DotDims S12800x8 S8x8 S12800x8 where
  lhsContracting := [1]
  rhsContracting := [0]
  lhsNonContracting := [0]
  rhsNonContracting := [1]
  lhsBatch := []
  rhsBatch := []
  wf := dot_S12800x8_S8x8_S12800x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S12800x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S12800x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S8x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S12800x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S8x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S12800x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S12800x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S12800x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S1x8 : Shape := ⟨2, ![1, 8]⟩
abbrev S8x8 : Shape := ⟨2, ![8, 8]⟩
abbrev S8x64 : Shape := ⟨2, ![8, 64]⟩
abbrev S64 : Shape := ⟨1, ![64]⟩
abbrev S1x64 : Shape := ⟨2, ![1, 64]⟩
abbrev S64x64 : Shape := ⟨2, ![64, 64]⟩
abbrev S100000x8 : Shape := ⟨2, ![100000, 8]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x8 : Shape := ⟨2, ![3200000, 8]⟩
abbrev S100000x64 : Shape := ⟨2, ![100000, 64]⟩
abbrev S3200000x64 : Shape := ⟨2, ![3200000, 64]⟩
abbrev S100000x1 : Shape := ⟨2, ![100000, 1]⟩

abbrev nBuf : Space → Nat
  | .hbm => 184
  | .vmem => 0
  | .smem => 0
  | _ => 0

abbrev hbmTy0_0 (i : Nat) : BufTy := match i % 128 with
  | 0 => ⟨S100000x512, .f32⟩
  | 1 => ⟨S2x3200000, .i32⟩
  | 2 => ⟨S512x8, .f32⟩
  | 3 => ⟨S8, .f32⟩
  | 4 => ⟨S1x8, .f32⟩
  | 5 => ⟨S8x8, .f32⟩
  | 6 => ⟨S8, .f32⟩
  | 7 => ⟨S8x64, .f32⟩
  | 8 => ⟨S64, .f32⟩
  | 9 => ⟨S1x64, .f32⟩
  | 10 => ⟨S64x64, .f32⟩
  | 11 => ⟨S64, .f32⟩
  | 12 => ⟨S100000x8, .f32⟩
  | 13 => ⟨S1x8, .f32⟩
  | 14 => ⟨S100000x8, .f32⟩
  | 15 => ⟨S100000x8, .f32⟩
  | 16 => ⟨S1x3200000, .i32⟩
  | 17 => ⟨S3200000, .i32⟩
  | 18 => ⟨S1x3200000, .i32⟩
  | 19 => ⟨S3200000, .i32⟩
  | 20 => ⟨S_, .f32⟩
  | 21 => ⟨S3200000, .f32⟩
  | 22 => ⟨S_, .f32⟩
  | 23 => ⟨S100000, .f32⟩
  | 24 => ⟨S3200000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S3200000x1, .f32⟩
  | 56 => ⟨S3200000x8, .f32⟩
  | 57 => ⟨S_, .f32⟩
  | 58 => ⟨S_, .f32⟩
  | 59 => ⟨S3200000x8, .f32⟩
  | 60 => ⟨S3200000x8, .i1⟩
  | 61 => ⟨S_, .f32⟩
  | 62 => ⟨S3200000x8, .f32⟩
  | 63 => ⟨S3200000x8, .f32⟩
  | 64 => ⟨S3200000x8, .f32⟩
  | 65 => ⟨S3200000x8, .f32⟩
  | 66 => ⟨S1x8, .f32⟩
  | 67 => ⟨S3200000x8, .f32⟩
  | 68 => ⟨S3200000x8, .f32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000x8, .f32⟩
  | 78 => ⟨S3200000x8, .f32⟩
  | 79 => ⟨S_, .f32⟩
  | 80 => ⟨S100000x8, .f32⟩
  | 81 => ⟨S3200000x1, .i32⟩
  | 82 => ⟨S100000x8, .f32⟩
  | 83 => ⟨S_, .f32⟩
  | 84 => ⟨S100000x8, .f32⟩
  | 85 => ⟨S100000x8, .i1⟩
  | 86 => ⟨S_, .f32⟩
  | 87 => ⟨S100000x8, .f32⟩
  | 88 => ⟨S100000x8, .i1⟩
  | 89 => ⟨S_, .f32⟩
  | 90 => ⟨S_, .f32⟩
  | 91 => ⟨S100000x8, .f32⟩
  | 92 => ⟨S100000x8, .f32⟩
  | 93 => ⟨S100000x8, .f32⟩
  | 94 => ⟨S_, .f32⟩
  | 95 => ⟨S100000x8, .f32⟩
  | 96 => ⟨S100000x8, .f32⟩
  | 97 => ⟨S100000x8, .f32⟩
  | 98 => ⟨S100000x64, .f32⟩
  | 99 => ⟨S1x64, .f32⟩
  | 100 => ⟨S100000x64, .f32⟩
  | 101 => ⟨S100000x64, .f32⟩
  | 102 => ⟨S1x3200000, .i32⟩
  | 103 => ⟨S3200000, .i32⟩
  | 104 => ⟨S1x3200000, .i32⟩
  | 105 => ⟨S3200000, .i32⟩
  | 106 => ⟨S_, .f32⟩
  | 107 => ⟨S3200000, .f32⟩
  | 108 => ⟨S_, .f32⟩
  | 109 => ⟨S100000, .f32⟩
  | 110 => ⟨S3200000x1, .i32⟩
  | 111 => ⟨S100000, .f32⟩
  | 112 => ⟨S_, .f32⟩
  | 113 => ⟨S100000, .f32⟩
  | 114 => ⟨S100000, .i1⟩
  | 115 => ⟨S_, .f32⟩
  | 116 => ⟨S100000, .f32⟩
  | 117 => ⟨S100000, .f32⟩
  | 118 => ⟨S_, .f32⟩
  | 119 => ⟨S_, .f32⟩
  | 120 => ⟨S100000, .f32⟩
  | 121 => ⟨S100000, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x512, .f32⟩

abbrev hbmTy0_1 (i : Nat) : BufTy := match i % 128 with
  | 0 => ⟨S3200000, .i32⟩
  | 1 => ⟨S3200000x1, .i32⟩
  | 2 => ⟨S3200000, .f32⟩
  | 3 => ⟨S_, .i32⟩
  | 4 => ⟨S3200000, .i32⟩
  | 5 => ⟨S3200000, .i1⟩
  | 6 => ⟨S_, .i32⟩
  | 7 => ⟨S3200000, .i32⟩
  | 8 => ⟨S3200000, .i32⟩
  | 9 => ⟨S3200000, .i32⟩
  | 10 => ⟨S3200000x1, .i32⟩
  | 11 => ⟨S3200000, .f32⟩
  | 12 => ⟨S3200000, .f32⟩
  | 13 => ⟨S3200000x1, .f32⟩
  | 14 => ⟨S3200000x64, .f32⟩
  | 15 => ⟨S_, .f32⟩
  | 16 => ⟨S_, .f32⟩
  | 17 => ⟨S3200000x64, .f32⟩
  | 18 => ⟨S3200000x64, .i1⟩
  | 19 => ⟨S_, .f32⟩
  | 20 => ⟨S3200000x64, .f32⟩
  | 21 => ⟨S3200000x64, .f32⟩
  | 22 => ⟨S3200000x64, .f32⟩
  | 23 => ⟨S3200000x64, .f32⟩
  | 24 => ⟨S1x64, .f32⟩
  | 25 => ⟨S3200000x64, .f32⟩
  | 26 => ⟨S3200000x64, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x64, .f32⟩
  | 36 => ⟨S3200000x64, .f32⟩
  | 37 => ⟨S_, .f32⟩
  | 38 => ⟨S100000x64, .f32⟩
  | 39 => ⟨S3200000x1, .i32⟩
  | 40 => ⟨S100000x64, .f32⟩
  | 41 => ⟨S_, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S100000x64, .f32⟩
  | 50 => ⟨S_, .f32⟩
  | 51 => ⟨S100000, .f32⟩
  | 52 => ⟨S100000x1, .f32⟩
  | 53 => ⟨S100000x1, .f32⟩
  | 54 => ⟨S100000x64, .f32⟩
  | 55 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_cst_1 : Ref sig .tc := ⟨.hbm, 89, rfl⟩
abbrev main_call2_call0_v0 : Ref sig .tc := ⟨.hbm, 90, rfl⟩
abbrev main_call2_call0_v1 : Ref sig .tc := ⟨.hbm, 91, rfl⟩
abbrev main_call2_v4 : Ref sig .tc := ⟨.hbm, 92, rfl⟩
abbrev main_call2_v5 : Ref sig .tc := ⟨.hbm, 93, rfl⟩
abbrev main_call2_cst_2 : Ref sig .tc := ⟨.hbm, 94, rfl⟩
abbrev main_call2_v6 : Ref sig .tc := ⟨.hbm, 95, rfl⟩
abbrev main_call2_v7 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_11 : Ref sig .tc := ⟨.hbm, 106, rfl⟩
abbrev main_v59 : Ref sig .tc := ⟨.hbm, 107, rfl⟩
abbrev main_cst_12 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_13 : Ref sig .tc := ⟨.hbm, 112, rfl⟩
abbrev main_v63 : Ref sig .tc := ⟨.hbm, 113, rfl⟩
abbrev main_v64 : Ref sig .tc := ⟨.hbm, 114, rfl⟩
abbrev main_cst_14 : Ref sig .tc := ⟨.hbm, 115, rfl⟩
abbrev main_v65 : Ref sig .tc := ⟨.hbm, 116, rfl⟩
abbrev main_v66 : Ref sig .tc := ⟨.hbm, 117, rfl⟩
abbrev main_cst_15 : Ref sig .tc := ⟨.hbm, 118, rfl⟩
abbrev main_call3_v0 : Ref sig .tc := ⟨.hbm, 119, rfl⟩
abbrev main_call3_v1 : Ref sig .tc := ⟨.hbm, 120, rfl⟩
abbrev main_v67 : Ref sig .tc := ⟨.hbm, 121, rfl⟩
abbrev main_c_16 : Ref sig .tc := ⟨.hbm, 122, rfl⟩
abbrev main_v68 : Ref sig .tc := ⟨.hbm, 123, rfl⟩
abbrev main_v69 : Ref sig .tc := ⟨.hbm, 124, rfl⟩
abbrev main_c_17 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_c_18 : Ref sig .tc := ⟨.hbm, 131, rfl⟩
abbrev main_v75 : Ref sig .tc := ⟨.hbm, 132, rfl⟩
abbrev main_v76 : Ref sig .tc := ⟨.hbm, 133, rfl⟩
abbrev main_c_19 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_20 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_c_21 : Ref sig .tc := ⟨.hbm, 155, rfl⟩
abbrev main_v90 : Ref sig .tc := ⟨.hbm, 156, rfl⟩
abbrev main_v91 : Ref sig .tc := ⟨.hbm, 157, rfl⟩
abbrev main_c_22 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_23 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_call5_cst : Ref sig .tc := ⟨.hbm, 169, rfl⟩
abbrev main_call5_v0 : Ref sig .tc := ⟨.hbm, 170, rfl⟩
abbrev main_call5_cst_0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_v6 : Ref sig .tc := ⟨.hbm, 177, rfl⟩
abbrev main_call5_cst_1 : Ref sig .tc := ⟨.hbm, 178, rfl⟩
abbrev main_call5_v7 : Ref sig .tc := ⟨.hbm, 179, rfl⟩
abbrev main_call5_v8 : Ref sig .tc := ⟨.hbm, 180, rfl⟩
abbrev main_call5_v9 : Ref sig .tc := ⟨.hbm, 181, rfl⟩
abbrev main_call5_v10 : Ref sig .tc := ⟨.hbm, 182, rfl⟩
abbrev main_v101 : Ref sig .tc := ⟨.hbm, 183, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000x8 : S_.BroadcastsInDim S3200000x8 (![] : Fin 0 → Fin S3200000x8.rank)
  bcast_S1x8_S3200000x8_0_1 : S1x8.BroadcastsInDim S3200000x8 (![0, 1] : Fin 2 → Fin S3200000x8.rank)
  bcast_S_S100000x8 : S_.BroadcastsInDim S100000x8 (![] : Fin 0 → Fin S100000x8.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3200000x64 : S_.BroadcastsInDim S3200000x64 (![] : Fin 0 → Fin S3200000x64.rank)
  bcast_S1x64_S3200000x64_0_1 : S1x64.BroadcastsInDim S3200000x64 (![0, 1] : Fin 2 → Fin S3200000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x8_S100000x8_1_0_0_1_n_n_wf : DotDims.WF S100000x512 S512x8 S100000x8 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S3200000x1_S1x8_S3200000x8_1_0_0_1_n_n_wf : DotDims.WF S3200000x1 S1x8 S3200000x8 [1] [0] [0] [1] [] []
  dot_S3200000x8_S8x8_S3200000x8_1_0_0_1_n_n_wf : DotDims.WF S3200000x8 S8x8 S3200000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x64_S100000x64_1_0_0_1_n_n_wf : DotDims.WF S100000x8 S8x64 S100000x64 [1] [0] [0] [1] [] []
  dot_S3200000x1_S1x64_S3200000x64_1_0_0_1_n_n_wf : DotDims.WF S3200000x1 S1x64 S3200000x64 [1] [0] [0] [1] [] []
  dot_S3200000x64_S64x64_S3200000x64_1_0_0_1_n_n_wf : DotDims.WF S3200000x64 S64x64 S3200000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S3200000x1_S1x8_S3200000x8_1_0_0_1_n_n : DotDims S3200000x1 S1x8 S3200000x8 where
  lhsContracting := [1]
  rhsContracting := [0]
  lhsNonContracting := [0]
  rhsNonContracting := [1]
  lhsBatch := []
  rhsBatch := []
  wf := dot_S3200000x1_S1x8_S3200000x8_1_0_0_1_n_n_wf
def dot_S3200000x8_S8x8_S3200000x8_1_0_0_1_n_n : DotDims S3200000x8 S8x8 S3200000x8 where
  lhsContracting := [1]
  rhsContracting := [0]
  lhsNonContracting := [0]
  rhsNonContracting := [1]
  lhsBatch := []
  rhsBatch := []
  wf := dot_S3200000x8_S8x8_S3200000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def dot_S3200000x1_S1x64_S3200000x64_1_0_0_1_n_n : DotDims S3200000x1 S1x64 S3200000x64 where
  lhsContracting := [1]
  rhsContracting := [0]
  lhsNonContracting := [0]
  rhsNonContracting := [1]
  lhsBatch := []
  rhsBatch := []
  wf := dot_S3200000x1_S1x64_S3200000x64_1_0_0_1_n_n_wf
def dot_S3200000x64_S64x64_S3200000x64_1_0_0_1_n_n : DotDims S3200000x64 S64x64 S3200000x64 where
  lhsContracting := [1]
  rhsContracting := [0]
  lhsNonContracting := [0]
  rhsNonContracting := [1]
  lhsBatch := []
  rhsBatch := []
  wf := dot_S3200000x64_S64x64_S3200000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KRun.lean ====
/-
  The idealized kernel's run, ending at the LAST segment boundary: every weakly fair execution of @main terminates,
  nothing faulting, and in the final memory every unscoped buffer of a core holds what the fold `W16` of the host
  stretches and the four regions' write-backs gives it from the launch memory. Any property of the final memory that
  follows from that (`run_to_last`) is therefore a post of the run; `run_named` takes the result buffer at `W16`'s
  value and the twelve arguments as launched.

  The launch: @main is the run of its sixteen segments (a host stretch or a region each); the segments chain, each
  leaving the thread state the next is entered from; at launch every core holds its unscoped buffers at the launch
  contents, its generator register and owes nothing; at the end the buffers' points-to facts are read against the
  physical state.
-/
import proofs.«150491_j40063454937540_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run leaves: on every core, each unscoped buffer at the last boundary's contents. -/
def AtLast (s : MemSt nD τ sig (Elt F)) : Prop :=
  ∀ c : Dev nD, ∀ b ∈ Pipeline.ucRefs τ sig, s.mem (((c : Thread nD τ)).1, b) = W16 m ρ c b

set_option backward.isDefEq.respectTransparency.types false in
/-- Every weakly fair execution of @main terminates without a fault in a memory satisfying any `Q` that holds of
    every memory whose unscoped buffers are at the last boundary's contents. -/
theorem run_to_last {Q : PUnit × MemSt nD τ sig (Elt F) → Prop}
    (hQ : ∀ s : MemSt nD τ sig (Elt F), AtLast m ρ s → Q (⟨⟩, s)) :
    θ_run defs (onTc (τ := τ) (main (F := F))) ⟨m, fun _ => 0, ρ⟩ Q := by
  -- the ghost state dealt at launch, and the thread state the first segment is entered from
  let u₀ := initOf (Pipeline.cells cfgs cellOf_inj) (Pipeline.launchToks cfgs cellOf_inj)
  let T₀ : Dev nD → sProp 𝕄 := fun c =>
    iprop(StableHlo.held (c : Thread nD τ) (Pipeline.ucRefs τ sig) (W0 m ρ c) ∗ R c)
  refine Pipeline.θ_run_regions_kit (pcfgs (F := F)) adm (pdats m ρ) () cellOf_inj emb₁ defs₀ 𝒱₀ L lv m ρ main (segs m ρ)
    (fun c K => by rw [main_run m ρ c]) ?nodup (O₀ := 0) (hL := fun _ _ => rfl) (G := fun _ => iprop(emp)) (u₀ := u₀)
    (hu₀ := ?ghost) (T₀ := T₀) (Tₙ := Tₙ m ρ) (hch := ?chain) (hinit := ?init)
    (QY := fun c s => ∀ b ∈ Pipeline.ucRefs τ sig, s.mem (((c : Thread nD τ)).1, b) = W16 m ρ c b)
    (hfin := ?fin) (hQ := fun s h => hQ s h)
  case nodup =>
    -- the four regions are four different pipelines
    simp only [segs, Pipeline.Seg.pipes_host, Pipeline.Seg.pipes_region, Pipeline.Seg.pipes_nil]; decide
  case ghost =>
    -- the launch's ghost state is the cells' initial one; nothing else is dealt
    iintro Hu; imodintro
    isplitl [Hu]
    · iapply (show (ownU u₀ : sProp 𝕄) ⊢ BI.own (emb₁ u₀) from .rfl)
      iexact Hu
    · iapply (show (BI.emp : sProp 𝕄) ⊢ bigSep Finset.univ (fun _ : Dev nD => (BI.emp : sProp 𝕄)) from by
        rw [BI.bigSep_emp_const])
      iempintro
  case chain =>
    -- each segment's post is the next one's pre by name; the last host stretch leaves `Tₙ` beside the core owing nothing
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun c => ?_⟩
    dsimp only [Pipeline.Seg.post, hseg, Pipeline.HostSeg.ofOps]
    iintro ⟨Hheld, Hprng, Howes⟩
    isplitl [Hheld Hprng]
    · isplitl [Hheld]
      · iexact Hheld
      · iexact Hprng
    · iexact Howes
  case init =>
    -- at launch a core's unscoped buffers are held at the launch contents, its register is at some state, it owes nothing
    refine Pipeline.initEach L lv fun c => ?_
    rw [show unscopedBufs c (fun b => m ((c : Thread nD τ).loc b))
          = StableHlo.held (c : Thread nD τ) (Pipeline.ucRefs τ sig) (W0 m ρ c)
        from Pipeline.unscopedBufs_held c (W0 m ρ c)]
    iintro ⟨⟨Hheld, -, Howes, -, Hprng, -⟩, -⟩
    imodintro
    isplitl [Hheld]
    · iexact Hheld
    isplitl [Hprng]
    · iexists _; iexact Hprng
    · iexists ∅; iexact Howes
  case fin =>
    -- the held buffers agree with the physical memory
    intro c s'
    iintro ⟨⟨Hheld, -⟩, HSI⟩
    unfold StableHlo.held
    imodintro
    iapply (pointsTo_read_all (Pipeline.ucRefs τ sig) (fun b => (((c : Thread nD τ)).1, b)) (W16 m ρ c) s')
    isplitl [Hheld] <;> iassumption

/-- The run with the result buffer named: it ends at the last boundary's contents of `main_v83`, and the twelve
    argument arrays end as launched (no host operation and no region writes one). -/
theorem run_named : θ_run defs (onTc (τ := τ) (main (F := F))) ⟨m, fun _ => 0, ρ⟩ (fun r => ∀ c : Dev nD,
      r.2.mem ((c.tc : Thread nD τ).loc main_v83) = W16 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_to_last m ρ fun s h c =>
    have at' (b : Ref sig .tc) (hb : ¬ (Proc.devRef .tc b : DevRef τ sig).isScoped) :
        s.mem ((c.tc : Thread nD τ).loc b) = W16 m ρ c (Proc.devRef .tc b) := h c _ (mem_uc b hb)
    ⟨at' main_v83 (by decide),
     (at' main_arg0 (by decide)).trans (W16_main_arg0 m ρ c), (at' main_arg1 (by decide)).trans (W16_main_arg1 m ρ c),
     (at' main_arg2 (by decide)).trans (W16_main_arg2 m ρ c), (at' main_arg3 (by decide)).trans (W16_main_arg3 m ρ c),
     (at' main_arg4 (by decide)).trans (W16_main_arg4 m ρ c), (at' main_arg5 (by decide)).trans (W16_main_arg5 m ρ c),
     (at' main_arg6 (by decide)).trans (W16_main_arg6 m ρ c), (at' main_arg7 (by decide)).trans (W16_main_arg7 m ρ c),
     (at' main_arg8 (by decide)).trans (W16_main_arg8 m ρ c), (at' main_arg9 (by decide)).trans (W16_main_arg9 m ρ c),
     (at' main_arg10 (by decide)).trans (W16_main_arg10 m ρ c), (at' main_arg11 (by decide)).trans (W16_main_arg11 m ρ c)⟩

end Cert.KernelIdeal.KRun

end
-- ==== Proof.Spec.lean ====
/-
  The network both programs compute, written ONCE as pure functions of the argument arrays: two rounds of
  "dense layer, per-edge gate, scatter to the target nodes", an ELU between them and a row-wise log-softmax at the end.
  Each function is spelt with the host operations of the reference (its shapes and dimension records), so that
  the reference's result is this term on the nose, and the kernel's four tiled regions are shown to compute the
  pieces `dense8`, `edge8`, `dense64`, `edge64` of it.

  * `rowOf`, `colOf`  — the two rows of the edge list, as vectors of E node numbers.
  * `wrapCol`          — a vector of node numbers with negatives shifted by N, as an [E,1] column of gather indices.
  * `degOf`, `dinvOf`  — out-degree by scatter-add of ones, and deg^(-1/2) where deg > 0, else 0.
  * `normOf`           — dinv[row] · dinv[col], one number per edge.
  * `dense*`           — x·W + b, b given as a [1,C] row.
  * `edge*`            — ((leaky_relu(norm·mWa, 0.2))·mWb + mb) ⊙ h[row], per edge and channel.
-/
import proofs.«150491_j40063454937540_1_alg».proof.ReferenceIdeal
import proofs.«150491_j40063454937540_1_alg».proof.Proof.Gen.ReferenceIdeal

noncomputable section

namespace Cert.RefSpec

open Idealize.ShloMosaic Cert.ReferenceIdeal Cert.ReferenceIdeal.Gen

variable {F : FTy → Type} [FloatOps F]

/-- The contents of a buffer of shape `S` and element type `e`. -/
abbrev T (F : FTy → Type) [FloatOps F] (S : Shape) (e : EltTy) : Type := (⟨S, e⟩ : BufTy).Contents (Elt F)

/-! ## The edge list -/

def rowOf (ei : T F S2x3200000 .i32) : T F S3200000 .i32 :=
  fun i => shapeCast S3200000 (extractStridedSlice S1x3200000 ![0, 0] ei slices_S2x3200000_S1x3200000_0_0) shapeCasts_S1x3200000_S3200000 i

def colOf (ei : T F S2x3200000 .i32) : T F S3200000 .i32 :=
  fun i => shapeCast S3200000 (extractStridedSlice S1x3200000 ![1, 0] ei slices_S2x3200000_S1x3200000_1_0) shapeCasts_S1x3200000_S3200000 i

/-- Node numbers as a column of scatter indices. -/
def idxCol (r : T F S3200000 .i32) : T F S3200000x1 .i32 :=
  broadcastInDim S3200000x1 ![0] bcast_S3200000_S3200000x1_0 r

/-- Node numbers, a negative one shifted by the number of nodes, as a column of gather indices. -/
def wrapCol (r : T F S3200000 .i32) : T F S3200000x1 .i32 :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-! ## Degrees and the symmetric normalisation -/

def zeroN : T F S100000 .f32 := broadcastInDim S100000 ![] bcast_S_S100000 (constant S_ .f32 0x00000000#32)

def degOf (row : T F S3200000 .i32) : T F S100000 .f32 :=
  Host.scatterAdd scatter_S100000_S3200000x1_S3200000_n_0_0_1 (zeroN (F := F)) (idxCol row)
    (broadcastInDim S3200000 ![] bcast_S_S3200000 (constant S_ .f32 0x3F800000#32))

def dinvOf (row : T F S3200000 .i32) : T F S100000 .f32 :=
  select (cmpf .ogt (degOf row) (zeroN (F := F)))
    (Host.powf (degOf row) (broadcastInDim S100000 ![] bcast_S_S100000 (constant S_ .f32 0xBF000000#32)))
    (zeroN (F := F))

def normOf (row col : T F S3200000 .i32) : T F S3200000 .f32 :=
  mulf (Host.gather gather_S100000_S3200000x1_S3200000_n_0_n_n_0_1_1 (dinvOf row) (wrapCol row))
    (Host.gather gather_S100000_S3200000x1_S3200000_n_0_n_n_0_1_1 (dinvOf row) (wrapCol col))

/-- The normalisation as an [E,1] column. -/
def normCol (row col : T F S3200000 .i32) : T F S3200000x1 .f32 :=
  broadcastInDim S3200000x1 ![0] bcast_S3200000_S3200000x1_0 (normOf row col)

/-! ## Layer 1 (8 channels) -/

def bias8 (b : T F S8 .f32) : T F S1x8 .f32 := broadcastInDim S1x8 ![1] bcast_S8_S1x8_1 b

def dense8 (x : T F S100000x512 .f32) (W : T F S512x8 .f32) (b2 : T F S1x8 .f32) : T F S100000x8 .f32 :=
  addf (Host.dotGeneral dot_S100000x512_S512x8_S100000x8_1_0_0_1_n_n none x W)
    (broadcastInDim S100000x8 ![0, 1] bcast_S1x8_S100000x8_0_1 b2)

def leaky8 (t : T F S3200000x8 .f32) : T F S3200000x8 .f32 :=
  select (cmpf .oge t (broadcastInDim S3200000x8 ![] bcast_S_S3200000x8 (constant S_ .f32 0x00000000#32))) t
    (mulf (broadcastInDim S3200000x8 ![] bcast_S_S3200000x8 (constant S_ .f32 0x3E4CCCCD#32)) t)

def edge8 (nc : T F S3200000x1 .f32) (hrow : T F S3200000x8 .f32) (mWa : T F S1x8 .f32) (mWb : T F S8x8 .f32)
    (mb2 : T F S1x8 .f32) : T F S3200000x8 .f32 :=
  mulf (addf (Host.dotGeneral dot_S3200000x8_S8x8_S3200000x8_1_0_0_1_n_n none
        (leaky8 (Host.dotGeneral dot_S3200000x1_S1x8_S3200000x8_1_0_0_1_n_n none nc mWa)) mWb)
      (broadcastInDim S3200000x8 ![0, 1] bcast_S1x8_S3200000x8_0_1 mb2)) hrow

def gather8 (h : T F S100000x8 .f32) (row : T F S3200000 .i32) : T F S3200000x8 .f32 :=
  Host.gather gather_S100000x8_S3200000x1_S3200000x8_1_0_n_n_0_1_18 h (wrapCol row)

def scatter8 (col : T F S3200000 .i32) (msg : T F S3200000x8 .f32) : T F S100000x8 .f32 :=
  Host.scatterAdd scatter_S100000x8_S3200000x1_S3200000x8_1_0_0_1
    (broadcastInDim S100000x8 ![] bcast_S_S100000x8 (constant S_ .f32 0x00000000#32)) (idxCol col) msg

def zero8 : T F S100000x8 .f32 := broadcastInDim S100000x8 ![] bcast_S_S100000x8 (constant S_ .f32 0x00000000#32)

/-- ELU: x where x > 0, else 1 · expm1(x) (the inner select keeps expm1 off the positive side). -/
def elu8 (x : T F S100000x8 .f32) : T F S100000x8 .f32 :=
  select (cmpf .ogt x (zero8 (F := F))) x
    (mulf (broadcastInDim S100000x8 ![] bcast_S_S100000x8 (constant S_ .f32 0x3F800000#32))
      (Host.expm1 (select (cmpf .ogt x (zero8 (F := F))) (zero8 (F := F)) x)))

/-! ## Layer 2 (64 channels) -/

def bias64 (b : T F S64 .f32) : T F S1x64 .f32 := broadcastInDim S1x64 ![1] bcast_S64_S1x64_1 b

def dense64 (x : T F S100000x8 .f32) (W : T F S8x64 .f32) (b2 : T F S1x64 .f32) : T F S100000x64 .f32 :=
  addf (Host.dotGeneral dot_S100000x8_S8x64_S100000x64_1_0_0_1_n_n none x W)
    (broadcastInDim S100000x64 ![0, 1] bcast_S1x64_S100000x64_0_1 b2)

def leaky64 (t : T F S3200000x64 .f32) : T F S3200000x64 .f32 :=
  select (cmpf .oge t (broadcastInDim S3200000x64 ![] bcast_S_S3200000x64 (constant S_ .f32 0x00000000#32))) t
    (mulf (broadcastInDim S3200000x64 ![] bcast_S_S3200000x64 (constant S_ .f32 0x3E4CCCCD#32)) t)

def edge64 (nc : T F S3200000x1 .f32) (hrow : T F S3200000x64 .f32) (mWa : T F S1x64 .f32) (mWb : T F S64x64 .f32)
    (mb2 : T F S1x64 .f32) : T F S3200000x64 .f32 :=
  mulf (addf (Host.dotGeneral dot_S3200000x64_S64x64_S3200000x64_1_0_0_1_n_n none
        (leaky64 (Host.dotGeneral dot_S3200000x1_S1x64_S3200000x64_1_0_0_1_n_n none nc mWa)) mWb)
      (broadcastInDim S3200000x64 ![0, 1] bcast_S1x64_S3200000x64_0_1 mb2)) hrow

def gather64 (h : T F S100000x64 .f32) (row : T F S3200000 .i32) : T F S3200000x64 .f32 :=
  Host.gather gather_S100000x64_S3200000x1_S3200000x64_1_0_n_n_0_1_164 h (wrapCol row)

def scatter64 (col : T F S3200000 .i32) (msg : T F S3200000x64 .f32) : T F S100000x64 .f32 :=
  Host.scatterAdd scatter_S100000x64_S3200000x1_S3200000x64_1_0_0_1
    (broadcastInDim S100000x64 ![] bcast_S_S100000x64 (constant S_ .f32 0x00000000#32)) (idxCol col) msg

/-- A row with its maximum subtracted. -/
def centered (x : T F S100000x64 .f32) : T F S100000x64 .f32 :=
  subf x (broadcastInDim S100000x64 ![0, 1] bcast_S100000x1_S100000x64_0_1
    (broadcastInDim S100000x1 ![0] bcast_S100000_S100000x1_0
      (maximumf (broadcastInDim S100000 ![] bcast_S_S100000 (constant S_ .f32 0xFF800000#32))
        (Host.reduce FloatOps.maximumf x (constant S_ .f32 0xFF800000#32) reducesTo_S100000x64_S100000_d1 h_S_))))

/-- A row minus the logarithm of the sum of its exponentials. -/
def lsmTail (y : T F S100000x64 .f32) : T F S100000x64 .f32 :=
  subf y (broadcastInDim S100000x64 ![0, 1] bcast_S100000x1_S100000x64_0_1
    (Host.log (broadcastInDim S100000x1 ![0] bcast_S100000_S100000x1_0
      (Host.reduceAdd (Host.exp y) (constant S_ .f32 0x00000000#32) reducesTo_S100000x64_S100000_d1 h_S_))))

/-- Row-wise log-softmax: subtract the row maximum, then the log of the row's sum of exponentials. -/
def logSoftmax (x : T F S100000x64 .f32) : T F S100000x64 .f32 := lsmTail (centered x)

/-! ## The layers and the whole network -/

def layer1 (x : T F S100000x512 .f32) (ei : T F S2x3200000 .i32) (W1 : T F S512x8 .f32) (b1 : T F S8 .f32)
    (mW1a : T F S1x8 .f32) (mW1b : T F S8x8 .f32) (mb1 : T F S8 .f32) : T F S100000x8 .f32 :=
  scatter8 (colOf ei) (edge8 (normCol (rowOf ei) (colOf ei)) (gather8 (dense8 x W1 (bias8 b1)) (rowOf ei)) mW1a mW1b (bias8 mb1))

def layer2 (h : T F S100000x8 .f32) (ei : T F S2x3200000 .i32) (W2 : T F S8x64 .f32) (b2 : T F S64 .f32)
    (mW2a : T F S1x64 .f32) (mW2b : T F S64x64 .f32) (mb2 : T F S64 .f32) : T F S100000x64 .f32 :=
  scatter64 (colOf ei) (edge64 (normCol (rowOf ei) (colOf ei)) (gather64 (dense64 h W2 (bias64 b2)) (rowOf ei)) mW2a mW2b (bias64 mb2))

def model (x : T F S100000x512 .f32) (ei : T F S2x3200000 .i32) (W1 : T F S512x8 .f32) (b1 : T F S8 .f32)
    (mW1a : T F S1x8 .f32) (mW1b : T F S8x8 .f32) (mb1 : T F S8 .f32) (W2 : T F S8x64 .f32) (b2 : T F S64 .f32)
    (mW2a : T F S1x64 .f32) (mW2b : T F S64x64 .f32) (mb2 : T F S64 .f32) : T F S100000x64 .f32 :=
  logSoftmax (layer2 (elu8 (layer1 x ei W1 b1 mW1a mW1b mb1)) ei W2 b2 mW2a mW2b mb2)

end Cert.RefSpec

end
-- ==== Proof.KHost.lean ====
/-
  The kernel program's HOST stretches, each read as pure functions of the buffer contents V it starts from.
  Between the four tiled regions @main runs plain array operations; what each stretch leaves in the buffers the
  next region (or the result) reads is one of the specification's functions of what it found:

  * before region 0: the edge list's two rows as vectors (rowOf, colOf) and the bias as a [1,8] row;
  * before region 1: the normalisation dinv[row]·dinv[col] as an [E,1] column, the gathered rows h[row], the gate's
    bias as a row;
  * before region 2: ELU of the scatter-add of region 1's messages to the target nodes, and the bias as a row;
  * before region 3: as before region 1, with 64 channels;
  * after region 3: the scatter-add of region 3's messages (the row-wise log-softmax that follows is read in its own
    module).
  Every other buffer a later stretch reads is left as found. Each statement is the fold of the stretch's operations
  evaluated at one buffer; the two sides are then the same term.
-/
import proofs.«150491_j40063454937540_1_alg».proof.Proof.Gen.KernelIdeal.Launch
import proofs.«150491_j40063454937540_1_alg».proof.Proof.Spec
import Idealize.ShloMosaic.Lib.StableHlo.Run

noncomputable section

namespace Cert.KernelIdeal.KHost

open Idealize.ShloMosaic Idealize.ShloMosaic.TcCoe Idealize.SL.Sem Idealize.ShloMosaic.StableHlo
open Cert.KernelIdeal Cert.KernelIdeal.Gen Cert.RefSpec

variable {F : FTy → Type} [FloatOps F]
variable (V : Valuation τ sig (Elt F))

/-- A TensorCore buffer as a device reference. -/
local notation "⟪" b "⟫" => Proc.devRef Proc.tc b

/-! ## The stretches, as folds from the contents found -/

abbrev afterA : Valuation τ sig (Elt F) := after hostOps0 V
abbrev afterB : Valuation τ sig (Elt F) := after hostOps1_2 (after hostOps1_1 (after hostOps1 V))
abbrev afterC : Valuation τ sig (Elt F) := after hostOps2_2 (after hostOps2_1 (after hostOps2 V))
abbrev afterD : Valuation τ sig (Elt F) := after hostOps3_2 (after hostOps3_1 (after hostOps3 V))

/-- Evaluate a fold of literal host stretches at one buffer. -/
local macro "host_eval" : tactic =>
  `(tactic| (dsimp only [afterA, afterB, afterC, afterD, hostOps0, hostOps1, hostOps1_1, hostOps1_2, hostOps2, hostOps2_1,
      hostOps2_2, hostOps3, hostOps3_1, hostOps3_2, hostOps4, hostOps4_1]; after_results_simp; try rfl))

/-! ## Before region 0 -/

theorem A_v1 : afterA V ⟪main_v1⟫ = rowOf (F := F) (V ⟪main_arg1⟫) := by host_eval
theorem A_v3 : afterA V ⟪main_v3⟫ = colOf (F := F) (V ⟪main_arg1⟫) := by host_eval
theorem A_v4 : afterA V ⟪main_v4⟫ = (fun i => shapeCast S1x8 (V ⟪main_arg3⟫) shapeCasts_S8_S1x8 i) := by host_eval
theorem A_arg0 : afterA V ⟪main_arg0⟫ = V ⟪main_arg0⟫ := by host_eval
theorem A_arg2 : afterA V ⟪main_arg2⟫ = V ⟪main_arg2⟫ := by host_eval
theorem A_arg4 : afterA V ⟪main_arg4⟫ = V ⟪main_arg4⟫ := by host_eval
theorem A_arg5 : afterA V ⟪main_arg5⟫ = V ⟪main_arg5⟫ := by host_eval
theorem A_arg6 : afterA V ⟪main_arg6⟫ = V ⟪main_arg6⟫ := by host_eval
theorem A_arg7 : afterA V ⟪main_arg7⟫ = V ⟪main_arg7⟫ := by host_eval
theorem A_arg8 : afterA V ⟪main_arg8⟫ = V ⟪main_arg8⟫ := by host_eval
theorem A_arg9 : afterA V ⟪main_arg9⟫ = V ⟪main_arg9⟫ := by host_eval
theorem A_arg10 : afterA V ⟪main_arg10⟫ = V ⟪main_arg10⟫ := by host_eval
theorem A_arg11 : afterA V ⟪main_arg11⟫ = V ⟪main_arg11⟫ := by host_eval

/-! ## Between regions 0 and 1 -/

theorem B_v30 : afterB V ⟪main_v30⟫
    = (fun i => shapeCast S3200000x1 (normOf (F := F) (V ⟪main_v1⟫) (V ⟪main_v3⟫)) shapeCasts_S3200000_S3200000x1 i) := by host_eval
theorem B_v37 : afterB V ⟪main_v37⟫ = gather8 (F := F) (V ⟪main_v5⟫) (V ⟪main_v1⟫) := by host_eval
theorem B_v38 : afterB V ⟪main_v38⟫ = (fun i => shapeCast S1x8 (V ⟪main_arg6⟫) shapeCasts_S8_S1x8 i) := by host_eval
theorem B_arg4 : afterB V ⟪main_arg4⟫ = V ⟪main_arg4⟫ := by host_eval
theorem B_arg5 : afterB V ⟪main_arg5⟫ = V ⟪main_arg5⟫ := by host_eval
theorem B_v1 : afterB V ⟪main_v1⟫ = V ⟪main_v1⟫ := by host_eval
theorem B_v3 : afterB V ⟪main_v3⟫ = V ⟪main_v3⟫ := by host_eval
theorem B_arg7 : afterB V ⟪main_arg7⟫ = V ⟪main_arg7⟫ := by host_eval
theorem B_arg8 : afterB V ⟪main_arg8⟫ = V ⟪main_arg8⟫ := by host_eval
theorem B_arg9 : afterB V ⟪main_arg9⟫ = V ⟪main_arg9⟫ := by host_eval
theorem B_arg10 : afterB V ⟪main_arg10⟫ = V ⟪main_arg10⟫ := by host_eval
theorem B_arg11 : afterB V ⟪main_arg11⟫ = V ⟪main_arg11⟫ := by host_eval

/-! ## Between regions 1 and 2 -/

theorem C_v43 : afterC V ⟪main_v43⟫ = elu8 (F := F) (scatter8 (V ⟪main_v3⟫) (V ⟪main_v39⟫)) := by host_eval
theorem C_v44 : afterC V ⟪main_v44⟫ = (fun i => shapeCast S1x64 (V ⟪main_arg8⟫) shapeCasts_S64_S1x64 i) := by host_eval
theorem C_arg7 : afterC V ⟪main_arg7⟫ = V ⟪main_arg7⟫ := by host_eval
theorem C_v1 : afterC V ⟪main_v1⟫ = V ⟪main_v1⟫ := by host_eval
theorem C_v3 : afterC V ⟪main_v3⟫ = V ⟪main_v3⟫ := by host_eval
theorem C_arg9 : afterC V ⟪main_arg9⟫ = V ⟪main_arg9⟫ := by host_eval
theorem C_arg10 : afterC V ⟪main_arg10⟫ = V ⟪main_arg10⟫ := by host_eval
theorem C_arg11 : afterC V ⟪main_arg11⟫ = V ⟪main_arg11⟫ := by host_eval

/-! ## Between regions 2 and 3 -/

theorem D_v70 : afterD V ⟪main_v70⟫
    = (fun i => shapeCast S3200000x1 (normOf (F := F) (V ⟪main_v1⟫) (V ⟪main_v3⟫)) shapeCasts_S3200000_S3200000x1 i) := by host_eval
theorem D_v77 : afterD V ⟪main_v77⟫ = gather64 (F := F) (V ⟪main_v45⟫) (V ⟪main_v1⟫) := by host_eval
theorem D_v78 : afterD V ⟪main_v78⟫ = (fun i => shapeCast S1x64 (V ⟪main_arg11⟫) shapeCasts_S64_S1x64 i) := by host_eval
theorem D_arg9 : afterD V ⟪main_arg9⟫ = V ⟪main_arg9⟫ := by host_eval
theorem D_arg10 : afterD V ⟪main_arg10⟫ = V ⟪main_arg10⟫ := by host_eval
theorem D_v3 : afterD V ⟪main_v3⟫ = V ⟪main_v3⟫ := by host_eval

/-! ## After region 3 -/

theorem E_v82 : after hostOps4 V ⟪main_v82⟫ = scatter64 (F := F) (V ⟪main_v3⟫) (V ⟪main_v79⟫) := by host_eval

end Cert.KernelIdeal.KHost

end
-- ==== Proof.KTail.lean ====
/-
  The last host stretch of the kernel program — the row-wise log-softmax — read as the specification's function.
  The stretch is fifteen operations; evaluated in one piece the term's nested transports hide its shape, so it is
  walked in six steps, each naming what one or two operations leave:

    the row maximum (a max-reduction from -inf)            →  the vector of -inf
    →  their pointwise maximum                            →  that, as a column, spread over the 64 channels
    →  the input minus it (the CENTRED input)             →  the centred input minus the log of its row sums of exp.

  A buffer a step does not write keeps its contents. Composed, the result buffer holds logSoftmax of the stretch's
  input, as the specification spells it: lsmTail (centered x).
-/
import proofs.«150491_j40063454937540_1_alg».proof.Proof.Gen.KernelIdeal.Launch
import proofs.«150491_j40063454937540_1_alg».proof.Proof.Spec
import Idealize.ShloMosaic.Lib.StableHlo.Run

noncomputable section

namespace Cert.KernelIdeal.KTail

open Idealize.ShloMosaic Idealize.ShloMosaic.TcCoe Idealize.SL.Sem Idealize.ShloMosaic.StableHlo
open Cert.KernelIdeal Cert.KernelIdeal.Gen Cert.RefSpec

variable {F : FTy → Type} [FloatOps F]
variable (W : Valuation τ sig (Elt F))

/-- A TensorCore buffer as a device reference. -/
local notation "⟪" b "⟫" => Proc.devRef Proc.tc b

/-- Operations run one stretch after another are the fold of their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The six steps of the stretch -/

abbrev step1 : List (HloOp τ sig (Elt F)) := (hostOps4_1.take 2)
abbrev step2 : List (HloOp τ sig (Elt F)) := ((hostOps4_1.drop 2).take 2)
abbrev step3 : List (HloOp τ sig (Elt F)) := ((hostOps4_1.drop 4).take 1)
abbrev step4 : List (HloOp τ sig (Elt F)) := ((hostOps4_1.drop 5).take 2)
abbrev step5 : List (HloOp τ sig (Elt F)) := ((hostOps4_1.drop 7).take 1)
abbrev step6 : List (HloOp τ sig (Elt F)) := (hostOps4_1.drop 8)

theorem steps_eq : (hostOps4_1 : List (HloOp τ sig (Elt F))) = step1 ++ (step2 ++ (step3 ++ (step4 ++ (step5 ++ step6)))) := rfl

/-- Evaluate one step at one buffer. -/
local macro "step_eval" : tactic =>
  `(tactic| (dsimp only [step1, step2, step3, step4, step5, step6, hostOps4_1, List.take, List.drop]; after_results_simp; try rfl))

/-- The row maximum, from -inf. -/
def rowMax (x : T F Cert.ReferenceIdeal.S100000x64 .f32) : T F Cert.ReferenceIdeal.S100000 .f32 :=
  Host.reduce FloatOps.maximumf x (constant Cert.ReferenceIdeal.S_ .f32 0xFF800000#32)
    Cert.ReferenceIdeal.Gen.reducesTo_S100000x64_S100000_d1 Cert.ReferenceIdeal.Gen.h_S_

/-- The vector of -inf. -/
def negInf : T F Cert.ReferenceIdeal.S100000 .f32 :=
  broadcastInDim Cert.ReferenceIdeal.S100000 ![] Cert.ReferenceIdeal.Gen.bcast_S_S100000 (constant Cert.ReferenceIdeal.S_ .f32 0xFF800000#32)

/-- A per-row number spread over the row's 64 channels. -/
def spread (v : T F Cert.ReferenceIdeal.S100000 .f32) : T F Cert.ReferenceIdeal.S100000x64 .f32 :=
  broadcastInDim Cert.ReferenceIdeal.S100000x64 ![0, 1] Cert.ReferenceIdeal.Gen.bcast_S100000x1_S100000x64_0_1
    (broadcastInDim Cert.ReferenceIdeal.S100000x1 ![0] Cert.ReferenceIdeal.Gen.bcast_S100000_S100000x1_0 v)

theorem s1_v0 : after step1 W ⟪main_call3_v0⟫ = rowMax (F := F) (W ⟪main_v82⟫) := by
  dsimp only [step1, hostOps4_1, List.take]; after_results_simp
  simp only [TRef.toBuf, TRef.ofBuf, cast_eq]; rfl
theorem s1_v82 : after step1 W ⟪main_v82⟫ = W ⟪main_v82⟫ := by step_eval

theorem s2_v1 : after step2 W ⟪main_call3_v1⟫ = negInf (F := F) := by step_eval
theorem s2_v0 : after step2 W ⟪main_call3_v0⟫ = W ⟪main_call3_v0⟫ := by step_eval
theorem s2_v82 : after step2 W ⟪main_v82⟫ = W ⟪main_v82⟫ := by step_eval

theorem s3_v2 : after step3 W ⟪main_call3_v2⟫ = (maximumf (W ⟪main_call3_v1⟫) (W ⟪main_call3_v0⟫) : T F Cert.ReferenceIdeal.S100000 .f32) := by step_eval
theorem s3_v82 : after step3 W ⟪main_v82⟫ = W ⟪main_v82⟫ := by step_eval

theorem s4_v4 : after step4 W ⟪main_call3_v4⟫ = spread (F := F) (W ⟪main_call3_v2⟫) := by step_eval
theorem s4_v82 : after step4 W ⟪main_v82⟫ = W ⟪main_v82⟫ := by step_eval

theorem s5_v5 : after step5 W ⟪main_call3_v5⟫ = (subf (W ⟪main_v82⟫) (W ⟪main_call3_v4⟫) : T F Cert.ReferenceIdeal.S100000x64 .f32) := by step_eval

theorem s6_v83 : after step6 W ⟪main_v83⟫ = lsmTail (F := F) (W ⟪main_call3_v5⟫) := by step_eval

/-- The centred input, by its steps. -/
theorem centered_eq (x : T F Cert.ReferenceIdeal.S100000x64 .f32) :
    subf x (spread (maximumf (negInf (F := F)) (rowMax x))) = centered x := rfl

/-- The stretch leaves the log-softmax of what it finds in its input buffer. -/
theorem lsm : after hostOps4_1 W ⟪main_v83⟫ = logSoftmax (F := F) (W ⟪main_v82⟫) := by
  rw [steps_eq, after_append, after_append, after_append, after_append, after_append]
  rw [s6_v83, s5_v5, s4_v4, s4_v82, s3_v2, s3_v82, s2_v1, s2_v0, s2_v82, s1_v0, s1_v82]
  exact congrArg lsmTail (centered_eq _)

end Cert.KernelIdeal.KTail

end
-- ==== Proof.LibVecRowCol.lean ====
/-
  A vector seen as a row or as a column: the reshape of an `[a]` array to `[1, a]` (to `[a, 1]`) and its
  `broadcast_in_dim` along axis 1 (axis 0) into the same shape are one function — both read, at `(u, i)`
  (at `(i, u)`), the vector's entry `i`, the unit coordinate `u` carrying nothing.
-/
import Idealize.ShloMosaic.Lib.ValueLayout
import Idealize.ShloMosaic.Lib.Pipeline.Value

namespace Cert.LibVecRowCol

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along axis 1 into `[1, a]` reads, at `(u, i)`, its entry `i`. -/
theorem bcast_row_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- A vector broadcast along axis 0 into `[a, 1]` reads, at `(i, u)`, its entry `i`. -/
theorem bcast_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The reshape of a vector to a row is its broadcast along axis 1. -/
theorem row_cast_eq_bcast {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨u, i, rfl⟩ : ∃ (u : Fin 1) (i : Fin a), j = ix2 u i := ⟨j 0, j 1, eq_ix2 j⟩
  rw [shapeCast_a_1a_apply, bcast_row_apply]

/-- The reshape of a vector to a column is its broadcast along axis 0. -/
theorem col_cast_eq_bcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨i, u, rfl⟩ : ∃ (i : Fin a) (u : Fin 1), j = ix2 i u := ⟨j 0, j 1, eq_ix2 j⟩
  rw [shapeCast_a_a1_apply, bcast_col_apply]

end Cert.LibVecRowCol
-- ==== Proof.KValue.lean ====
/-
  The idealized kernel's RESULT as a function of its arguments. The run ends with the result buffer at the last
  segment boundary's contents (KRun); here those contents are walked back, boundary by boundary, to the launch
  memory: a host stretch leaves the specification's functions of what it found (KHost), a region leaves in its output
  array the dense layer / the per-edge gate of its input arrays (the four region values, taken here as hypotheses
  and proved in the modules on the regions) and every other buffer as it found it. Composed, the result is
  Cert.RefSpec.model of the twelve argument arrays — the term the reference's run ends at.

  Two spellings differ between the programs and are reconciled here: the kernel reshapes a bias vector to a [1,C]
  row and the normalisation to an [E,1] column where the reference broadcasts them along an axis; a reshape of a
  vector to a row (column) is that broadcast.
-/
import proofs.«150491_j40063454937540_1_alg».proof.Proof.Gen.KernelIdeal.Frame
import proofs.«150491_j40063454937540_1_alg».proof.Proof.KHost
import proofs.«150491_j40063454937540_1_alg».proof.Proof.KTail
import proofs.«150491_j40063454937540_1_alg».proof.Proof.LibVecRowCol

noncomputable section

namespace Cert.KernelIdeal.KValue

open Idealize.ShloMosaic Idealize.ShloMosaic.TcCoe Idealize.SL.Sem Idealize.ShloMosaic.StableHlo
open Cert.KernelIdeal Cert.KernelIdeal.Gen Cert.RefSpec Cert.KernelIdeal.KHost Cert.LibVecRowCol

/-- A TensorCore buffer as a device reference. -/
local notation "⟪" b "⟫" => Proc.devRef Proc.tc b

/-- What the four regions leave in their output arrays, as functions of the arrays they are entered with. -/
structure RegionValues : Prop where
  dense0 : ∀ (V : (c : Dev nD) → (b : Ref sig .tc) → Buf (Elt Ideal) ((c : Thread nD τ).loc b)) (c : Dev nD),
    (dat0 (F := Ideal) V c).arrAt 3 cfg0.N = dense8 (F := Ideal) (V c main_arg0) (V c main_arg2) (V c main_v4)
  edge1 : ∀ (V : (c : Dev nD) → (b : Ref sig .tc) → Buf (Elt Ideal) ((c : Thread nD τ).loc b)) (c : Dev nD),
    (dat1 (F := Ideal) V c).arrAt 5 cfg1.N
      = edge8 (F := Ideal) (V c main_v30) (V c main_v37) (V c main_arg4) (V c main_arg5) (V c main_v38)
  dense2 : ∀ (V : (c : Dev nD) → (b : Ref sig .tc) → Buf (Elt Ideal) ((c : Thread nD τ).loc b)) (c : Dev nD),
    (dat2 (F := Ideal) V c).arrAt 3 cfg2.N = dense64 (F := Ideal) (V c main_v43) (V c main_arg7) (V c main_v44)
  edge3 : ∀ (V : (c : Dev nD) → (b : Ref sig .tc) → Buf (Elt Ideal) ((c : Thread nD τ).loc b)) (c : Dev nD),
    (dat3 (F := Ideal) V c).arrAt 5 cfg3.N
      = edge64 (F := Ideal) (V c main_v70) (V c main_v77) (V c main_arg9) (V c main_arg10) (V c main_v78)

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)
local notation "𝐚10" => m ((c : Thread nD τ).loc main_arg10)
local notation "𝐚11" => m ((c : Thread nD τ).loc main_arg11)

/-! ## The intermediate arrays, as functions of the arguments -/

/-- The first dense layer. -/
def h1 : T Ideal Cert.ReferenceIdeal.S100000x8 .f32 := dense8 (F := Ideal) 𝐚0 𝐚2 (bias8 𝐚3)
/-- The normalisation column. -/
def nrm : T Ideal Cert.ReferenceIdeal.S3200000x1 .f32 := normCol (F := Ideal) (rowOf 𝐚1) (colOf 𝐚1)
/-- The first layer's messages. -/
def msg1 : T Ideal Cert.ReferenceIdeal.S3200000x8 .f32 :=
  edge8 (F := Ideal) (nrm m c) (gather8 (h1 m c) (rowOf 𝐚1)) 𝐚4 𝐚5 (bias8 𝐚6)
/-- The second layer's input. -/
def x2 : T Ideal Cert.ReferenceIdeal.S100000x8 .f32 := elu8 (F := Ideal) (scatter8 (colOf 𝐚1) (msg1 m c))
/-- The second dense layer. -/
def h2 : T Ideal Cert.ReferenceIdeal.S100000x64 .f32 := dense64 (F := Ideal) (x2 m c) 𝐚7 (bias64 𝐚8)
/-- The second layer's messages. -/
def msg2 : T Ideal Cert.ReferenceIdeal.S3200000x64 .f32 :=
  edge64 (F := Ideal) (nrm m c) (gather64 (h2 m c) (rowOf 𝐚1)) 𝐚9 𝐚10 (bias64 𝐚11)

/-! ## Region 0's entry -/

theorem w1_v1 : W1 m ρ c ⟪main_v1⟫ = rowOf (F := Ideal) 𝐚1 := A_v1 (W0 m ρ c)
theorem w1_v3 : W1 m ρ c ⟪main_v3⟫ = colOf (F := Ideal) 𝐚1 := A_v3 (W0 m ρ c)
theorem w1_v4 : W1 m ρ c ⟪main_v4⟫ = bias8 (F := Ideal) 𝐚3 := (A_v4 (W0 m ρ c)).trans (row_cast_eq_bcast _ _ _)
theorem w1_arg0 : W1 m ρ c ⟪main_arg0⟫ = 𝐚0 := A_arg0 (W0 m ρ c)
theorem w1_arg2 : W1 m ρ c ⟪main_arg2⟫ = 𝐚2 := A_arg2 (W0 m ρ c)
theorem w1_arg4 : W1 m ρ c ⟪main_arg4⟫ = 𝐚4 := A_arg4 (W0 m ρ c)
theorem w1_arg5 : W1 m ρ c ⟪main_arg5⟫ = 𝐚5 := A_arg5 (W0 m ρ c)
theorem w1_arg6 : W1 m ρ c ⟪main_arg6⟫ = 𝐚6 := A_arg6 (W0 m ρ c)
theorem w1_arg7 : W1 m ρ c ⟪main_arg7⟫ = 𝐚7 := A_arg7 (W0 m ρ c)
theorem w1_arg8 : W1 m ρ c ⟪main_arg8⟫ = 𝐚8 := A_arg8 (W0 m ρ c)
theorem w1_arg9 : W1 m ρ c ⟪main_arg9⟫ = 𝐚9 := A_arg9 (W0 m ρ c)
theorem w1_arg10 : W1 m ρ c ⟪main_arg10⟫ = 𝐚10 := A_arg10 (W0 m ρ c)
theorem w1_arg11 : W1 m ρ c ⟪main_arg11⟫ = 𝐚11 := A_arg11 (W0 m ρ c)

/-! ## Region 0's exit -/

theorem w2_v5 (R : RegionValues) : W2 m ρ c ⟪main_v5⟫ = h1 m c :=
  (W2_arr m ρ c 3).trans ((R.dense0 (V1 m ρ) c).trans (by
    rw [show V1 m ρ c main_arg0 = 𝐚0 from w1_arg0 m ρ c, show V1 m ρ c main_arg2 = 𝐚2 from w1_arg2 m ρ c,
      show V1 m ρ c main_v4 = bias8 (F := Ideal) 𝐚3 from w1_v4 m ρ c]; rfl))
theorem w2_v1 : W2 m ρ c ⟪main_v1⟫ = rowOf (F := Ideal) 𝐚1 := (W2_of_ne m ρ c main_v1 (by decide)).trans (w1_v1 m ρ c)
theorem w2_v3 : W2 m ρ c ⟪main_v3⟫ = colOf (F := Ideal) 𝐚1 := (W2_of_ne m ρ c main_v3 (by decide)).trans (w1_v3 m ρ c)
theorem w2_arg4 : W2 m ρ c ⟪main_arg4⟫ = 𝐚4 := (W2_of_ne m ρ c main_arg4 (by decide)).trans (w1_arg4 m ρ c)
theorem w2_arg5 : W2 m ρ c ⟪main_arg5⟫ = 𝐚5 := (W2_of_ne m ρ c main_arg5 (by decide)).trans (w1_arg5 m ρ c)
theorem w2_arg6 : W2 m ρ c ⟪main_arg6⟫ = 𝐚6 := (W2_of_ne m ρ c main_arg6 (by decide)).trans (w1_arg6 m ρ c)
theorem w2_arg7 : W2 m ρ c ⟪main_arg7⟫ = 𝐚7 := (W2_of_ne m ρ c main_arg7 (by decide)).trans (w1_arg7 m ρ c)
theorem w2_arg8 : W2 m ρ c ⟪main_arg8⟫ = 𝐚8 := (W2_of_ne m ρ c main_arg8 (by decide)).trans (w1_arg8 m ρ c)
theorem w2_arg9 : W2 m ρ c ⟪main_arg9⟫ = 𝐚9 := (W2_of_ne m ρ c main_arg9 (by decide)).trans (w1_arg9 m ρ c)
theorem w2_arg10 : W2 m ρ c ⟪main_arg10⟫ = 𝐚10 := (W2_of_ne m ρ c main_arg10 (by decide)).trans (w1_arg10 m ρ c)
theorem w2_arg11 : W2 m ρ c ⟪main_arg11⟫ = 𝐚11 := (W2_of_ne m ρ c main_arg11 (by decide)).trans (w1_arg11 m ρ c)

/-! ## Region 1's entry -/

theorem w5_v30 : W5 m ρ c ⟪main_v30⟫ = nrm m c :=
  (B_v30 (W2 m ρ c)).trans (by
    rw [w2_v1 m ρ c, w2_v3 m ρ c]
    exact col_cast_eq_bcast _ _ Cert.ReferenceIdeal.Gen.bcast_S3200000_S3200000x1_0)
theorem w5_v37 (R : RegionValues) : W5 m ρ c ⟪main_v37⟫ = gather8 (F := Ideal) (h1 m c) (rowOf 𝐚1) :=
  (B_v37 (W2 m ρ c)).trans (by rw [w2_v5 m ρ c R, w2_v1 m ρ c])
theorem w5_v38 : W5 m ρ c ⟪main_v38⟫ = bias8 (F := Ideal) 𝐚6 :=
  (B_v38 (W2 m ρ c)).trans (by rw [w2_arg6 m ρ c]; exact row_cast_eq_bcast _ _ _)
theorem w5_arg4 : W5 m ρ c ⟪main_arg4⟫ = 𝐚4 := (B_arg4 (W2 m ρ c)).trans (w2_arg4 m ρ c)
theorem w5_arg5 : W5 m ρ c ⟪main_arg5⟫ = 𝐚5 := (B_arg5 (W2 m ρ c)).trans (w2_arg5 m ρ c)
theorem w5_v1 : W5 m ρ c ⟪main_v1⟫ = rowOf (F := Ideal) 𝐚1 := (B_v1 (W2 m ρ c)).trans (w2_v1 m ρ c)
theorem w5_v3 : W5 m ρ c ⟪main_v3⟫ = colOf (F := Ideal) 𝐚1 := (B_v3 (W2 m ρ c)).trans (w2_v3 m ρ c)
theorem w5_arg7 : W5 m ρ c ⟪main_arg7⟫ = 𝐚7 := (B_arg7 (W2 m ρ c)).trans (w2_arg7 m ρ c)
theorem w5_arg8 : W5 m ρ c ⟪main_arg8⟫ = 𝐚8 := (B_arg8 (W2 m ρ c)).trans (w2_arg8 m ρ c)
theorem w5_arg9 : W5 m ρ c ⟪main_arg9⟫ = 𝐚9 := (B_arg9 (W2 m ρ c)).trans (w2_arg9 m ρ c)
theorem w5_arg10 : W5 m ρ c ⟪main_arg10⟫ = 𝐚10 := (B_arg10 (W2 m ρ c)).trans (w2_arg10 m ρ c)
theorem w5_arg11 : W5 m ρ c ⟪main_arg11⟫ = 𝐚11 := (B_arg11 (W2 m ρ c)).trans (w2_arg11 m ρ c)

/-! ## Region 1's exit -/

theorem w6_v39 (R : RegionValues) : W6 m ρ c ⟪main_v39⟫ = msg1 m c :=
  (W6_arr m ρ c 5).trans ((R.edge1 (V5 m ρ) c).trans (by
    rw [show V5 m ρ c main_v30 = nrm m c from w5_v30 m ρ c,
      show V5 m ρ c main_v37 = gather8 (F := Ideal) (h1 m c) (rowOf 𝐚1) from w5_v37 m ρ c R,
      show V5 m ρ c main_arg4 = 𝐚4 from w5_arg4 m ρ c, show V5 m ρ c main_arg5 = 𝐚5 from w5_arg5 m ρ c,
      show V5 m ρ c main_v38 = bias8 (F := Ideal) 𝐚6 from w5_v38 m ρ c]; rfl))
theorem w6_v1 : W6 m ρ c ⟪main_v1⟫ = rowOf (F := Ideal) 𝐚1 := (W6_of_ne m ρ c main_v1 (by decide)).trans (w5_v1 m ρ c)
theorem w6_v3 : W6 m ρ c ⟪main_v3⟫ = colOf (F := Ideal) 𝐚1 := (W6_of_ne m ρ c main_v3 (by decide)).trans (w5_v3 m ρ c)
theorem w6_arg7 : W6 m ρ c ⟪main_arg7⟫ = 𝐚7 := (W6_of_ne m ρ c main_arg7 (by decide)).trans (w5_arg7 m ρ c)
theorem w6_arg8 : W6 m ρ c ⟪main_arg8⟫ = 𝐚8 := (W6_of_ne m ρ c main_arg8 (by decide)).trans (w5_arg8 m ρ c)
theorem w6_arg9 : W6 m ρ c ⟪main_arg9⟫ = 𝐚9 := (W6_of_ne m ρ c main_arg9 (by decide)).trans (w5_arg9 m ρ c)
theorem w6_arg10 : W6 m ρ c ⟪main_arg10⟫ = 𝐚10 := (W6_of_ne m ρ c main_arg10 (by decide)).trans (w5_arg10 m ρ c)
theorem w6_arg11 : W6 m ρ c ⟪main_arg11⟫ = 𝐚11 := (W6_of_ne m ρ c main_arg11 (by decide)).trans (w5_arg11 m ρ c)

/-! ## Region 2's entry -/

theorem w9_v43 (R : RegionValues) : W9 m ρ c ⟪main_v43⟫ = x2 m c :=
  (C_v43 (W6 m ρ c)).trans (by rw [w6_v3 m ρ c, w6_v39 m ρ c R]; rfl)
theorem w9_v44 : W9 m ρ c ⟪main_v44⟫ = bias64 (F := Ideal) 𝐚8 :=
  (C_v44 (W6 m ρ c)).trans (by rw [w6_arg8 m ρ c]; exact row_cast_eq_bcast _ _ _)
theorem w9_arg7 : W9 m ρ c ⟪main_arg7⟫ = 𝐚7 := (C_arg7 (W6 m ρ c)).trans (w6_arg7 m ρ c)
theorem w9_v1 : W9 m ρ c ⟪main_v1⟫ = rowOf (F := Ideal) 𝐚1 := (C_v1 (W6 m ρ c)).trans (w6_v1 m ρ c)
theorem w9_v3 : W9 m ρ c ⟪main_v3⟫ = colOf (F := Ideal) 𝐚1 := (C_v3 (W6 m ρ c)).trans (w6_v3 m ρ c)
theorem w9_arg9 : W9 m ρ c ⟪main_arg9⟫ = 𝐚9 := (C_arg9 (W6 m ρ c)).trans (w6_arg9 m ρ c)
theorem w9_arg10 : W9 m ρ c ⟪main_arg10⟫ = 𝐚10 := (C_arg10 (W6 m ρ c)).trans (w6_arg10 m ρ c)
theorem w9_arg11 : W9 m ρ c ⟪main_arg11⟫ = 𝐚11 := (C_arg11 (W6 m ρ c)).trans (w6_arg11 m ρ c)

/-! ## Region 2's exit -/

theorem w10_v45 (R : RegionValues) : W10 m ρ c ⟪main_v45⟫ = h2 m c :=
  (W10_arr m ρ c 3).trans ((R.dense2 (V9 m ρ) c).trans (by
    rw [show V9 m ρ c main_v43 = x2 m c from w9_v43 m ρ c R, show V9 m ρ c main_arg7 = 𝐚7 from w9_arg7 m ρ c,
      show V9 m ρ c main_v44 = bias64 (F := Ideal) 𝐚8 from w9_v44 m ρ c]; rfl))
theorem w10_v1 : W10 m ρ c ⟪main_v1⟫ = rowOf (F := Ideal) 𝐚1 := (W10_of_ne m ρ c main_v1 (by decide)).trans (w9_v1 m ρ c)
theorem w10_v3 : W10 m ρ c ⟪main_v3⟫ = colOf (F := Ideal) 𝐚1 := (W10_of_ne m ρ c main_v3 (by decide)).trans (w9_v3 m ρ c)
theorem w10_arg9 : W10 m ρ c ⟪main_arg9⟫ = 𝐚9 := (W10_of_ne m ρ c main_arg9 (by decide)).trans (w9_arg9 m ρ c)
theorem w10_arg10 : W10 m ρ c ⟪main_arg10⟫ = 𝐚10 := (W10_of_ne m ρ c main_arg10 (by decide)).trans (w9_arg10 m ρ c)
theorem w10_arg11 : W10 m ρ c ⟪main_arg11⟫ = 𝐚11 := (W10_of_ne m ρ c main_arg11 (by decide)).trans (w9_arg11 m ρ c)

/-! ## Region 3's entry -/

theorem w13_v70 : W13 m ρ c ⟪main_v70⟫ = nrm m c :=
  (D_v70 (W10 m ρ c)).trans (by
    rw [w10_v1 m ρ c, w10_v3 m ρ c]
    exact col_cast_eq_bcast _ _ Cert.ReferenceIdeal.Gen.bcast_S3200000_S3200000x1_0)
theorem w13_v77 (R : RegionValues) : W13 m ρ c ⟪main_v77⟫ = gather64 (F := Ideal) (h2 m c) (rowOf 𝐚1) :=
  (D_v77 (W10 m ρ c)).trans (by rw [w10_v45 m ρ c R, w10_v1 m ρ c])
theorem w13_v78 : W13 m ρ c ⟪main_v78⟫ = bias64 (F := Ideal) 𝐚11 :=
  (D_v78 (W10 m ρ c)).trans (by rw [w10_arg11 m ρ c]; exact row_cast_eq_bcast _ _ _)
theorem w13_arg9 : W13 m ρ c ⟪main_arg9⟫ = 𝐚9 := (D_arg9 (W10 m ρ c)).trans (w10_arg9 m ρ c)
theorem w13_arg10 : W13 m ρ c ⟪main_arg10⟫ = 𝐚10 := (D_arg10 (W10 m ρ c)).trans (w10_arg10 m ρ c)
theorem w13_v3 : W13 m ρ c ⟪main_v3⟫ = colOf (F := Ideal) 𝐚1 := (D_v3 (W10 m ρ c)).trans (w10_v3 m ρ c)

/-! ## Region 3's exit, and the result -/

theorem w14_v79 (R : RegionValues) : W14 m ρ c ⟪main_v79⟫ = msg2 m c :=
  (W14_arr m ρ c 5).trans ((R.edge3 (V13 m ρ) c).trans (by
    rw [show V13 m ρ c main_v70 = nrm m c from w13_v70 m ρ c,
      show V13 m ρ c main_v77 = gather64 (F := Ideal) (h2 m c) (rowOf 𝐚1) from w13_v77 m ρ c R,
      show V13 m ρ c main_arg9 = 𝐚9 from w13_arg9 m ρ c, show V13 m ρ c main_arg10 = 𝐚10 from w13_arg10 m ρ c,
      show V13 m ρ c main_v78 = bias64 (F := Ideal) 𝐚11 from w13_v78 m ρ c]; rfl))
theorem w14_v3 : W14 m ρ c ⟪main_v3⟫ = colOf (F := Ideal) 𝐚1 := (W14_of_ne m ρ c main_v3 (by decide)).trans (w13_v3 m ρ c)

/-- The result buffer's contents at the last boundary are the network of the twelve argument arrays. -/
theorem w15_v82 (R : RegionValues) : W15 m ρ c ⟪main_v82⟫ = scatter64 (F := Ideal) (colOf 𝐚1) (msg2 m c) :=
  (E_v82 (W14 m ρ c)).trans (by rw [w14_v3 m ρ c, w14_v79 m ρ c R])

theorem result_eq (R : RegionValues) :
    W16 m ρ c ⟪main_v83⟫ = model (F := Ideal) 𝐚0 𝐚1 𝐚2 𝐚3 𝐚4 𝐚5 𝐚6 𝐚7 𝐚8 𝐚9 𝐚10 𝐚11 :=
  (Cert.KernelIdeal.KTail.lsm (W15 m ρ c)).trans (by rw [w15_v82 m ρ c R]; rfl)

end Cert.KernelIdeal.KValue

end
-- ==== Proof.DenseValue.lean ====
/-
  The two dense layers of the tiled kernel, read off the kernel's generated frame at the extended reals.

  A dense region walks a grid of twenty points. At point t it stages rows 5000·t … 5000·t + 4999 of x, the whole
  weight matrix W and the bias row b, and stores, for each staged row r and column q,
      Σ_k x[5000·t + r, k] · W[k, q]  +  b[0, q]
  (rounding the operands to bf16 is the identity on the extended reals, and the product accumulates into zero);
  that block is then written back to rows 5000·t … 5000·t + 4999 of the output array. The specification's dense
  layer read at row R, column q is the same sum over the whole arrays, so what point t writes back is the
  restriction of the specification's layer to the block's rows. The twenty blocks cover all 100000 rows (row R
  lies in block R / 5000), hence the output array ends as the specification's dense layer of the arrays the
  region found. Region 0 is the [100000,512]·[512,8] layer, region 2 the [100000,8]·[8,64] layer; the second
  differs only in its shapes and in an identity reshape of the x block.

  * plainDot_sum            — a contraction of an [M,K] by a [K,N] array over the shared axis, as a sum over k < K.
  * pay0_apply, pay2_apply  — one block's stored value at (r, q).
  * dense8_apply, dense64_apply — the specification's dense layer at (R, q).
  * idx_facts0, idx_facts2  — which block of each array a grid point stages.
  * block0_eq, block2_eq    — a block entry is the specification's entry at the row the block's row sits at.
  * flushed0_eq, flushed2_eq — what a point writes back is its block of the specification's layer.
  * cover0, cover2, dense0, dense2 — the blocks cover the array; the final array.
-/
import proofs.«150491_j40063454937540_1_alg».proof.Proof.Spec
import proofs.«150491_j40063454937540_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.DenseValue

open Cert.KernelIdeal Cert.KernelIdeal.Gen

/-- A product of an [M,K] by a [K,N] array, contracted over the one shared axis: the sum over the
    contraction index is the sum over k < K of row r of the left times column q of the right. -/
theorem plainDot_sum {M K N : Nat} (d : DotDims ⟨2, ![M, K]⟩ ⟨2, ![K, N]⟩ ⟨2, ![M, N]⟩)
    (hr : d.contr.rank = 1) (hs : d.contr.size ⟨0, by omega⟩ = K)
    (h00 : ∀ j k, (d.lhsIdx j k 0).val = (j 0).val) (h01 : ∀ j k, (d.lhsIdx j k 1).val = (k ⟨0, by omega⟩).val)
    (h10 : ∀ j k, (d.rhsIdx j k 0).val = (k ⟨0, by omega⟩).val) (h11 : ∀ j k, (d.rhsIdx j k 1).val = (j 1).val)
    (x : (⟨2, ![M, K]⟩ : Shape).Idx → EReal) (w : (⟨2, ![K, N]⟩ : Shape).Idx → EReal) (r : Fin M) (q : Fin N) :
    ∑ k : d.contr.Idx, x (d.lhsIdx (ix2 r q) k) * w (d.rhsIdx (ix2 r q) k) = ∑ k : Fin K, x (ix2 r k) * w (ix2 k q) := by
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  have hl : d.lhsIdx (ix2 r q) ((contrEquiv1 d K hr hs).symm k) = ix2 r k := funext fun a => Fin.ext (by
    match a with
    | ⟨0, _⟩ => exact h00 _ _
    | ⟨1, _⟩ => exact (h01 _ _).trans hk)
  have hrr : d.rhsIdx (ix2 r q) ((contrEquiv1 d K hr hs).symm k) = ix2 k q := funext fun a => Fin.ext (by
    match a with
    | ⟨0, _⟩ => exact (h10 _ _).trans hk
    | ⟨1, _⟩ => exact h11 _ _)
  rw [hl, hrr]

/-- The zero offsets of a whole-block access, as the constant function. -/
theorem hz : (![0, 0] : Fin 2 → Nat) = fun _ => 0 := funext fun a => by fin_cases a <;> rfl

/-! ## Region 0: the [100000,512] · [512,8] dense layer, twenty row blocks of 5000 rows -/

/-- One row-block's payload at row r, column q: row r of the block times column q of the weights, plus
    entry q of the bias row. (Rounding the operands to bf16 is the identity on the extended reals, and the
    accumulator is zero.) -/
theorem pay0_apply (x0 : Vec Ideal S5000x512 .f32) (x1 : Vec Ideal S512x8 .f32) (x2 : Vec Ideal S1x8 .f32) (r : Fin 5000) (q : Fin 8) :
    Gen.k0_pay1 (F := Ideal) x0 x1 x2 (ix2 r q) = (∑ k : Fin 512, x0 (ix2 r k) * x1 (ix2 k q)) + x2 (ix2 (0 : Fin 1) q) := by
  unfold Gen.k0_pay1
  refine congrArg₂ (· + ·) ?_ ?_
  · refine (Ideal.matmul_constant_zero_apply dot_S5000x512_S512x8_S5000x8_1_0_0_1_n_n none _ _ (ix2 r q)).trans ?_
    exact plainDot_sum dot_S5000x512_S512x8_S5000x8_1_0_0_1_n_n rfl rfl (fun _ _ => rfl) (fun _ _ => rfl) (fun _ _ => rfl) (fun _ _ => rfl) x0 x1 r q
  · refine (broadcastTo_apply _ broadcasts_S1x8_S5000x8 (ix2 r q) (ix2 (0 : Fin 1) q) ?_).trans ?_
    · intro a
      match a with
      | ⟨0, _⟩ => rfl
      | ⟨1, _⟩ => rfl
    · exact congrFun (shapeCast_self x2 shapeCasts_S1x8_S1x8) _

/-- The dense layer of the specification at row r, column q: the same sum over the whole arrays. -/
theorem dense8_apply (X : Cert.RefSpec.T Ideal Cert.ReferenceIdeal.S100000x512 .f32) (W : Cert.RefSpec.T Ideal Cert.ReferenceIdeal.S512x8 .f32)
    (b : Cert.RefSpec.T Ideal Cert.ReferenceIdeal.S1x8 .f32) (r : Fin 100000) (q : Fin 8) :
    Cert.RefSpec.dense8 (F := Ideal) X W b (ix2 r q) = (∑ k : Fin 512, X (ix2 r k) * W (ix2 k q)) + b (ix2 (0 : Fin 1) q) := by
  unfold Cert.RefSpec.dense8
  refine congrArg₂ (· + ·) ?_ ?_
  · refine (Ideal.dotGeneral_apply Cert.ReferenceIdeal.dot_S100000x512_S512x8_S100000x8_1_0_0_1_n_n none .single _ _ (ix2 r q)).trans ?_
    exact plainDot_sum Cert.ReferenceIdeal.dot_S100000x512_S512x8_S100000x8_1_0_0_1_n_n rfl rfl (fun _ _ => rfl) (fun _ _ => rfl) (fun _ _ => rfl) (fun _ _ => rfl) X W r q
  · refine broadcastInDim_apply _ _ b (ix2 r q) (ix2 (0 : Fin 1) q) ?_
    intro a
    match a with
    | ⟨0, _⟩ => rfl
    | ⟨1, _⟩ => rfl

/-- Where each window's block sits at grid point t: the x block and the output block are row-block t, the
    weights and the bias row are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block's payload is the specification's entry at the row the block's row sits at, as soon as
    the block of x holds that row of the array, and the weight and bias blocks hold the arrays. -/
theorem block0_eq (x0 : Vec Ideal S5000x512 .f32) (x1 : Vec Ideal S512x8 .f32) (x2 : Vec Ideal S1x8 .f32)
    (X : Cert.RefSpec.T Ideal Cert.ReferenceIdeal.S100000x512 .f32) (W : Cert.RefSpec.T Ideal Cert.ReferenceIdeal.S512x8 .f32)
    (b : Cert.RefSpec.T Ideal Cert.ReferenceIdeal.S1x8 .f32)
    (r : Fin 5000) (q : Fin 8) (R : Fin 100000)
    (h0 : ∀ k : Fin 512, x0 (ix2 r k) = X (ix2 R k))
    (h1 : ∀ k : Fin 512, x1 (ix2 k q) = W (ix2 k q))
    (h2 : x2 (ix2 (0 : Fin 1) q) = b (ix2 (0 : Fin 1) q)) :
    Gen.k0_pay1 (F := Ideal) x0 x1 x2 (ix2 r q) = Cert.RefSpec.dense8 (F := Ideal) X W b (ix2 R q) := by
  rw [pay0_apply, dense8_apply, h2]
  exact congrArg (· + _) (Finset.sum_congr rfl fun k _ => by rw [h0 k, h1 k])

section
variable (V : (c : Dev nD) → (b : Ref sig .tc) → Buf (Elt Ideal) ((c : Thread nD τ).loc b))

set_option maxHeartbeats 400000 in
/-- What grid point t writes back is row-block t of the dense layer of the arrays as the region finds them:
    the payload of the three input blocks, each block read where the output block's rows sit. -/
theorem flushed0_eq (c : Dev nD) (t : Fin cfg0.N) :
    (Gen.dat0 (F := Ideal) V c).flushed 3 t
      = ((cfg0.win 3).blk t).view.read (Elt Ideal) (Cert.RefSpec.dense8 (F := Ideal) (V c main_arg0) (V c main_arg2) (V c main_v4)) := by
  show (cfg0.win 3).cut (grid0.coords t) ((Gen.dat0 (F := Ideal) V c).after 3 t) = _
  rw [Gen.after0_3]
  unfold Gen.out0_3
  rw [View.canon_unit_zero hz]
  simp only [View.ld_unit_zero (S := S5000x512) hz, View.ld_unit_zero (S := S512x8) hz, View.ld_unit_zero (S := S1x8) hz]
  obtain ⟨e00, e01, e10, e11, e20, e21, e30, e31⟩ := idx_facts0 t
  have ht : t.val < 20 := t.isLt
  funext j
  obtain ⟨r, q, rfl⟩ : ∃ (r : Fin 5000) (q : Fin 8), j = ix2 r q := ⟨j 0, j 1, eq_ix2 j⟩
  have hr : r.val < 5000 := r.isLt
  have hR : t.val * 5000 + r.val < 100000 := by omega
  have hemb : ((cfg0.win 3).blk t).view.emb (ix2 r q) = ix2 (⟨t.val * 5000 + r.val, hR⟩ : Fin 100000) q :=
    funext fun a => Fin.ext (by
      match a with
      | ⟨0, _⟩ => show win0_3.index t (0 : Fin 2) * 5000 + 1 * r.val = t.val * 5000 + r.val; rw [e30]; omega
      | ⟨1, _⟩ => show win0_3.index t (1 : Fin 2) * 8 + 1 * q.val = q.val; rw [e31]; omega)
  show Gen.k0_pay1 (F := Ideal) (iblk0 V c 0 t) (iblk0 V c 1 t) (iblk0 V c 2 t) (ix2 r q)
    = Cert.RefSpec.dense8 (F := Ideal) (V c main_arg0) (V c main_arg2) (V c main_v4) (((cfg0.win 3).blk t).view.emb (ix2 r q))
  rw [hemb]
  refine block0_eq (iblk0 V c 0 t) (iblk0 V c 1 t) (iblk0 V c 2 t) (V c main_arg0) (V c main_arg2) (V c main_v4) r q ⟨t.val * 5000 + r.val, hR⟩
    (fun k => ?_) (fun k => ?_) ?_
  · show V c main_arg0 (((cfg0.win 0).blk t).view.emb (ix2 r k)) = V c main_arg0 (ix2 (⟨t.val * 5000 + r.val, hR⟩ : Fin 100000) k)
    refine congrArg (V c main_arg0) (funext fun a => Fin.ext ?_)
    match a with
    | ⟨0, _⟩ => show win0_0.index t (0 : Fin 2) * 5000 + 1 * r.val = t.val * 5000 + r.val; rw [e00]; omega
    | ⟨1, _⟩ => show win0_0.index t (1 : Fin 2) * 512 + 1 * k.val = k.val; rw [e01]; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 512 + 1 * k.val = k.val; rw [e10]; omega
    | ⟨1, _⟩ => show win0_1.index t (1 : Fin 2) * 8 + 1 * q.val = q.val; rw [e11]; omega
  · show V c main_v4 (((cfg0.win 2).blk t).view.emb (ix2 (0 : Fin 1) q)) = V c main_v4 (ix2 (0 : Fin 1) q)
    refine congrArg (V c main_v4) (funext fun a => Fin.ext ?_)
    match a with
    | ⟨0, _⟩ => show win0_2.index t (0 : Fin 2) * 1 + 1 * 0 = 0; rw [e20]
    | ⟨1, _⟩ => show win0_2.index t (1 : Fin 2) * 8 + 1 * q.val = q.val; rw [e21]; omega

/-- An index of the [100000,8] array is in point t's block iff its row is in rows 5000·t … 5000·t + 4999. -/
theorem mem_blk0 (t : Fin cfg0.N) (i : S100000x8.Idx) :
    i ∈ ((cfg0.win 3).blk t).view.set ↔ ∀ a : Fin 2, win0_3.index t a * S5000x8.size a ≤ (i a).val ∧ (i a).val < win0_3.index t a * S5000x8.size a + S5000x8.size a := by
  show i ∈ ((View.whole main_v5).slice (win0_3.rect t)).set ↔ _
  rw [View.set_slice_whole, Rect.mem_set_unit]
  exact Iff.rfl

/-- Every row of the array is in the block of the point row / 5000, and every point writes back. -/
theorem cover0 (i : S100000x8.Idx) : ∃ t : Fin cfg0.N, (cfg0.win 3).flush t = true ∧ i ∈ ((cfg0.win 3).blk t).view.set := by
  have hi0 : (i 0).val < 100000 := (i 0).isLt
  have hi1 : (i 1).val < 8 := (i 1).isLt
  have hlt : (i 0).val / 5000 < 20 := by omega
  obtain ⟨t, ht⟩ : ∃ t : Fin cfg0.N, t.val = (i 0).val / 5000 := ⟨⟨(i 0).val / 5000, hlt⟩, rfl⟩
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 8 ≤ (i 1).val ∧ (i 1).val < win0_3.index t (1 : Fin 2) * 8 + 8; rw [e31]; omega

/-- REGION 0: after its twenty points the output array is the dense layer x·W + b of the arrays the region found. -/
theorem dense0 (c : Dev nD) :
    (Gen.dat0 (F := Ideal) V c).arrAt 3 cfg0.N = Cert.RefSpec.dense8 (F := Ideal) (V c main_arg0) (V c main_arg2) (V c main_v4) :=
  (Gen.dat0 (F := Ideal) V c).arrAt_eq_of_cover 3 (Cert.RefSpec.dense8 (F := Ideal) (V c main_arg0) (V c main_arg2) (V c main_v4))
    (fun t _ => flushed0_eq V c t) cover0
end

/-! ## Region 2: the [100000,8] · [8,64] dense layer, twenty row blocks of 5000 rows -/

/-- One row-block's payload at row r, column q: row r of the block times column q of the weights, plus
    entry q of the bias row. (Rounding the operands to bf16 is the identity on the extended reals, and the
    accumulator is zero.) -/
theorem pay2_apply (x0 : Vec Ideal S5000x8 .f32) (x1 : Vec Ideal S8x64 .f32) (x2 : Vec Ideal S1x64 .f32) (r : Fin 5000) (q : Fin 64) :
    Gen.k2_pay1 (F := Ideal) x0 x1 x2 (ix2 r q) = (∑ k : Fin 8, x0 (ix2 r k) * x1 (ix2 k q)) + x2 (ix2 (0 : Fin 1) q) := by
  unfold Gen.k2_pay1
  refine congrArg₂ (· + ·) ?_ ?_
  · refine (Ideal.matmul_constant_zero_apply dot_S5000x8_S8x64_S5000x64_1_0_0_1_n_n none _ _ (ix2 r q)).trans ?_
    refine (plainDot_sum dot_S5000x8_S8x64_S5000x64_1_0_0_1_n_n rfl rfl (fun _ _ => rfl) (fun _ _ => rfl) (fun _ _ => rfl) (fun _ _ => rfl) (shapeCast S5000x8 x0 shapeCasts_S5000x8_S5000x8) x1 r q).trans ?_
    rw [shapeCast_self]
  · refine (broadcastTo_apply _ broadcasts_S1x64_S5000x64 (ix2 r q) (ix2 (0 : Fin 1) q) ?_).trans ?_
    · intro a
      match a with
      | ⟨0, _⟩ => rfl
      | ⟨1, _⟩ => rfl
    · exact congrFun (shapeCast_self x2 shapeCasts_S1x64_S1x64) _

/-- The dense layer of the specification at row r, column q: the same sum over the whole arrays. -/
theorem dense64_apply (X : Cert.RefSpec.T Ideal Cert.ReferenceIdeal.S100000x8 .f32) (W : Cert.RefSpec.T Ideal Cert.ReferenceIdeal.S8x64 .f32)
    (b : Cert.RefSpec.T Ideal Cert.ReferenceIdeal.S1x64 .f32) (r : Fin 100000) (q : Fin 64) :
    Cert.RefSpec.dense64 (F := Ideal) X W b (ix2 r q) = (∑ k : Fin 8, X (ix2 r k) * W (ix2 k q)) + b (ix2 (0 : Fin 1) q) := by
  unfold Cert.RefSpec.dense64
  refine congrArg₂ (· + ·) ?_ ?_
  · refine (Ideal.dotGeneral_apply Cert.ReferenceIdeal.dot_S100000x8_S8x64_S100000x64_1_0_0_1_n_n none .single _ _ (ix2 r q)).trans ?_
    exact plainDot_sum Cert.ReferenceIdeal.dot_S100000x8_S8x64_S100000x64_1_0_0_1_n_n rfl rfl (fun _ _ => rfl) (fun _ _ => rfl) (fun _ _ => rfl) (fun _ _ => rfl) X W r q
  · refine broadcastInDim_apply _ _ b (ix2 r q) (ix2 (0 : Fin 1) q) ?_
    intro a
    match a with
    | ⟨0, _⟩ => rfl
    | ⟨1, _⟩ => rfl

/-- Where each window's block sits at grid point t: the x block and the output block are row-block t, the
    weights and the bias row are whole. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of a block's payload is the specification's entry at the row the block's row sits at, as soon as
    the block of x holds that row of the array, and the weight and bias blocks hold the arrays. -/
theorem block2_eq (x0 : Vec Ideal S5000x8 .f32) (x1 : Vec Ideal S8x64 .f32) (x2 : Vec Ideal S1x64 .f32)
    (X : Cert.RefSpec.T Ideal Cert.ReferenceIdeal.S100000x8 .f32) (W : Cert.RefSpec.T Ideal Cert.ReferenceIdeal.S8x64 .f32)
    (b : Cert.RefSpec.T Ideal Cert.ReferenceIdeal.S1x64 .f32)
    (r : Fin 5000) (q : Fin 64) (R : Fin 100000)
    (h0 : ∀ k : Fin 8, x0 (ix2 r k) = X (ix2 R k))
    (h1 : ∀ k : Fin 8, x1 (ix2 k q) = W (ix2 k q))
    (h2 : x2 (ix2 (0 : Fin 1) q) = b (ix2 (0 : Fin 1) q)) :
    Gen.k2_pay1 (F := Ideal) x0 x1 x2 (ix2 r q) = Cert.RefSpec.dense64 (F := Ideal) X W b (ix2 R q) := by
  rw [pay2_apply, dense64_apply, h2]
  exact congrArg (· + _) (Finset.sum_congr rfl fun k _ => by rw [h0 k, h1 k])

section
variable (V : (c : Dev nD) → (b : Ref sig .tc) → Buf (Elt Ideal) ((c : Thread nD τ).loc b))

set_option maxHeartbeats 400000 in
/-- What grid point t writes back is row-block t of the dense layer of the arrays as the region finds them:
    the payload of the three input blocks, each block read where the output block's rows sit. -/
theorem flushed2_eq (c : Dev nD) (t : Fin cfg2.N) :
    (Gen.dat2 (F := Ideal) V c).flushed 3 t
      = ((cfg2.win 3).blk t).view.read (Elt Ideal) (Cert.RefSpec.dense64 (F := Ideal) (V c main_v43) (V c main_arg7) (V c main_v44)) := by
  show (cfg2.win 3).cut (grid2.coords t) ((Gen.dat2 (F := Ideal) V c).after 3 t) = _
  rw [Gen.after2_3]
  unfold Gen.out2_3
  rw [View.canon_unit_zero hz]
  simp only [View.ld_unit_zero (S := S5000x8) hz, View.ld_unit_zero (S := S8x64) hz, View.ld_unit_zero (S := S1x64) hz]
  obtain ⟨e00, e01, e10, e11, e20, e21, e30, e31⟩ := idx_facts2 t
  have ht : t.val < 20 := t.isLt
  funext j
  obtain ⟨r, q, rfl⟩ : ∃ (r : Fin 5000) (q : Fin 64), j = ix2 r q := ⟨j 0, j 1, eq_ix2 j⟩
  have hr : r.val < 5000 := r.isLt
  have hR : t.val * 5000 + r.val < 100000 := by omega
  have hemb : ((cfg2.win 3).blk t).view.emb (ix2 r q) = ix2 (⟨t.val * 5000 + r.val, hR⟩ : Fin 100000) q :=
    funext fun a => Fin.ext (by
      match a with
      | ⟨0, _⟩ => show win2_3.index t (0 : Fin 2) * 5000 + 1 * r.val = t.val * 5000 + r.val; rw [e30]; omega
      | ⟨1, _⟩ => show win2_3.index t (1 : Fin 2) * 64 + 1 * q.val = q.val; rw [e31]; omega)
  show Gen.k2_pay1 (F := Ideal) (iblk2 V c 0 t) (iblk2 V c 1 t) (iblk2 V c 2 t) (ix2 r q)
    = Cert.RefSpec.dense64 (F := Ideal) (V c main_v43) (V c main_arg7) (V c main_v44) (((cfg2.win 3).blk t).view.emb (ix2 r q))
  rw [hemb]
  refine block2_eq (iblk2 V c 0 t) (iblk2 V c 1 t) (iblk2 V c 2 t) (V c main_v43) (V c main_arg7) (V c main_v44) r q ⟨t.val * 5000 + r.val, hR⟩
    (fun k => ?_) (fun k => ?_) ?_
  · show V c main_v43 (((cfg2.win 0).blk t).view.emb (ix2 r k)) = V c main_v43 (ix2 (⟨t.val * 5000 + r.val, hR⟩ : Fin 100000) k)
    refine congrArg (V c main_v43) (funext fun a => Fin.ext ?_)
    match a with
    | ⟨0, _⟩ => show win2_0.index t (0 : Fin 2) * 5000 + 1 * r.val = t.val * 5000 + r.val; rw [e00]; omega
    | ⟨1, _⟩ => show win2_0.index t (1 : Fin 2) * 8 + 1 * k.val = k.val; rw [e01]; omega
  · show V c main_arg7 (((cfg2.win 1).blk t).view.emb (ix2 k q)) = V c main_arg7 (ix2 k q)
    refine congrArg (V c main_arg7) (funext fun a => Fin.ext ?_)
    match a with
    | ⟨0, _⟩ => show win2_1.index t (0 : Fin 2) * 8 + 1 * k.val = k.val; rw [e10]; omega
    | ⟨1, _⟩ => show win2_1.index t (1 : Fin 2) * 64 + 1 * q.val = q.val; rw [e11]; omega
  · show V c main_v44 (((cfg2.win 2).blk t).view.emb (ix2 (0 : Fin 1) q)) = V c main_v44 (ix2 (0 : Fin 1) q)
    refine congrArg (V c main_v44) (funext fun a => Fin.ext ?_)
    match a with
    | ⟨0, _⟩ => show win2_2.index t (0 : Fin 2) * 1 + 1 * 0 = 0; rw [e20]
    | ⟨1, _⟩ => show win2_2.index t (1 : Fin 2) * 64 + 1 * q.val = q.val; rw [e21]; omega

/-- An index of the [100000,64] array is in point t's block iff its row is in rows 5000·t … 5000·t + 4999. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v45).slice (win2_3.rect t)).set ↔ _
  rw [View.set_slice_whole, Rect.mem_set_unit]
  exact Iff.rfl

/-- Every row of the array is in the block of the point row / 5000, and every point writes back. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < 20 := by omega
  obtain ⟨t, ht⟩ : ∃ t : Fin cfg2.N, t.val = (i 0).val / 5000 := ⟨⟨(i 0).val / 5000, hlt⟩, rfl⟩
  obtain ⟨e00, e01, e10, e11, e20, e21, e30, e31⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 64 ≤ (i 1).val ∧ (i 1).val < win2_3.index t (1 : Fin 2) * 64 + 64; rw [e31]; omega

/-- REGION 2: after its twenty points the output array is the dense layer x·W + b of the arrays the region found. -/
theorem dense2 (c : Dev nD) :
    (Gen.dat2 (F := Ideal) V c).arrAt 3 cfg2.N = Cert.RefSpec.dense64 (F := Ideal) (V c main_v43) (V c main_arg7) (V c main_v44) :=
  (Gen.dat2 (F := Ideal) V c).arrAt_eq_of_cover 3 (Cert.RefSpec.dense64 (F := Ideal) (V c main_v43) (V c main_arg7) (V c main_v44))
    (fun t _ => flushed2_eq V c t) cover2
end

end Cert.KernelIdeal.DenseValue

end
-- ==== Proof.EdgeValue.lean ====
/-
  The two per-edge regions of the idealized kernel compute the specification's per-edge gate.

  For every edge e and channel c the gate is

      ( Σ_k  leaky(norm[e] · mWa[0,k]) · mWb[k,c]  +  mb[0,c] ) · hrow[e,c],     leaky(t) = t if t ≥ 0, else 0.2 · t.

  * On the kernel's side a grid point t holds rows 12800·t … 12800·t + 12799 of the normalisation column, of the
    gathered rows and of the output, and the two weight arrays and the bias row whole. The body's stored value, read at
    a row and channel of the block, is the formula above of the block's rows: the outer product norm · mWa is an
    elementwise product of two broadcasts, the product with mWb is the sum over its contracted index into a zero
    accumulator, and at the extended reals the change of float format before that product is the identity.
  * On the specification's side norm · mWa is a product contracting ONE index of extent one, so its sum is its one
    term; the product with mWb is the same sum over k; the bias row is broadcast along the edges.
  * The blocks of the 250 grid points tile the edges (row r lies in the block of point r / 12800), and block t of the
    output is the restriction of the whole arrays' gate to its rows, so after the region the output array is the gate
    of the arrays the region finds.

  Region 1 has 8 channels and region 3 has 64; nothing else differs between them.
-/
import proofs.«150491_j40063454937540_1_alg».proof.Proof.Gen.KernelIdeal.Frame
import proofs.«150491_j40063454937540_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section
open Idealize.ShloMosaic Idealize.ShloMosaic.TcCoe Idealize.ShloMosaic.ValueIdx Idealize.SL.Sem
open Idealize.ShloMosaic.Pipeline (Dat)
open scoped BigOperators

namespace Cert.KernelIdeal.EdgeValue

open Cert.KernelIdeal Cert.KernelIdeal.Gen

variable {α : Type}

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A plain `[M, K] × [K, N]` contraction's sum over its contraction index, at the output entry `(p, q)`, is the sum over
    `k : Fin K` of the left operand at `(p, k)` times the right operand at `(k, q)`. -/
theorem plain_sum {M K N : ℕ} (lhs : (⟨2, ![M, K]⟩ : Shape).Idx → EReal) (rhs : (⟨2, ![K, N]⟩ : Shape).Idx → EReal)
    (p : Fin M) (q : Fin N) :
    ∑ k : (DotDims.plain M K N).contr.Idx, lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single (cl := 1) rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single (cr := 0) rfl _ _).trans hk
      | ⟨1, _⟩ => rfl)
  rw [el, er]

/-- The gate's activation at one number: the number itself where it is at least zero, a fifth of it (the f32 word of 0.2) elsewhere. -/
def leaky (t : Ideal .f32) : Ideal .f32 :=
  Scalar.select (FloatOps.cmpf .oge t (FloatOps.ofBits .f32 0x00000000#32)) t
    (FloatOps.mulf (FloatOps.ofBits .f32 0x3E4CCCCD#32) t)

/-- One entry of the per-edge gate: row `r`, channel `q`, of arrays with `R` rows and `C` channels. -/
def edgeAt {R C : ℕ} (nc : (⟨2, ![R, 1]⟩ : Shape).Idx → Ideal .f32) (hrow : (⟨2, ![R, C]⟩ : Shape).Idx → Ideal .f32)
    (mWa : (⟨2, ![1, C]⟩ : Shape).Idx → Ideal .f32) (mWb : (⟨2, ![C, C]⟩ : Shape).Idx → Ideal .f32)
    (mb : (⟨2, ![1, C]⟩ : Shape).Idx → Ideal .f32) (r : Fin R) (q : Fin C) : Ideal .f32 :=
  ((∑ k : Fin C, leaky (nc (ix2 r (0 : Fin 1)) * mWa (ix2 (0 : Fin 1) k)) * mWb (ix2 k q)) + mb (ix2 (0 : Fin 1) q)) * hrow (ix2 r q)

/-! ## Region 1 (8 channels): the body's value and the specification at an entry -/

set_option maxHeartbeats 400000 in
/-- The body's stored value at row `r`, channel `q` of a block is the gate's entry of the block's own rows. -/
theorem pay1_apply (x0 : Vec Ideal S12800x1 .f32) (x1 : Vec Ideal S12800x8 .f32) (x2 : Vec Ideal S1x8 .f32)
    (x3 : Vec Ideal S8x8 .f32) (x4 : Vec Ideal S1x8 .f32) (r : Fin 12800) (q : Fin 8) :
    k1_pay1 x0 x1 x2 x3 x4 (ix2 r q) = edgeAt x0 x1 x2 x3 x4 r q := by
  unfold k1_pay1
  simp only [shapeCast_self]
  refine (mulf_apply _ _ _).trans ?_
  unfold edgeAt
  refine congrArg (· * x1 (ix2 r q)) ?_
  refine (addf_apply _ _ _).trans ?_
  refine congrArg₂ (· + ·) ?_ (broadcastTo_1b_ab_apply x4 _ r q)
  simp only [matmul]
  refine (Ideal.matmul_constant_zero_apply _ none _ _ (ix2 r q)).trans ?_
  refine (plain_sum (M := 12800) (K := 8) (N := 8) _ _ r q).trans ?_
  refine Finset.sum_congr rfl fun k _ => ?_
  have e0 : broadcastTo S12800x8 x0 broadcasts_S12800x1_S12800x8 (ix2 r k) = x0 (ix2 r (0 : Fin 1)) := broadcastTo_a1_ab_apply x0 _ r k
  have e2 : broadcastTo S12800x8 x2 broadcasts_S1x8_S12800x8 (ix2 r k) = x2 (ix2 (0 : Fin 1) k) := broadcastTo_1b_ab_apply x2 _ r k
  show leaky (broadcastTo S12800x8 x0 broadcasts_S12800x1_S12800x8 (ix2 r k) * broadcastTo S12800x8 x2 broadcasts_S1x8_S12800x8 (ix2 r k)) * x3 (ix2 k q) = _
  rw [e0, e2]

set_option maxHeartbeats 400000 in
/-- The specification's gate read at edge `r`, channel `q`: the host's two products are sums over their one contracted
    index (the first over a single term), its activation and bias row are read entry by entry. -/
theorem spec8_apply (nc : Cert.RefSpec.T Ideal Cert.ReferenceIdeal.S3200000x1 .f32) (hrow : Cert.RefSpec.T Ideal Cert.ReferenceIdeal.S3200000x8 .f32)
    (mWa : Cert.RefSpec.T Ideal Cert.ReferenceIdeal.S1x8 .f32) (mWb : Cert.RefSpec.T Ideal Cert.ReferenceIdeal.S8x8 .f32)
    (mb : Cert.RefSpec.T Ideal Cert.ReferenceIdeal.S1x8 .f32) (r : Fin 3200000) (q : Fin 8) :
    Cert.RefSpec.edge8 (F := Ideal) nc hrow mWa mWb mb (ix2 r q) = edgeAt (R := 3200000) (C := 8) nc hrow mWa mWb mb r q := by
  unfold Cert.RefSpec.edge8 Cert.RefSpec.leaky8
  refine (mulf_apply _ _ _).trans ?_
  unfold edgeAt
  refine congrArg (· * hrow (ix2 r q)) ?_
  refine (addf_apply _ _ _).trans ?_
  refine congrArg₂ (· + ·) ?_ ?_
  · simp only [Host.dotGeneral]
    refine (Ideal.dotGeneral_apply _ none _ _ _ (ix2 r q)).trans ?_
    refine (plain_sum (M := 3200000) (K := 8) (N := 8) _ _ r q).trans ?_
    refine Finset.sum_congr rfl fun k _ => ?_
    refine congrArg (· * mWb (ix2 k q)) ?_
    have e : (FloatOps.dotGeneral (F := Ideal) (φ₁ := .f32) (φ₂ := .f32) Cert.ReferenceIdeal.dot_S3200000x1_S1x8_S3200000x8_1_0_0_1_n_n none .single nc mWa (ix2 r k) : Ideal .f32)
        = nc (ix2 r (0 : Fin 1)) * mWa (ix2 (0 : Fin 1) k) := by
      refine (Ideal.dotGeneral_apply _ none _ _ _ (ix2 r k)).trans ?_
      refine (plain_sum (M := 3200000) (K := 1) (N := 8) _ _ r k).trans ?_
      exact Fin.sum_univ_one _
    show leaky (FloatOps.dotGeneral (F := Ideal) (φ₁ := .f32) (φ₂ := .f32) Cert.ReferenceIdeal.dot_S3200000x1_S1x8_S3200000x8_1_0_0_1_n_n none .single nc mWa (ix2 r k)) = _
    rw [e]
  · refine broadcastInDim_apply _ _ mb (ix2 r q) (ix2 (0 : Fin 1) q) fun a => ?_
    match a with
    | ⟨0, _⟩ => rfl
    | ⟨1, _⟩ => rfl

/-! ## Region 3 (64 channels): the body's value and the specification at an entry -/

set_option maxHeartbeats 400000 in
/-- The body's stored value at row `r`, channel `q` of a block is the gate's entry of the block's own rows. -/
theorem pay3_apply (x0 : Vec Ideal S12800x1 .f32) (x1 : Vec Ideal S12800x64 .f32) (x2 : Vec Ideal S1x64 .f32)
    (x3 : Vec Ideal S64x64 .f32) (x4 : Vec Ideal S1x64 .f32) (r : Fin 12800) (q : Fin 64) :
    k3_pay1 x0 x1 x2 x3 x4 (ix2 r q) = edgeAt x0 x1 x2 x3 x4 r q := by
  unfold k3_pay1
  simp only [shapeCast_self]
  refine (mulf_apply _ _ _).trans ?_
  unfold edgeAt
  refine congrArg (· * x1 (ix2 r q)) ?_
  refine (addf_apply _ _ _).trans ?_
  refine congrArg₂ (· + ·) ?_ (broadcastTo_1b_ab_apply x4 _ r q)
  simp only [matmul]
  refine (Ideal.matmul_constant_zero_apply _ none _ _ (ix2 r q)).trans ?_
  refine (plain_sum (M := 12800) (K := 64) (N := 64) _ _ r q).trans ?_
  refine Finset.sum_congr rfl fun k _ => ?_
  have e0 : broadcastTo S12800x64 x0 broadcasts_S12800x1_S12800x64 (ix2 r k) = x0 (ix2 r (0 : Fin 1)) := broadcastTo_a1_ab_apply x0 _ r k
  have e2 : broadcastTo S12800x64 x2 broadcasts_S1x64_S12800x64 (ix2 r k) = x2 (ix2 (0 : Fin 1) k) := broadcastTo_1b_ab_apply x2 _ r k
  show leaky (broadcastTo S12800x64 x0 broadcasts_S12800x1_S12800x64 (ix2 r k) * broadcastTo S12800x64 x2 broadcasts_S1x64_S12800x64 (ix2 r k)) * x3 (ix2 k q) = _
  rw [e0, e2]

set_option maxHeartbeats 400000 in
/-- The specification's gate read at edge `r`, channel `q`: the host's two products are sums over their one contracted
    index (the first over a single term), its activation and bias row are read entry by entry. -/
theorem spec64_apply (nc : Cert.RefSpec.T Ideal Cert.ReferenceIdeal.S3200000x1 .f32) (hrow : Cert.RefSpec.T Ideal Cert.ReferenceIdeal.S3200000x64 .f32)
    (mWa : Cert.RefSpec.T Ideal Cert.ReferenceIdeal.S1x64 .f32) (mWb : Cert.RefSpec.T Ideal Cert.ReferenceIdeal.S64x64 .f32)
    (mb : Cert.RefSpec.T Ideal Cert.ReferenceIdeal.S1x64 .f32) (r : Fin 3200000) (q : Fin 64) :
    Cert.RefSpec.edge64 (F := Ideal) nc hrow mWa mWb mb (ix2 r q) = edgeAt (R := 3200000) (C := 64) nc hrow mWa mWb mb r q := by
  unfold Cert.RefSpec.edge64 Cert.RefSpec.leaky64
  refine (mulf_apply _ _ _).trans ?_
  unfold edgeAt
  refine congrArg (· * hrow (ix2 r q)) ?_
  refine (addf_apply _ _ _).trans ?_
  refine congrArg₂ (· + ·) ?_ ?_
  · simp only [Host.dotGeneral]
    refine (Ideal.dotGeneral_apply _ none _ _ _ (ix2 r q)).trans ?_
    refine (plain_sum (M := 3200000) (K := 64) (N := 64) _ _ r q).trans ?_
    refine Finset.sum_congr rfl fun k _ => ?_
    refine congrArg (· * mWb (ix2 k q)) ?_
    have e : (FloatOps.dotGeneral (F := Ideal) (φ₁ := .f32) (φ₂ := .f32) Cert.ReferenceIdeal.dot_S3200000x1_S1x64_S3200000x64_1_0_0_1_n_n none .single nc mWa (ix2 r k) : Ideal .f32)
        = nc (ix2 r (0 : Fin 1)) * mWa (ix2 (0 : Fin 1) k) := by
      refine (Ideal.dotGeneral_apply _ none _ _ _ (ix2 r k)).trans ?_
      refine (plain_sum (M := 3200000) (K := 1) (N := 64) _ _ r k).trans ?_
      exact Fin.sum_univ_one _
    show leaky (FloatOps.dotGeneral (F := Ideal) (φ₁ := .f32) (φ₂ := .f32) Cert.ReferenceIdeal.dot_S3200000x1_S1x64_S3200000x64_1_0_0_1_n_n none .single nc mWa (ix2 r k)) = _
    rw [e]
  · refine broadcastInDim_apply _ _ mb (ix2 r q) (ix2 (0 : Fin 1) q) fun a => ?_
    match a with
    | ⟨0, _⟩ => rfl
    | ⟨1, _⟩ => rfl

/-- The zero offsets of a whole-block access. -/
theorem hz : (![0, 0] : Fin 2 → Nat) = fun _ => 0 := funext fun a => by fin_cases a <;> rfl

section Regions
-- the buffer contents when a region is entered
variable (V : (c : Dev nD) → (b : Ref sig .tc) → Buf (Elt Ideal) ((c : Thread nD τ).loc b))

/-! ## Region 1: the blocks -/

/-- The printed index maps over the grid: the three row-tiled windows sit at block `t` of axis 0, the three whole windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the normalisation column is rows `12800·t …` of the column. -/
theorem iblk1_0_apply (c : Dev nD) (t : Fin cfg1.N) (x : S12800x1.Idx) (i : S3200000x1.Idx)
    (h0 : (i 0).val = t.val * 12800 + (x 0).val) (h1 : (i 1).val = (x 1).val) :
    (iblk1 V c 0 t : Vec Ideal S12800x1 .f32) x = (V c main_v30 : S3200000x1.Idx → Elt Ideal .f32) i := by
  obtain ⟨e0, e1, -⟩ := idx_facts1 t
  unfold iblk1
  rw [View.read_apply]
  show V c main_v30 _ = V c main_v30 _
  refine congrArg _ (funext fun a => Fin.ext ?_)
  match a with
  | ⟨0, _⟩ => show win1_0.index t 0 * 12800 + 1 * (x 0).val = (i 0).val; rw [e0, h0]; omega
  | ⟨1, _⟩ => show win1_0.index t 1 * 1 + 1 * (x 1).val = (i 1).val; rw [e1, h1]; omega

/-- Block `t` of the gathered rows is rows `12800·t …` of them. -/
theorem iblk1_1_apply (c : Dev nD) (t : Fin cfg1.N) (x : S12800x8.Idx) (i : S3200000x8.Idx)
    (h0 : (i 0).val = t.val * 12800 + (x 0).val) (h1 : (i 1).val = (x 1).val) :
    (iblk1 V c 1 t : Vec Ideal S12800x8 .f32) x = (V c main_v37 : S3200000x8.Idx → Elt Ideal .f32) i := by
  obtain ⟨-, -, e0, e1, -⟩ := idx_facts1 t
  unfold iblk1
  rw [View.read_apply]
  show V c main_v37 _ = V c main_v37 _
  refine congrArg _ (funext fun a => Fin.ext ?_)
  match a with
  | ⟨0, _⟩ => show win1_1.index t 0 * 12800 + 1 * (x 0).val = (i 0).val; rw [e0, h0]; omega
  | ⟨1, _⟩ => show win1_1.index t 1 * 8 + 1 * (x 1).val = (i 1).val; rw [e1, h1]; omega

/-- The first weight row is read whole at every point. -/
theorem iblk1_2_apply (c : Dev nD) (t : Fin cfg1.N) (x : S1x8.Idx) :
    (iblk1 V c 2 t : Vec Ideal S1x8 .f32) x = (V c main_arg4 : S1x8.Idx → Elt Ideal .f32) x := by
  obtain ⟨-, -, -, -, e0, e1, -⟩ := idx_facts1 t
  unfold iblk1
  rw [View.read_apply]
  show V c main_arg4 _ = V c main_arg4 _
  refine congrArg _ (funext fun a => Fin.ext ?_)
  match a with
  | ⟨0, _⟩ => show win1_2.index t 0 * 1 + 1 * (x 0).val = (x 0).val; rw [e0]; omega
  | ⟨1, _⟩ => show win1_2.index t 1 * 8 + 1 * (x 1).val = (x 1).val; rw [e1]; omega

/-- The second weight matrix is read whole at every point. -/
theorem iblk1_3_apply (c : Dev nD) (t : Fin cfg1.N) (x : S8x8.Idx) :
    (iblk1 V c 3 t : Vec Ideal S8x8 .f32) x = (V c main_arg5 : S8x8.Idx → Elt Ideal .f32) x := by
  obtain ⟨-, -, -, -, -, -, e0, e1, -⟩ := idx_facts1 t
  unfold iblk1
  rw [View.read_apply]
  show V c main_arg5 _ = V c main_arg5 _
  refine congrArg _ (funext fun a => Fin.ext ?_)
  match a with
  | ⟨0, _⟩ => show win1_3.index t 0 * 8 + 1 * (x 0).val = (x 0).val; rw [e0]; omega
  | ⟨1, _⟩ => show win1_3.index t 1 * 8 + 1 * (x 1).val = (x 1).val; rw [e1]; omega

/-- The bias row is read whole at every point. -/
theorem iblk1_4_apply (c : Dev nD) (t : Fin cfg1.N) (x : S1x8.Idx) :
    (iblk1 V c 4 t : Vec Ideal S1x8 .f32) x = (V c main_v38 : S1x8.Idx → Elt Ideal .f32) x := by
  obtain ⟨-, -, -, -, -, -, -, -, e0, e1, -⟩ := idx_facts1 t
  unfold iblk1
  rw [View.read_apply]
  show V c main_v38 _ = V c main_v38 _
  refine congrArg _ (funext fun a => Fin.ext ?_)
  match a with
  | ⟨0, _⟩ => show win1_4.index t 0 * 1 + 1 * (x 0).val = (x 0).val; rw [e0]; omega
  | ⟨1, _⟩ => show win1_4.index t 1 * 8 + 1 * (x 1).val = (x 1).val; rw [e1]; omega

/-- The gate of the whole argument arrays as the region finds them, entry by entry. -/
def G1 (c : Dev nD) : S3200000x8.Idx → Ideal .f32 := fun i =>
  edgeAt (R := 3200000) (C := 8) (V c main_v30) (V c main_v37) (V c main_arg4) (V c main_arg5) (V c main_v38) (i 0) (i 1)

/-- The gate's entry computed from point `t`'s blocks at row `p` is the whole arrays' entry at row `12800·t + p`. -/
theorem edgeAt_block1 (c : Dev nD) (t : Fin cfg1.N) (p : Fin 12800) (q : Fin 8) (i : S3200000x8.Idx)
    (hi0 : (i 0).val = t.val * 12800 + p.val) (hi1 : (i 1).val = q.val) :
    edgeAt (R := 12800) (C := 8) (iblk1 V c 0 t) (iblk1 V c 1 t) (iblk1 V c 2 t) (iblk1 V c 3 t) (iblk1 V c 4 t) p q = G1 V c i := by
  have hq : (i 1 : Fin 8) = q := Fin.ext hi1
  have a0 : (iblk1 V c 0 t : Vec Ideal S12800x1 .f32) (ix2 p (0 : Fin 1)) = (V c main_v30 : S3200000x1.Idx → Elt Ideal .f32) (ix2 (i 0 : Fin 3200000) (0 : Fin 1)) :=
    iblk1_0_apply V c t _ _ hi0 rfl
  have a1 : (iblk1 V c 1 t : Vec Ideal S12800x8 .f32) (ix2 p q) = (V c main_v37 : S3200000x8.Idx → Elt Ideal .f32) (ix2 (i 0 : Fin 3200000) (i 1 : Fin 8)) :=
    iblk1_1_apply V c t _ _ hi0 hi1
  unfold G1 edgeAt
  rw [hq]
  rw [hq] at a1
  exact congrArg₂ (· * ·) (congrArg₂ (· + ·) (Finset.sum_congr rfl fun k _ => congrArg₂ (· * ·)
    (congrArg leaky (congrArg₂ (· * ·) a0 (iblk1_2_apply V c t _))) (iblk1_3_apply V c t _)) (iblk1_4_apply V c t _)) a1

/-- What point `t` writes back is block `t` of the whole arrays' gate. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S12800x1) hz, View.ld_unit_zero (S := S12800x8) hz, View.ld_unit_zero (S := S1x8) hz, View.ld_unit_zero (S := S8x8) hz]
  funext j
  obtain ⟨p, q, rfl⟩ : ∃ (p : Fin 12800) (q : Fin 8), j = ix2 p q := ⟨j 0, j 1, eq_ix2 j⟩
  obtain ⟨-, -, -, -, -, -, -, -, -, -, e0, e1⟩ := idx_facts1 t
  rw [View.read_apply]
  show k1_pay1 (iblk1 V c 0 t) (iblk1 V c 1 t) (iblk1 V c 2 t) (iblk1 V c 3 t) (iblk1 V c 4 t) (ix2 p q) = G1 V c (((cfg1.win 5).blk t).view.emb (ix2 p q))
  refine (pay1_apply (iblk1 V c 0 t) (iblk1 V c 1 t) (iblk1 V c 2 t) (iblk1 V c 3 t) (iblk1 V c 4 t) p q).trans ?_
  refine edgeAt_block1 V c t p q _ ?_ ?_
  · show win1_5.index t 0 * 12800 + 1 * p.val = _; rw [e0]; omega
  · show win1_5.index t 1 * 8 + 1 * q.val = _; rw [e1]; omega

/-- An index of the output array is in point `t`'s block iff each coordinate is in the block's range on its axis. -/
theorem mem_blk1 (t : Fin cfg1.N) (i : S3200000x8.Idx) :
    i ∈ ((cfg1.win 5).blk t).view.set ↔ ∀ a : Fin 2, win1_5.index t a * S12800x8.size a ≤ (i a).val ∧ (i a).val < win1_5.index t a * S12800x8.size a + S12800x8.size a := by
  show i ∈ ((View.whole main_v39).slice (win1_5.rect t)).set ↔ _
  rw [View.set_slice_whole, Rect.mem_set_unit]
  exact Iff.rfl

/-- Every row `r` of the output lies in the block of point `r / 12800`. -/
theorem cover1 (i : S3200000x8.Idx) : ∃ t : Fin cfg1.N, (cfg1.win 5).flush t = true ∧ i ∈ ((cfg1.win 5).blk t).view.set := by
  have hi0 : (i 0).val < 3200000 := (i 0).isLt
  have hi1 : (i 1).val < 8 := (i 1).isLt
  have hN : grid1.N = 250 := N_1
  have ht : (i 0).val / 12800 < grid1.N := by omega
  obtain ⟨-, -, -, -, -, -, -, -, -, -, e0, e1⟩ := idx_facts1 ⟨(i 0).val / 12800, ht⟩
  refine ⟨⟨(i 0).val / 12800, ht⟩, flush1_5 _, ?_⟩
  rw [mem_blk1]
  intro a
  match a with
  | ⟨0, _⟩ =>
    show win1_5.index ⟨(i 0).val / 12800, ht⟩ 0 * 12800 ≤ (i 0).val ∧ (i 0).val < win1_5.index ⟨(i 0).val / 12800, ht⟩ 0 * 12800 + 12800
    rw [e0]; show (i 0).val / 12800 * 12800 ≤ (i 0).val ∧ (i 0).val < (i 0).val / 12800 * 12800 + 12800; omega
  | ⟨1, _⟩ =>
    show win1_5.index ⟨(i 0).val / 12800, ht⟩ 1 * 8 ≤ (i 1).val ∧ (i 1).val < win1_5.index ⟨(i 0).val / 12800, ht⟩ 1 * 8 + 8
    rw [e1]; omega

/-- Region 1's output array after the region is the specification's gate of the arrays the region finds. -/
theorem edge1 (c : Dev nD) :
    (dat1 (F := Ideal) V c).arrAt 5 cfg1.N
      = Cert.RefSpec.edge8 (F := Ideal) (V c main_v30) (V c main_v37) (V c main_arg4) (V c main_arg5) (V c main_v38) := by
  have hs : Cert.RefSpec.edge8 (F := Ideal) (V c main_v30) (V c main_v37) (V c main_arg4) (V c main_arg5) (V c main_v38) = G1 V c :=
    funext fun i => by
      obtain ⟨r, q, rfl⟩ : ∃ (r : Fin 3200000) (q : Fin 8), i = ix2 r q := ⟨i 0, i 1, eq_ix2 i⟩
      exact spec8_apply _ _ _ _ _ r q
  rw [hs]
  exact (dat1 V c).arrAt_eq_of_cover 5 (G1 V c) (fun t _ => flushed1_eq V c t) (cover1)

/-! ## Region 3: the blocks -/

/-- The printed index maps over the grid: the three row-tiled windows sit at block `t` of axis 0, the three whole windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block `t` of the normalisation column is rows `12800·t …` of the column. -/
theorem iblk3_0_apply (c : Dev nD) (t : Fin cfg3.N) (x : S12800x1.Idx) (i : S3200000x1.Idx)
    (h0 : (i 0).val = t.val * 12800 + (x 0).val) (h1 : (i 1).val = (x 1).val) :
    (iblk3 V c 0 t : Vec Ideal S12800x1 .f32) x = (V c main_v70 : S3200000x1.Idx → Elt Ideal .f32) i := by
  obtain ⟨e0, e1, -⟩ := idx_facts3 t
  unfold iblk3
  rw [View.read_apply]
  show V c main_v70 _ = V c main_v70 _
  refine congrArg _ (funext fun a => Fin.ext ?_)
  match a with
  | ⟨0, _⟩ => show win3_0.index t 0 * 12800 + 1 * (x 0).val = (i 0).val; rw [e0, h0]; omega
  | ⟨1, _⟩ => show win3_0.index t 1 * 1 + 1 * (x 1).val = (i 1).val; rw [e1, h1]; omega

/-- Block `t` of the gathered rows is rows `12800·t …` of them. -/
theorem iblk3_1_apply (c : Dev nD) (t : Fin cfg3.N) (x : S12800x64.Idx) (i : S3200000x64.Idx)
    (h0 : (i 0).val = t.val * 12800 + (x 0).val) (h1 : (i 1).val = (x 1).val) :
    (iblk3 V c 1 t : Vec Ideal S12800x64 .f32) x = (V c main_v77 : S3200000x64.Idx → Elt Ideal .f32) i := by
  obtain ⟨-, -, e0, e1, -⟩ := idx_facts3 t
  unfold iblk3
  rw [View.read_apply]
  show V c main_v77 _ = V c main_v77 _
  refine congrArg _ (funext fun a => Fin.ext ?_)
  match a with
  | ⟨0, _⟩ => show win3_1.index t 0 * 12800 + 1 * (x 0).val = (i 0).val; rw [e0, h0]; omega
  | ⟨1, _⟩ => show win3_1.index t 1 * 64 + 1 * (x 1).val = (i 1).val; rw [e1, h1]; omega

/-- The first weight row is read whole at every point. -/
theorem iblk3_2_apply (c : Dev nD) (t : Fin cfg3.N) (x : S1x64.Idx) :
    (iblk3 V c 2 t : Vec Ideal S1x64 .f32) x = (V c main_arg9 : S1x64.Idx → Elt Ideal .f32) x := by
  obtain ⟨-, -, -, -, e0, e1, -⟩ := idx_facts3 t
  unfold iblk3
  rw [View.read_apply]
  show V c main_arg9 _ = V c main_arg9 _
  refine congrArg _ (funext fun a => Fin.ext ?_)
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The second weight matrix is read whole at every point. -/
theorem iblk3_3_apply (c : Dev nD) (t : Fin cfg3.N) (x : S64x64.Idx) :
    (iblk3 V c 3 t : Vec Ideal S64x64 .f32) x = (V c main_arg10 : S64x64.Idx → Elt Ideal .f32) x := by
  obtain ⟨-, -, -, -, -, -, e0, e1, -⟩ := idx_facts3 t
  unfold iblk3
  rw [View.read_apply]
  show V c main_arg10 _ = V c main_arg10 _
  refine congrArg _ (funext fun a => Fin.ext ?_)
  match a with
  | ⟨0, _⟩ => show win3_3.index t 0 * 64 + 1 * (x 0).val = (x 0).val; rw [e0]; omega
  | ⟨1, _⟩ => show win3_3.index t 1 * 64 + 1 * (x 1).val = (x 1).val; rw [e1]; omega

/-- The bias row is read whole at every point. -/
theorem iblk3_4_apply (c : Dev nD) (t : Fin cfg3.N) (x : S1x64.Idx) :
    (iblk3 V c 4 t : Vec Ideal S1x64 .f32) x = (V c main_v78 : S1x64.Idx → Elt Ideal .f32) x := by
  obtain ⟨-, -, -, -, -, -, -, -, e0, e1, -⟩ := idx_facts3 t
  unfold iblk3
  rw [View.read_apply]
  show V c main_v78 _ = V c main_v78 _
  refine congrArg _ (funext fun a => Fin.ext ?_)
  match a with
  | ⟨0, _⟩ => show win3_4.index t 0 * 1 + 1 * (x 0).val = (x 0).val; rw [e0]; omega
  | ⟨1, _⟩ => show win3_4.index t 1 * 64 + 1 * (x 1).val = (x 1).val; rw [e1]; omega

/-- The gate of the whole argument arrays as the region finds them, entry by entry. -/
def G3 (c : Dev nD) : S3200000x64.Idx → Ideal .f32 := fun i =>
  edgeAt (R := 3200000) (C := 64) (V c main_v70) (V c main_v77) (V c main_arg9) (V c main_arg10) (V c main_v78) (i 0) (i 1)

/-- The gate's entry computed from point `t`'s blocks at row `p` is the whole arrays' entry at row `12800·t + p`. -/
theorem edgeAt_block3 (c : Dev nD) (t : Fin cfg3.N) (p : Fin 12800) (q : Fin 64) (i : S3200000x64.Idx)
    (hi0 : (i 0).val = t.val * 12800 + p.val) (hi1 : (i 1).val = q.val) :
    edgeAt (R := 12800) (C := 64) (iblk3 V c 0 t) (iblk3 V c 1 t) (iblk3 V c 2 t) (iblk3 V c 3 t) (iblk3 V c 4 t) p q = G3 V c i := by
  have hq : (i 1 : Fin 64) = q := Fin.ext hi1
  have a0 : (iblk3 V c 0 t : Vec Ideal S12800x1 .f32) (ix2 p (0 : Fin 1)) = (V c main_v70 : S3200000x1.Idx → Elt Ideal .f32) (ix2 (i 0 : Fin 3200000) (0 : Fin 1)) :=
    iblk3_0_apply V c t _ _ hi0 rfl
  have a1 : (iblk3 V c 1 t : Vec Ideal S12800x64 .f32) (ix2 p q) = (V c main_v77 : S3200000x64.Idx → Elt Ideal .f32) (ix2 (i 0 : Fin 3200000) (i 1 : Fin 64)) :=
    iblk3_1_apply V c t _ _ hi0 hi1
  unfold G3 edgeAt
  rw [hq]
  rw [hq] at a1
  exact congrArg₂ (· * ·) (congrArg₂ (· + ·) (Finset.sum_congr rfl fun k _ => congrArg₂ (· * ·)
    (congrArg leaky (congrArg₂ (· * ·) a0 (iblk3_2_apply V c t _))) (iblk3_3_apply V c t _)) (iblk3_4_apply V c t _)) a1

/-- What point `t` writes back is block `t` of the whole arrays' gate. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S12800x1) hz, View.ld_unit_zero (S := S12800x64) hz, View.ld_unit_zero (S := S1x64) hz, View.ld_unit_zero (S := S64x64) hz]
  funext j
  obtain ⟨p, q, rfl⟩ : ∃ (p : Fin 12800) (q : Fin 64), j = ix2 p q := ⟨j 0, j 1, eq_ix2 j⟩
  obtain ⟨-, -, -, -, -, -, -, -, -, -, e0, e1⟩ := idx_facts3 t
  rw [View.read_apply]
  show k3_pay1 (iblk3 V c 0 t) (iblk3 V c 1 t) (iblk3 V c 2 t) (iblk3 V c 3 t) (iblk3 V c 4 t) (ix2 p q) = G3 V c (((cfg3.win 5).blk t).view.emb (ix2 p q))
  refine (pay3_apply (iblk3 V c 0 t) (iblk3 V c 1 t) (iblk3 V c 2 t) (iblk3 V c 3 t) (iblk3 V c 4 t) p q).trans ?_
  refine edgeAt_block3 V c t p q _ ?_ ?_
  · show win3_5.index t 0 * 12800 + 1 * p.val = _; rw [e0]; omega
  · show win3_5.index t 1 * 64 + 1 * q.val = _; rw [e1]; omega

/-- An index of the output array is in point `t`'s block iff each coordinate is in the block's range on its axis. -/
theorem mem_blk3 (t : Fin cfg3.N) (i : S3200000x64.Idx) :
    i ∈ ((cfg3.win 5).blk t).view.set ↔ ∀ a : Fin 2, win3_5.index t a * S12800x64.size a ≤ (i a).val ∧ (i a).val < win3_5.index t a * S12800x64.size a + S12800x64.size a := by
  show i ∈ ((View.whole main_v79).slice (win3_5.rect t)).set ↔ _
  rw [View.set_slice_whole, Rect.mem_set_unit]
  exact Iff.rfl

/-- Every row `r` of the output lies in the block of point `r / 12800`. -/
theorem cover3 (i : S3200000x64.Idx) : ∃ t : Fin cfg3.N, (cfg3.win 5).flush t = true ∧ i ∈ ((cfg3.win 5).blk t).view.set := by
  have hi0 : (i 0).val < 3200000 := (i 0).isLt
  have hi1 : (i 1).val < 64 := (i 1).isLt
  have hN : grid3.N = 250 := N_3
  have ht : (i 0).val / 12800 < grid3.N := by omega
  obtain ⟨-, -, -, -, -, -, -, -, -, -, e0, e1⟩ := idx_facts3 ⟨(i 0).val / 12800, ht⟩
  refine ⟨⟨(i 0).val / 12800, ht⟩, flush3_5 _, ?_⟩
  rw [mem_blk3]
  intro a
  match a with
  | ⟨0, _⟩ =>
    show win3_5.index ⟨(i 0).val / 12800, ht⟩ 0 * 12800 ≤ (i 0).val ∧ (i 0).val < win3_5.index ⟨(i 0).val / 12800, ht⟩ 0 * 12800 + 12800
    rw [e0]; show (i 0).val / 12800 * 12800 ≤ (i 0).val ∧ (i 0).val < (i 0).val / 12800 * 12800 + 12800; omega
  | ⟨1, _⟩ =>
    show win3_5.index ⟨(i 0).val / 12800, ht⟩ 1 * 64 ≤ (i 1).val ∧ (i 1).val < win3_5.index ⟨(i 0).val / 12800, ht⟩ 1 * 64 + 64
    rw [e1]; omega

/-- Region 3's output array after the region is the specification's gate of the arrays the region finds. -/
theorem edge3 (c : Dev nD) :
    (dat3 (F := Ideal) V c).arrAt 5 cfg3.N
      = Cert.RefSpec.edge64 (F := Ideal) (V c main_v70) (V c main_v77) (V c main_arg9) (V c main_arg10) (V c main_v78) := by
  have hs : Cert.RefSpec.edge64 (F := Ideal) (V c main_v70) (V c main_v77) (V c main_arg9) (V c main_arg10) (V c main_v78) = G3 V c :=
    funext fun i => by
      obtain ⟨r, q, rfl⟩ : ∃ (r : Fin 3200000) (q : Fin 64), i = ix2 r q := ⟨i 0, i 1, eq_ix2 i⟩
      exact spec64_apply _ _ _ _ _ r q
  rw [hs]
  exact (dat3 V c).arrAt_eq_of_cover 5 (G3 V c) (fun t _ => flushed3_eq V c t) (cover3)

end Regions

end Cert.KernelIdeal.EdgeValue

end
-- ==== Proof.RefRun.lean ====
/- The reference program's @main as ONE straight line of its 172 host operations, and its run read back as the
   network of Spec.lean: every weakly fair execution terminates with the result buffer at `Cert.RefSpec.model` of the
   twelve arguments' launch contents and the arguments unchanged.

   @main is printed in three windows and calls six outlined functions (two of them calling a select of their own).
   Each window is the chain of its items — a stretch of @main's own operations, or one call's operations with the
   callee's body stated at the references the call site names —, the three chains are one chain, and a chain of
   straight lines is the straight line of the concatenated lists. The contents of a buffer after the line are then a
   fold over the list: at the result buffer the fold is the composed term of the operations, which is the network's
   term once the Spec's definitions are unfolded (a call's `convert` of a scalar to its own type is the identity). -/
import proofs.«150491_j40063454937540_1_alg».proof.Proof.Spec
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, item by item, and each window as the chain of its items -/

-- BEGIN TABLE
/-- 21 operations of @main, in order. -/
abbrev main_part0_ops0 : List (HloOp τ sig (Elt F)) :=
  [ StableHlo.binary main_arg0 main_arg2 main_v0 ((fun l r => Host.dotGeneral dot_S100000x512_S512x8_S100000x8_1_0_0_1_n_n none l r) : (⟨S100000x512, .f32⟩ : BufTy).Contents (Elt F) → (⟨S512x8, .f32⟩ : BufTy).Contents (Elt F) → (⟨S100000x8, .f32⟩ : BufTy).Contents (Elt F)),
    StableHlo.unary main_arg3 main_v1 (broadcastInDim S1x8 ![1] bcast_S8_S1x8_1 : (⟨S8, .f32⟩ : BufTy).Contents (Elt F) → (⟨S1x8, .f32⟩ : BufTy).Contents (Elt F)),
    StableHlo.unary main_v1 main_v2 (broadcastInDim S100000x8 ![0, 1] bcast_S1x8_S100000x8_0_1 : (⟨S1x8, .f32⟩ : BufTy).Contents (Elt F) → (⟨S100000x8, .f32⟩ : BufTy).Contents (Elt F)),
    StableHlo.binary main_v0 main_v2 main_v3 (addf : (⟨S100000x8, .f32⟩ : BufTy).Contents (Elt F) → (⟨S100000x8, .f32⟩ : BufTy).Contents (Elt F) → (⟨S100000x8, .f32⟩ : BufTy).Contents (Elt F)),
    StableHlo.unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v4 main_v5 rfl shapeCasts_S1x3200000_S3200000,
    StableHlo.unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v6 main_v7 rfl shapeCasts_S1x3200000_S3200000,
    StableHlo.nullary main_cst (constant S_ .f32 0x3F800000#32),
    StableHlo.unary main_cst main_v8 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v5 main_v10 (broadcastInDim S3200000x1 ![0] bcast_S3200000_S3200000x1_0 : (⟨S3200000, .i32⟩ : BufTy).Contents (Elt F) → (⟨S3200000x1, .i32⟩ : BufTy).Contents (Elt F)),
    StableHlo.ternary main_v9 main_v10 main_v8 main_v11 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0xBF000000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (Host.powf : (⟨S100000, .f32⟩ : BufTy).Contents (Elt F) → (⟨S100000, .f32⟩ : BufTy).Contents (Elt F) → (⟨S100000, .f32⟩ : BufTy).Contents (Elt F)),
    StableHlo.nullary main_cst_3 (constant S_ .f32 0x00000000#32) ]
theorem main_part0_ops0_sub : (main_part0_ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem main_part0_ops0_fresh : (main_part0_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 3 operations of the call whose buffers are the record main_call0 (the callee's body at the call's references), in order. -/
abbrev main_part0_ops1 : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v15 : StableHlo.TRef sig ⟨S100000, .f32⟩) (.of main_call0_v1 : StableHlo.TRef sig ⟨S100000, .f32⟩) (.of main_v16 : StableHlo.TRef sig ⟨S100000, .f32⟩) select ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.ternary_bufs_sub ..⟩
theorem main_part0_ops1_fresh : (main_part0_ops1 : List (HloOp τ sig (Elt F))).Forall fun op => op.fresh = ∅ :=
  ⟨rfl, rfl, rfl⟩

/-- 22 operations of @main, in order. -/
abbrev main_part0_ops2 : List (HloOp τ sig (Elt F)) :=
  [ StableHlo.nullary main_c (constantI S_ 32 0#32),
    StableHlo.unary main_c main_v17 (broadcastInDim S3200000 ![] bcast_S_S3200000 : (⟨S_, .i32⟩ : BufTy).Contents (Elt F) → (⟨S3200000, .i32⟩ : BufTy).Contents (Elt F)),
    StableHlo.binary main_v5 main_v17 main_v18 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v19 (broadcastInDim S3200000 ![] bcast_S_S3200000 : (⟨S_, .i32⟩ : BufTy).Contents (Elt F) → (⟨S3200000, .i32⟩ : BufTy).Contents (Elt F)),
    StableHlo.binary main_v5 main_v19 main_v20 (addi : (⟨S3200000, .i32⟩ : BufTy).Contents (Elt F) → (⟨S3200000, .i32⟩ : BufTy).Contents (Elt F) → (⟨S3200000, .i32⟩ : BufTy).Contents (Elt F)),
    StableHlo.ternary main_v18 main_v20 main_v5 main_v21 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v21 main_v22 (broadcastInDim S3200000x1 ![0] bcast_S3200000_S3200000x1_0 : (⟨S3200000, .i32⟩ : BufTy).Contents (Elt F) → (⟨S3200000x1, .i32⟩ : BufTy).Contents (Elt F)),
    StableHlo.binary main_v16 main_v22 main_v23 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_5 (constantI S_ 32 0#32),
    StableHlo.unary main_c_5 main_v24 (broadcastInDim S3200000 ![] bcast_S_S3200000 : (⟨S_, .i32⟩ : BufTy).Contents (Elt F) → (⟨S3200000, .i32⟩ : BufTy).Contents (Elt F)),
    StableHlo.binary main_v7 main_v24 main_v25 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v26 (broadcastInDim S3200000 ![] bcast_S_S3200000 : (⟨S_, .i32⟩ : BufTy).Contents (Elt F) → (⟨S3200000, .i32⟩ : BufTy).Contents (Elt F)),
    StableHlo.binary main_v7 main_v26 main_v27 (addi : (⟨S3200000, .i32⟩ : BufTy).Contents (Elt F) → (⟨S3200000, .i32⟩ : BufTy).Contents (Elt F) → (⟨S3200000, .i32⟩ : BufTy).Contents (Elt F)),
    StableHlo.ternary main_v25 main_v27 main_v7 main_v28 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v28 main_v29 (broadcastInDim S3200000x1 ![0] bcast_S3200000_S3200000x1_0 : (⟨S3200000, .i32⟩ : BufTy).Contents (Elt F) → (⟨S3200000x1, .i32⟩ : BufTy).Contents (Elt F)),
    StableHlo.binary main_v16 main_v29 main_v30 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v23 main_v30 main_v31 (mulf : (⟨S3200000, .f32⟩ : BufTy).Contents (Elt F) → (⟨S3200000, .f32⟩ : BufTy).Contents (Elt F) → (⟨S3200000, .f32⟩ : BufTy).Contents (Elt F)),
    StableHlo.unary main_v31 main_v32 (broadcastInDim S3200000x1 ![0] bcast_S3200000_S3200000x1_0 : (⟨S3200000, .f32⟩ : BufTy).Contents (Elt F) → (⟨S3200000x1, .f32⟩ : BufTy).Contents (Elt F)),
    StableHlo.binary main_v32 main_arg4 main_v33 ((fun l r => Host.dotGeneral dot_S3200000x1_S1x8_S3200000x8_1_0_0_1_n_n none l r) : (⟨S3200000x1, .f32⟩ : BufTy).Contents (Elt F) → (⟨S1x8, .f32⟩ : BufTy).Contents (Elt F) → (⟨S3200000x8, .f32⟩ : BufTy).Contents (Elt F)),
    StableHlo.nullary main_cst_7 (constant S_ .f32 0x3E4CCCCD#32) ]
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub ..⟩
theorem main_part0_ops2_fresh : (main_part0_ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- 7 operations of the call whose buffers are the record main_call1 (the callee's body at the call's references), in order. -/
abbrev main_part0_ops3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S3200000x8, .f32⟩) (broadcastInDim S3200000x8 ![] bcast_S_S3200000x8),
    StableHlo.TRef.binary (.of main_v33 : StableHlo.TRef sig ⟨S3200000x8, .f32⟩) (.of main_call1_v0 : StableHlo.TRef sig ⟨S3200000x8, .f32⟩) (.of main_call1_v1 : StableHlo.TRef sig ⟨S3200000x8, .i1⟩) (cmpf .oge),
    StableHlo.TRef.unary (.of main_cst_7 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S3200000x8, .f32⟩) (broadcastInDim S3200000x8 ![] bcast_S_S3200000x8),
    StableHlo.TRef.binary (.of main_call1_v3 : StableHlo.TRef sig ⟨S3200000x8, .f32⟩) (.of main_v33 : StableHlo.TRef sig ⟨S3200000x8, .f32⟩) (.of main_call1_v4 : StableHlo.TRef sig ⟨S3200000x8, .f32⟩) mulf,
    StableHlo.TRef.ternary (.of main_call1_v1 : StableHlo.TRef sig ⟨S3200000x8, .i1⟩) (.of main_v33 : StableHlo.TRef sig ⟨S3200000x8, .f32⟩) (.of main_call1_v4 : StableHlo.TRef sig ⟨S3200000x8, .f32⟩) (.of main_v34 : StableHlo.TRef sig ⟨S3200000x8, .f32⟩) select ]
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem main_part0_ops3_fresh : (main_part0_ops3 : List (HloOp τ sig (Elt F))).Forall fun op => op.fresh = ∅ :=
  ⟨rfl, rfl, rfl, rfl, rfl, rfl, rfl⟩

/-- 15 operations of @main, in order. -/
abbrev main_part0_ops4 : List (HloOp τ sig (Elt F)) :=
  [ StableHlo.binary main_v34 main_arg5 main_v35 ((fun l r => Host.dotGeneral dot_S3200000x8_S8x8_S3200000x8_1_0_0_1_n_n none l r) : (⟨S3200000x8, .f32⟩ : BufTy).Contents (Elt F) → (⟨S8x8, .f32⟩ : BufTy).Contents (Elt F) → (⟨S3200000x8, .f32⟩ : BufTy).Contents (Elt F)),
    StableHlo.unary main_arg6 main_v36 (broadcastInDim S1x8 ![1] bcast_S8_S1x8_1 : (⟨S8, .f32⟩ : BufTy).Contents (Elt F) → (⟨S1x8, .f32⟩ : BufTy).Contents (Elt F)),
    StableHlo.unary main_v36 main_v37 (broadcastInDim S3200000x8 ![0, 1] bcast_S1x8_S3200000x8_0_1 : (⟨S1x8, .f32⟩ : BufTy).Contents (Elt F) → (⟨S3200000x8, .f32⟩ : BufTy).Contents (Elt F)),
    StableHlo.binary main_v35 main_v37 main_v38 (addf : (⟨S3200000x8, .f32⟩ : BufTy).Contents (Elt F) → (⟨S3200000x8, .f32⟩ : BufTy).Contents (Elt F) → (⟨S3200000x8, .f32⟩ : BufTy).Contents (Elt F)),
    StableHlo.nullary main_c_8 (constantI S_ 32 0#32),
    StableHlo.unary main_c_8 main_v39 (broadcastInDim S3200000 ![] bcast_S_S3200000 : (⟨S_, .i32⟩ : BufTy).Contents (Elt F) → (⟨S3200000, .i32⟩ : BufTy).Contents (Elt F)),
    StableHlo.binary main_v5 main_v39 main_v40 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v41 (broadcastInDim S3200000 ![] bcast_S_S3200000 : (⟨S_, .i32⟩ : BufTy).Contents (Elt F) → (⟨S3200000, .i32⟩ : BufTy).Contents (Elt F)),
    StableHlo.binary main_v5 main_v41 main_v42 (addi : (⟨S3200000, .i32⟩ : BufTy).Contents (Elt F) → (⟨S3200000, .i32⟩ : BufTy).Contents (Elt F) → (⟨S3200000, .i32⟩ : BufTy).Contents (Elt F)),
    StableHlo.ternary main_v40 main_v42 main_v5 main_v43 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v43 main_v44 (broadcastInDim S3200000x1 ![0] bcast_S3200000_S3200000x1_0 : (⟨S3200000, .i32⟩ : BufTy).Contents (Elt F) → (⟨S3200000x1, .i32⟩ : BufTy).Contents (Elt F)),
    StableHlo.binary main_v3 main_v44 main_v45 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)),
    StableHlo.binary main_v38 main_v45 main_v46 (mulf : (⟨S3200000x8, .f32⟩ : BufTy).Contents (Elt F) → (⟨S3200000x8, .f32⟩ : BufTy).Contents (Elt F) → (⟨S3200000x8, .f32⟩ : BufTy).Contents (Elt F)),
    StableHlo.nullary main_cst_10 (constant S_ .f32 0x00000000#32) ]
theorem main_part0_ops4_sub : (main_part0_ops4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub ..⟩
theorem main_part0_ops4_fresh : (main_part0_ops4 : List (HloOp τ sig (Elt F))).Forall fun op => op.fresh = ∅ :=
  ⟨rfl, rfl, rfl, rfl, rfl, rfl, rfl, rfl, rfl, rfl, rfl, rfl, rfl, rfl, rfl⟩

theorem main_part0_chain (c : Dev nD) : main_part0 (F := F) c = (Pipeline.chainK
  [ StableHlo.seq main_part0_ops0,
    StableHlo.seq main_part0_ops1,
    StableHlo.seq main_part0_ops2,
    StableHlo.seq main_part0_ops3 ]
  (StableHlo.seq main_part0_ops4) : Prog (TpuEff nD τ sig (Elt F) (Pipeline.Sig Λ₀ (Fin 0) fun p => (pcfgs (F := F) p).Adm) .tc) PUnit) := by
  chain_rfl

/-- 3 operations of @main, in order. -/
abbrev main_part1_ops0 : List (HloOp τ sig (Elt F)) :=
  [ StableHlo.unary main_cst_10 main_v47 (broadcastInDim S100000x8 ![] bcast_S_S100000x8 : (⟨S_, .f32⟩ : BufTy).Contents (Elt F) → (⟨S100000x8, .f32⟩ : BufTy).Contents (Elt F)),
    StableHlo.unary main_v7 main_v48 (broadcastInDim S3200000x1 ![0] bcast_S3200000_S3200000x1_0 : (⟨S3200000, .i32⟩ : BufTy).Contents (Elt F) → (⟨S3200000x1, .i32⟩ : BufTy).Contents (Elt F)),
    StableHlo.ternary main_v47 main_v48 main_v46 main_v49 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)) ]
theorem main_part1_ops0_sub : (main_part1_ops0 : List (HloOp τ sig (Elt F))).Forall fun op => op.bufs ⊆ StableHlo.tcRefs τ sig :=
  ⟨StableHlo.unary_bufs_sub .., StableHlo.unary_bufs_sub .., StableHlo.ternary_bufs_sub ..⟩
theorem main_part1_ops0_fresh : (main_part1_ops0 : List (HloOp τ sig (Elt F))).Forall fun op => op.fresh = ∅ :=
  ⟨rfl, rfl, rfl⟩

/-- 15 operations of the call whose buffers are the record main_call2 (the callee's body at the call's references), in order. -/
abbrev main_part1_ops1 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x8, .f32⟩) (broadcastInDim S100000x8 ![] bcast_S_S100000x8),
    StableHlo.TRef.binary (.of main_v49 : StableHlo.TRef sig ⟨S100000x8, .f32⟩) (.of main_call2_v0 : StableHlo.TRef sig ⟨S100000x8, .f32⟩) (.of main_call2_v1 : StableHlo.TRef sig ⟨S100000x8, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S100000x8, .f32⟩) (broadcastInDim S100000x8 ![] bcast_S_S100000x8),
    StableHlo.TRef.binary (.of main_v49 : StableHlo.TRef sig ⟨S100000x8, .f32⟩) (.of main_call2_v2 : StableHlo.TRef sig ⟨S100000x8, .f32⟩) (.of main_call2_v3 : StableHlo.TRef sig ⟨S100000x8, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100000x8, .f32⟩) (broadcastInDim S100000x8 ![] bcast_S_S100000x8),
    StableHlo.TRef.ternary (.of main_call2_v3 : StableHlo.TRef sig ⟨S100000x8, .i1⟩) (.of main_call2_call0_v1 : StableHlo.TRef sig ⟨S100000x8, .f32⟩) (.of main_v49 : StableHlo.TRef sig ⟨S100000x8, .f32⟩) (.of main_call2_v4 : StableHlo.TRef sig ⟨S100000x8, .f32⟩) select,
    StableHlo.TRef.unary (.of main_call2_v4 : StableHlo.TRef sig ⟨S100000x8, .f32⟩) (.of main_call2_v5 : StableHlo.TRef sig ⟨S100000x8, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S100000x8, .f32⟩) (broadcastInDim S100000x8 ![] bcast_S_S100000x8),
    StableHlo.TRef.binary (.of main_call2_v6 : StableHlo.TRef sig ⟨S100000x8, .f32⟩) (.of main_call2_v5 : StableHlo.TRef sig ⟨S100000x8, .f32⟩) (.of main_call2_v7 : StableHlo.TRef sig ⟨S100000x8, .f32⟩) mulf,
    StableHlo.TRef.ternary (.of main_call2_v1 : StableHlo.TRef sig ⟨S100000x8, .i1⟩) (.of main_v49 : StableHlo.TRef sig ⟨S100000x8, .f32⟩) (.of main_call2_v7 : StableHlo.TRef sig ⟨S100000x8, .f32⟩) (.of main_v50 : StableHlo.TRef sig ⟨S100000x8, .f32⟩) select ]
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem main_part1_ops1_fresh : (main_part1_ops1 : List (HloOp τ sig (Elt F))).Forall fun op => op.fresh = ∅ :=
  ⟨rfl, rfl, rfl, rfl, rfl, rfl, rfl, rfl, rfl, rfl, rfl, rfl, rfl, rfl, rfl⟩

/-- 21 operations of @main, in order. -/
abbrev main_part1_ops2 : List (HloOp τ sig (Elt F)) :=
  [ StableHlo.binary main_v50 main_arg7 main_v51 ((fun l r => Host.dotGeneral dot_S100000x8_S8x64_S100000x64_1_0_0_1_n_n none l r) : (⟨S100000x8, .f32⟩ : BufTy).Contents (Elt F) → (⟨S8x64, .f32⟩ : BufTy).Contents (Elt F) → (⟨S100000x64, .f32⟩ : BufTy).Contents (Elt F)),
    StableHlo.unary main_arg8 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v53 main_v54 (addf : (⟨S100000x64, .f32⟩ : BufTy).Contents (Elt F) → (⟨S100000x64, .f32⟩ : BufTy).Contents (Elt F) → (⟨S100000x64, .f32⟩ : BufTy).Contents (Elt F)),
    StableHlo.unary main_arg1 main_v55 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v55 main_v56 rfl shapeCasts_S1x3200000_S3200000,
    StableHlo.unary main_arg1 main_v57 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v57 main_v58 rfl shapeCasts_S1x3200000_S3200000,
    StableHlo.nullary main_cst_11 (constant S_ .f32 0x3F800000#32),
    StableHlo.unary main_cst_11 main_v59 (broadcastInDim S3200000 ![] bcast_S_S3200000 : (⟨S_, .f32⟩ : BufTy).Contents (Elt F) → (⟨S3200000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.unary main_v56 main_v61 (broadcastInDim S3200000x1 ![0] bcast_S3200000_S3200000x1_0 : (⟨S3200000, .i32⟩ : BufTy).Contents (Elt F) → (⟨S3200000x1, .i32⟩ : BufTy).Contents (Elt F)),
    StableHlo.ternary main_v60 main_v61 main_v59 main_v62 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_13 (constant S_ .f32 0x00000000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v62 main_v63 main_v64 (cmpf .ogt : (⟨S100000, .f32⟩ : BufTy).Contents (Elt F) → (⟨S100000, .f32⟩ : BufTy).Contents (Elt F) → (⟨S100000, .i1⟩ : BufTy).Contents (Elt F)),
    StableHlo.nullary main_cst_14 (constant S_ .f32 0xBF000000#32),
    StableHlo.unary main_cst_14 main_v65 (broadcastInDim S100000 ![] bcast_S_S100000 : (⟨S_, .f32⟩ : BufTy).Contents (Elt F) → (⟨S100000, .f32⟩ : BufTy).Contents (Elt F)),
    StableHlo.binary main_v62 main_v65 main_v66 (Host.powf : (⟨S100000, .f32⟩ : BufTy).Contents (Elt F) → (⟨S100000, .f32⟩ : BufTy).Contents (Elt F) → (⟨S100000, .f32⟩ : BufTy).Contents (Elt F)),
    StableHlo.nullary main_cst_15 (constant S_ .f32 0x00000000#32) ]
theorem main_part1_ops2_sub : (main_part1_ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem main_part1_ops2_fresh : (main_part1_ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 3 operations of the call whose buffers are the record main_call3 (the callee's body at the call's references), in order. -/
abbrev main_part1_ops3 : List (HloOp τ sig (Elt F)) :=
  [ StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.ternary (.of main_v64 : StableHlo.TRef sig ⟨S100000, .i1⟩) (.of main_v66 : StableHlo.TRef sig ⟨S100000, .f32⟩) (.of main_call3_v1 : StableHlo.TRef sig ⟨S100000, .f32⟩) (.of main_v67 : StableHlo.TRef sig ⟨S100000, .f32⟩) select ]
theorem main_part1_ops3_sub : (main_part1_ops3 : List (HloOp τ sig (Elt F))).Forall fun op => op.bufs ⊆ StableHlo.tcRefs τ sig :=
  ⟨StableHlo.unary_bufs_sub .., StableHlo.unary_bufs_sub .., StableHlo.ternary_bufs_sub ..⟩
theorem main_part1_ops3_fresh : (main_part1_ops3 : List (HloOp τ sig (Elt F))).Forall fun op => op.fresh = ∅ :=
  ⟨rfl, rfl, rfl⟩

/-- 22 operations of @main, in order. -/
abbrev main_part1_ops4 : List (HloOp τ sig (Elt F)) :=
  [ StableHlo.nullary main_c_16 (constantI S_ 32 0#32),
    StableHlo.unary main_c_16 main_v68 (broadcastInDim S3200000 ![] bcast_S_S3200000 : (⟨S_, .i32⟩ : BufTy).Contents (Elt F) → (⟨S3200000, .i32⟩ : BufTy).Contents (Elt F)),
    StableHlo.binary main_v56 main_v68 main_v69 (cmpi .slt : (⟨S3200000, .i32⟩ : BufTy).Contents (Elt F) → (⟨S3200000, .i32⟩ : BufTy).Contents (Elt F) → (⟨S3200000, .i1⟩ : BufTy).Contents (Elt F)),
    StableHlo.nullary main_c_17 (constantI S_ 32 100000#32),
    StableHlo.unary main_c_17 main_v70 (broadcastInDim S3200000 ![] bcast_S_S3200000 : (⟨S_, .i32⟩ : BufTy).Contents (Elt F) → (⟨S3200000, .i32⟩ : BufTy).Contents (Elt F)),
    StableHlo.binary main_v56 main_v70 main_v71 (addi : (⟨S3200000, .i32⟩ : BufTy).Contents (Elt F) → (⟨S3200000, .i32⟩ : BufTy).Contents (Elt F) → (⟨S3200000, .i32⟩ : BufTy).Contents (Elt F)),
    StableHlo.ternary main_v69 main_v71 main_v56 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v72 main_v73 (broadcastInDim S3200000x1 ![0] bcast_S3200000_S3200000x1_0 : (⟨S3200000, .i32⟩ : BufTy).Contents (Elt F) → (⟨S3200000x1, .i32⟩ : BufTy).Contents (Elt F)),
    StableHlo.binary main_v67 main_v73 main_v74 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_18 (constantI S_ 32 0#32),
    StableHlo.unary main_c_18 main_v75 (broadcastInDim S3200000 ![] bcast_S_S3200000 : (⟨S_, .i32⟩ : BufTy).Contents (Elt F) → (⟨S3200000, .i32⟩ : BufTy).Contents (Elt F)),
    StableHlo.binary main_v58 main_v75 main_v76 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v77 (broadcastInDim S3200000 ![] bcast_S_S3200000 : (⟨S_, .i32⟩ : BufTy).Contents (Elt F) → (⟨S3200000, .i32⟩ : BufTy).Contents (Elt F)),
    StableHlo.binary main_v58 main_v77 main_v78 (addi : (⟨S3200000, .i32⟩ : BufTy).Contents (Elt F) → (⟨S3200000, .i32⟩ : BufTy).Contents (Elt F) → (⟨S3200000, .i32⟩ : BufTy).Contents (Elt F)),
    StableHlo.ternary main_v76 main_v78 main_v58 main_v79 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v79 main_v80 (broadcastInDim S3200000x1 ![0] bcast_S3200000_S3200000x1_0 : (⟨S3200000, .i32⟩ : BufTy).Contents (Elt F) → (⟨S3200000x1, .i32⟩ : BufTy).Contents (Elt F)),
    StableHlo.binary main_v67 main_v80 main_v81 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v74 main_v81 main_v82 (mulf : (⟨S3200000, .f32⟩ : BufTy).Contents (Elt F) → (⟨S3200000, .f32⟩ : BufTy).Contents (Elt F) → (⟨S3200000, .f32⟩ : BufTy).Contents (Elt F)),
    StableHlo.unary main_v82 main_v83 (broadcastInDim S3200000x1 ![0] bcast_S3200000_S3200000x1_0 : (⟨S3200000, .f32⟩ : BufTy).Contents (Elt F) → (⟨S3200000x1, .f32⟩ : BufTy).Contents (Elt F)),
    StableHlo.binary main_v83 main_arg9 main_v84 ((fun l r => Host.dotGeneral dot_S3200000x1_S1x64_S3200000x64_1_0_0_1_n_n none l r) : (⟨S3200000x1, .f32⟩ : BufTy).Contents (Elt F) → (⟨S1x64, .f32⟩ : BufTy).Contents (Elt F) → (⟨S3200000x64, .f32⟩ : BufTy).Contents (Elt F)),
    StableHlo.nullary main_cst_20 (constant S_ .f32 0x3E4CCCCD#32) ]
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub ..⟩
theorem main_part1_ops4_fresh : (main_part1_ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- 7 operations of the call whose buffers are the record main_call4 (the callee's body at the call's references), in order. -/
abbrev main_part1_ops5 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S3200000x64, .f32⟩) (broadcastInDim S3200000x64 ![] bcast_S_S3200000x64),
    StableHlo.TRef.binary (.of main_v84 : StableHlo.TRef sig ⟨S3200000x64, .f32⟩) (.of main_call4_v0 : StableHlo.TRef sig ⟨S3200000x64, .f32⟩) (.of main_call4_v1 : StableHlo.TRef sig ⟨S3200000x64, .i1⟩) (cmpf .oge),
    StableHlo.TRef.unary (.of main_cst_20 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S3200000x64, .f32⟩) (broadcastInDim S3200000x64 ![] bcast_S_S3200000x64),
    StableHlo.TRef.binary (.of main_call4_v3 : StableHlo.TRef sig ⟨S3200000x64, .f32⟩) (.of main_v84 : StableHlo.TRef sig ⟨S3200000x64, .f32⟩) (.of main_call4_v4 : StableHlo.TRef sig ⟨S3200000x64, .f32⟩) mulf,
    StableHlo.TRef.ternary (.of main_call4_v1 : StableHlo.TRef sig ⟨S3200000x64, .i1⟩) (.of main_v84 : StableHlo.TRef sig ⟨S3200000x64, .f32⟩) (.of main_call4_v4 : StableHlo.TRef sig ⟨S3200000x64, .f32⟩) (.of main_v85 : StableHlo.TRef sig ⟨S3200000x64, .f32⟩) select ]
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem main_part1_ops5_fresh : (main_part1_ops5 : List (HloOp τ sig (Elt F))).Forall fun op => op.fresh = ∅ :=
  ⟨rfl, rfl, rfl, rfl, rfl, rfl, rfl⟩

/-- 11 operations of @main, in order. -/
abbrev main_part1_ops6 : List (HloOp τ sig (Elt F)) :=
  [ StableHlo.binary main_v85 main_arg10 main_v86 ((fun l r => Host.dotGeneral dot_S3200000x64_S64x64_S3200000x64_1_0_0_1_n_n none l r) : (⟨S3200000x64, .f32⟩ : BufTy).Contents (Elt F) → (⟨S64x64, .f32⟩ : BufTy).Contents (Elt F) → (⟨S3200000x64, .f32⟩ : BufTy).Contents (Elt F)),
    StableHlo.unary main_arg11 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S3200000x64 ![0, 1] bcast_S1x64_S3200000x64_0_1 : (⟨S1x64, .f32⟩ : BufTy).Contents (Elt F) → (⟨S3200000x64, .f32⟩ : BufTy).Contents (Elt F)),
    StableHlo.binary main_v86 main_v88 main_v89 (addf : (⟨S3200000x64, .f32⟩ : BufTy).Contents (Elt F) → (⟨S3200000x64, .f32⟩ : BufTy).Contents (Elt F) → (⟨S3200000x64, .f32⟩ : BufTy).Contents (Elt F)),
    StableHlo.nullary main_c_21 (constantI S_ 32 0#32),
    StableHlo.unary main_c_21 main_v90 (broadcastInDim S3200000 ![] bcast_S_S3200000 : (⟨S_, .i32⟩ : BufTy).Contents (Elt F) → (⟨S3200000, .i32⟩ : BufTy).Contents (Elt F)),
    StableHlo.binary main_v56 main_v90 main_v91 (cmpi .slt : (⟨S3200000, .i32⟩ : BufTy).Contents (Elt F) → (⟨S3200000, .i32⟩ : BufTy).Contents (Elt F) → (⟨S3200000, .i1⟩ : BufTy).Contents (Elt F)),
    StableHlo.nullary main_c_22 (constantI S_ 32 100000#32),
    StableHlo.unary main_c_22 main_v92 (broadcastInDim S3200000 ![] bcast_S_S3200000 : (⟨S_, .i32⟩ : BufTy).Contents (Elt F) → (⟨S3200000, .i32⟩ : BufTy).Contents (Elt F)),
    StableHlo.binary main_v56 main_v92 main_v93 (addi : (⟨S3200000, .i32⟩ : BufTy).Contents (Elt F) → (⟨S3200000, .i32⟩ : BufTy).Contents (Elt F) → (⟨S3200000, .i32⟩ : BufTy).Contents (Elt F)),
    StableHlo.ternary main_v91 main_v93 main_v56 main_v94 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) ]
theorem main_part1_ops6_sub : (main_part1_ops6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem main_part1_ops6_fresh : (main_part1_ops6 : List (HloOp τ sig (Elt F))).Forall fun op => op.fresh = ∅ :=
  ⟨rfl, rfl, rfl, rfl, rfl, rfl, rfl, rfl, rfl, rfl, rfl⟩

theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5 ]
  (StableHlo.seq main_part1_ops6) : Prog (TpuEff nD τ sig (Elt F) (Pipeline.Sig Λ₀ (Fin 0) fun p => (pcfgs (F := F) p).Adm) .tc) PUnit) := by
  chain_rfl

/-- 7 operations of @main, in order. -/
abbrev main_part2_ops0 : List (HloOp τ sig (Elt F)) :=
  [ StableHlo.unary main_v94 main_v95 (broadcastInDim S3200000x1 ![0] bcast_S3200000_S3200000x1_0 : (⟨S3200000, .i32⟩ : BufTy).Contents (Elt F) → (⟨S3200000x1, .i32⟩ : BufTy).Contents (Elt F)),
    StableHlo.binary main_v54 main_v95 main_v96 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.binary main_v89 main_v96 main_v97 (mulf : (⟨S3200000x64, .f32⟩ : BufTy).Contents (Elt F) → (⟨S3200000x64, .f32⟩ : BufTy).Contents (Elt F) → (⟨S3200000x64, .f32⟩ : BufTy).Contents (Elt F)),
    StableHlo.nullary main_cst_23 (constant S_ .f32 0x00000000#32),
    StableHlo.unary main_cst_23 main_v98 (broadcastInDim S100000x64 ![] bcast_S_S100000x64 : (⟨S_, .f32⟩ : BufTy).Contents (Elt F) → (⟨S100000x64, .f32⟩ : BufTy).Contents (Elt F)),
    StableHlo.unary main_v58 main_v99 (broadcastInDim S3200000x1 ![0] bcast_S3200000_S3200000x1_0 : (⟨S3200000, .i32⟩ : BufTy).Contents (Elt F) → (⟨S3200000x1, .i32⟩ : BufTy).Contents (Elt F)),
    StableHlo.ternary main_v98 main_v99 main_v97 main_v100 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]
theorem main_part2_ops0_sub : (main_part2_ops0 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.unary_bufs_sub .., StableHlo.ternary_bufs_sub ..⟩
theorem main_part2_ops0_fresh : (main_part2_ops0 : List (HloOp τ sig (Elt F))).Forall fun op => op.fresh = ∅ :=
  ⟨rfl, rfl, rfl, rfl, rfl, rfl, rfl⟩

/-- 15 operations of the call whose buffers are the record main_call5 (the callee's body at the call's references), in order. -/
abbrev main_part2_ops1 : List (HloOp τ sig (Elt F)) :=
  [ StableHlo.TRef.nullary (.of main_call5_cst : StableHlo.TRef sig ⟨S_, .f32⟩) (constant S_ .f32 0xFF800000#32),
    StableHlo.TRef.binary (.of main_v100 : StableHlo.TRef sig ⟨S100000x64, .f32⟩) (.of main_call5_cst : StableHlo.TRef sig ⟨S_, .f32⟩) (.of main_call5_v0 : StableHlo.TRef sig ⟨S100000, .f32⟩) (fun x v => Host.reduce FloatOps.maximumf x v reducesTo_S100000x64_S100000_d1 h_S_),
    StableHlo.TRef.nullary (.of main_call5_cst_0 : StableHlo.TRef sig ⟨S_, .f32⟩) (constant S_ .f32 0xFF800000#32),
    StableHlo.TRef.unary (.of main_call5_cst_0 : StableHlo.TRef sig ⟨S_, .f32⟩) (.of main_call5_v1 : StableHlo.TRef sig ⟨S100000, .f32⟩) (broadcastInDim S100000 ![] bcast_S_S100000),
    StableHlo.TRef.binary (.of main_call5_v1 : StableHlo.TRef sig ⟨S100000, .f32⟩) (.of main_call5_v0 : StableHlo.TRef sig ⟨S100000, .f32⟩) (.of main_call5_v2 : StableHlo.TRef sig ⟨S100000, .f32⟩) maximumf,
    StableHlo.TRef.unary (.of main_call5_v2 : StableHlo.TRef sig ⟨S100000, .f32⟩) (.of main_call5_v3 : StableHlo.TRef sig ⟨S100000x1, .f32⟩) (broadcastInDim S100000x1 ![0] bcast_S100000_S100000x1_0),
    StableHlo.TRef.unary (.of main_call5_v3 : StableHlo.TRef sig ⟨S100000x1, .f32⟩) (.of main_call5_v4 : StableHlo.TRef sig ⟨S100000x64, .f32⟩) (broadcastInDim S100000x64 ![0, 1] bcast_S100000x1_S100000x64_0_1),
    StableHlo.TRef.binary (.of main_v100 : StableHlo.TRef sig ⟨S100000x64, .f32⟩) (.of main_call5_v4 : StableHlo.TRef sig ⟨S100000x64, .f32⟩) (.of main_call5_v5 : StableHlo.TRef sig ⟨S100000x64, .f32⟩) subf,
    StableHlo.TRef.unary (.of main_call5_v5 : StableHlo.TRef sig ⟨S100000x64, .f32⟩) (.of main_call5_v6 : StableHlo.TRef sig ⟨S100000x64, .f32⟩) Host.exp,
    StableHlo.TRef.nullary (.of main_call5_cst_1 : StableHlo.TRef sig ⟨S_, .f32⟩) (constant S_ .f32 0x00000000#32),
    StableHlo.TRef.binary (.of main_call5_v6 : StableHlo.TRef sig ⟨S100000x64, .f32⟩) (.of main_call5_cst_1 : StableHlo.TRef sig ⟨S_, .f32⟩) (.of main_call5_v7 : StableHlo.TRef sig ⟨S100000, .f32⟩) (fun x v => Host.reduceAdd x v reducesTo_S100000x64_S100000_d1 h_S_),
    StableHlo.TRef.unary (.of main_call5_v7 : StableHlo.TRef sig ⟨S100000, .f32⟩) (.of main_call5_v8 : StableHlo.TRef sig ⟨S100000x1, .f32⟩) (broadcastInDim S100000x1 ![0] bcast_S100000_S100000x1_0),
    StableHlo.TRef.unary (.of main_call5_v8 : StableHlo.TRef sig ⟨S100000x1, .f32⟩) (.of main_call5_v9 : StableHlo.TRef sig ⟨S100000x1, .f32⟩) Host.log,
    StableHlo.TRef.unary (.of main_call5_v9 : StableHlo.TRef sig ⟨S100000x1, .f32⟩) (.of main_call5_v10 : StableHlo.TRef sig ⟨S100000x64, .f32⟩) (broadcastInDim S100000x64 ![0, 1] bcast_S100000x1_S100000x64_0_1),
    StableHlo.TRef.binary (.of main_call5_v5 : StableHlo.TRef sig ⟨S100000x64, .f32⟩) (.of main_call5_v10 : StableHlo.TRef sig ⟨S100000x64, .f32⟩) (.of main_v101 : StableHlo.TRef sig ⟨S100000x64, .f32⟩) subf ]
theorem main_part2_ops1_sub : (main_part2_ops1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem main_part2_ops1_fresh : (main_part2_ops1 : List (HloOp τ sig (Elt F))).Forall fun op => op.fresh = ∅ :=
  ⟨rfl, rfl, rfl, rfl, rfl, rfl, rfl, rfl, rfl, rfl, rfl, rfl, rfl, rfl, rfl⟩

theorem main_part2_chain (c : Dev nD) : main_part2 (F := F) c = (Pipeline.chain
  [ StableHlo.seq main_part2_ops0,
    StableHlo.seq main_part2_ops1 ] : Prog (TpuEff nD τ sig (Elt F) (Pipeline.Sig Λ₀ (Fin 0) fun p => (pcfgs (F := F) p).Adm) .tc) PUnit) := by
  chain_rfl

-- items: main_part0_ops0 main_part0_ops1 main_part0_ops2 main_part0_ops3 main_part0_ops4 main_part1_ops0 main_part1_ops1 main_part1_ops2 main_part1_ops3 main_part1_ops4 main_part1_ops5 main_part1_ops6 main_part2_ops0 main_part2_ops1
-- operations in all: 172
-- END TABLE

/-! ## @main as one straight line -/

/-- The items of the three windows, in order. -/
abbrev items : List (List (HloOp τ sig (Elt F))) :=
  [ main_part0_ops0,
    main_part0_ops1,
    main_part0_ops2,
    main_part0_ops3,
    main_part0_ops4,
    main_part1_ops0,
    main_part1_ops1,
    main_part1_ops2,
    main_part1_ops3,
    main_part1_ops4,
    main_part1_ops5,
    main_part1_ops6,
    main_part2_ops0,
    main_part2_ops1 ]

/-- @main's 172 operations, in order: the items concatenated. -/
abbrev ops : List (HloOp τ sig (Elt F)) := (items (F := F)).flatten

/-- @main is the chain of the three windows' items: each window's equation, joined at the two window boundaries. -/
theorem main_chain (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part2_ops0,
    StableHlo.seq main_part2_ops1 ] : Prog (TpuEff nD τ sig (Elt F) (Pipeline.Sig Λ₀ (Fin 0) fun p => (pcfgs (F := F) p).Adm) .tc) PUnit) := by
  show (main_part0 (F := F) c >>= fun _ => (main_part1 (F := F) c >>= fun _ => main_part2 (F := F) c)) = _
  rewrite [main_part2_chain, main_part1_chain, Pipeline.chainK_bind_chain, main_part0_chain, Pipeline.chainK_bind_chain]
  chain_rfl

/-- A chain of straight lines is the straight line of the concatenated lists (`seq_append`, list by list). -/
theorem chain_map_seq (ls : List (List (HloOp τ sig (Elt F)))) :
    (Pipeline.chain (ls.map fun l => (StableHlo.seq l : Prog (TpuEff nD τ sig (Elt F) (Pipeline.Sig Λ₀ (Fin 0) fun p => (pcfgs (F := F) p).Adm) .tc) PUnit))) = StableHlo.seq ls.flatten := by
  induction ls with
  | nil => rfl
  | cons l ls ih => rw [List.map_cons, Pipeline.chain_cons, ih, List.flatten_cons, seq_append]

/-- @main is the straight line of its operations. -/
theorem main_eq (c : Dev nD) : main (F := F) c = seq ops :=
  (main_chain c).trans (chain_map_seq (items (F := F)))

theorem scopedRefs_eq : (Finset.univ.filter fun b : Ref sig .tc => b.isScoped) = ∅ := by decide
theorem scopedSems_eq : (Finset.univ.filter fun sm : SemLoc sig => sm.isScoped .tc) = ∅ := by decide

/-! ## The side conditions of the run, item by item -/

/-- A property of every element of each list holds of every element of the concatenation. -/
theorem forall_flatten {α : Type} {p : α → Prop} :
    ∀ ls : List (List α), (ls.Forall fun l => l.Forall p) → ls.flatten.Forall p
  | [], _ => trivial
  | l :: ls, h => by
    rw [List.forall_cons] at h
    rw [List.flatten_cons, List.forall_append]
    exact ⟨h.1, forall_flatten ls h.2⟩

/-- Every operation touches TensorCore references only. -/
theorem ops_sub : (ops : List (HloOp τ sig (Elt F))).Forall fun op => op.bufs ⊆ tcRefs τ sig :=
  forall_flatten (items (F := F)) ⟨main_part0_ops0_sub, main_part0_ops1_sub, main_part0_ops2_sub, main_part0_ops3_sub, main_part0_ops4_sub, main_part1_ops0_sub, main_part1_ops1_sub, main_part1_ops2_sub, main_part1_ops3_sub, main_part1_ops4_sub, main_part1_ops5_sub, main_part1_ops6_sub, main_part2_ops0_sub, main_part2_ops1_sub⟩

/-- Every operation determines its results. -/
theorem ops_fresh : ∀ op ∈ (ops : List (HloOp τ sig (Elt F))), op.fresh = ∅ :=
  List.forall_iff_forall_mem.1 (forall_flatten (items (F := F)) ⟨main_part0_ops0_fresh, main_part0_ops1_fresh, main_part0_ops2_fresh, main_part0_ops3_fresh, main_part0_ops4_fresh, main_part1_ops0_fresh, main_part1_ops1_fresh, main_part1_ops2_fresh, main_part1_ops3_fresh, main_part1_ops4_fresh, main_part1_ops5_fresh, main_part1_ops6_fresh, main_part2_ops0_fresh, main_part2_ops1_fresh⟩)

/-! ## The contents after the line

The fold over the whole list is the fold over its items one after the other (`after_append`). It is evaluated in
three stretches, cut where the program itself passes a single value on: the first seven items compute the first
layer and its ELU into one buffer; the next six recompute the edge list's two rows, the degrees and the normalisation
from the edge-list argument and compute the second layer from that buffer and the arguments; the last item is the
row-wise log-softmax of the second layer's buffer. In each stretch every operation's result is read at its own buffer
and passed over at every other; what a call's operations add — moving contents between a buffer's type and the
callee's type for it, the same type — is the identity and is removed; the composed term of the stretch's operations
is then the Spec's term with its definitions unfolded (a call's `convert` of a scalar to its own type is `id`). -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxHeartbeats 2000000 in
/-- The first seven items: the first layer, then its ELU, of the first seven arguments. -/
theorem stage1 (W : Valuation τ sig (Elt F)) :
    after main_part1_ops1 (after main_part1_ops0 (after main_part0_ops4 (after main_part0_ops3 (after main_part0_ops2 (after main_part0_ops1 (after main_part0_ops0 (W))))))) (main_v50 : DevRef τ sig)
      = Cert.RefSpec.elu8 (F := F) (Cert.RefSpec.layer1 (F := F) (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig))) := by
  after_results_simp
  simp only [StableHlo.TRef.toBuf, StableHlo.TRef.ofBuf, cast_eq]
  rfl

set_option maxHeartbeats 2000000 in
/-- The first seven items do not write argument 1. -/
theorem stage1_arg1 (W : Valuation τ sig (Elt F)) :
    after main_part1_ops1 (after main_part1_ops0 (after main_part0_ops4 (after main_part0_ops3 (after main_part0_ops2 (after main_part0_ops1 (after main_part0_ops0 (W))))))) (main_arg1 : DevRef τ sig) = W (main_arg1 : DevRef τ sig) := by
  after_results_simp

set_option maxHeartbeats 2000000 in
/-- The first seven items do not write argument 7. -/
theorem stage1_arg7 (W : Valuation τ sig (Elt F)) :
    after main_part1_ops1 (after main_part1_ops0 (after main_part0_ops4 (after main_part0_ops3 (after main_part0_ops2 (after main_part0_ops1 (after main_part0_ops0 (W))))))) (main_arg7 : DevRef τ sig) = W (main_arg7 : DevRef τ sig) := by
  after_results_simp

set_option maxHeartbeats 2000000 in
/-- The first seven items do not write argument 8. -/
theorem stage1_arg8 (W : Valuation τ sig (Elt F)) :
    after main_part1_ops1 (after main_part1_ops0 (after main_part0_ops4 (after main_part0_ops3 (after main_part0_ops2 (after main_part0_ops1 (after main_part0_ops0 (W))))))) (main_arg8 : DevRef τ sig) = W (main_arg8 : DevRef τ sig) := by
  after_results_simp

set_option maxHeartbeats 2000000 in
/-- The first seven items do not write argument 9. -/
theorem stage1_arg9 (W : Valuation τ sig (Elt F)) :
    after main_part1_ops1 (after main_part1_ops0 (after main_part0_ops4 (after main_part0_ops3 (after main_part0_ops2 (after main_part0_ops1 (after main_part0_ops0 (W))))))) (main_arg9 : DevRef τ sig) = W (main_arg9 : DevRef τ sig) := by
  after_results_simp

set_option maxHeartbeats 2000000 in
/-- The first seven items do not write argument 10. -/
theorem stage1_arg10 (W : Valuation τ sig (Elt F)) :
    after main_part1_ops1 (after main_part1_ops0 (after main_part0_ops4 (after main_part0_ops3 (after main_part0_ops2 (after main_part0_ops1 (after main_part0_ops0 (W))))))) (main_arg10 : DevRef τ sig) = W (main_arg10 : DevRef τ sig) := by
  after_results_simp

set_option maxHeartbeats 2000000 in
/-- The first seven items do not write argument 11. -/
theorem stage1_arg11 (W : Valuation τ sig (Elt F)) :
    after main_part1_ops1 (after main_part1_ops0 (after main_part0_ops4 (after main_part0_ops3 (after main_part0_ops2 (after main_part0_ops1 (after main_part0_ops0 (W))))))) (main_arg11 : DevRef τ sig) = W (main_arg11 : DevRef τ sig) := by
  after_results_simp

set_option maxHeartbeats 2000000 in
/-- The next six items: the second layer of the ELU's buffer, the edge list and the last five arguments. -/
theorem stage2 (W : Valuation τ sig (Elt F)) :
    after main_part2_ops0 (after main_part1_ops6 (after main_part1_ops5 (after main_part1_ops4 (after main_part1_ops3 (after main_part1_ops2 (W)))))) (main_v100 : DevRef τ sig)
      = Cert.RefSpec.layer2 (F := F) (W (main_v50 : DevRef τ sig)) (W (main_arg1 : DevRef τ sig)) (W (main_arg7 : DevRef τ sig)) (W (main_arg8 : DevRef τ sig)) (W (main_arg9 : DevRef τ sig)) (W (main_arg10 : DevRef τ sig)) (W (main_arg11 : DevRef τ sig)) := by
  after_results_simp
  simp only [StableHlo.TRef.toBuf, StableHlo.TRef.ofBuf, cast_eq]
  rfl

/-! ## The last item: the row-wise log-softmax

Its fifteen operations evaluated in one piece give a term whose shape the moves between a buffer's type and the
callee's type for it hide, so the item is walked in six steps over an arbitrary valuation, each naming what one or two
operations leave: the row maximum (a max-reduction from -inf); the vector of -inf; their pointwise maximum; that, as a
column, spread over the 64 channels; the input minus it (the centred input); the centred input minus the logarithm of
its row sums of exponentials. A buffer a step does not write keeps its contents. -/

section LogSoftmax

variable (W : Valuation τ sig (Elt F))

abbrev lsm1 : List (HloOp τ sig (Elt F)) := (main_part2_ops1.take 2)
abbrev lsm2 : List (HloOp τ sig (Elt F)) := ((main_part2_ops1.drop 2).take 2)
abbrev lsm3 : List (HloOp τ sig (Elt F)) := ((main_part2_ops1.drop 4).take 1)
abbrev lsm4 : List (HloOp τ sig (Elt F)) := ((main_part2_ops1.drop 5).take 2)
abbrev lsm5 : List (HloOp τ sig (Elt F)) := ((main_part2_ops1.drop 7).take 1)
abbrev lsm6 : List (HloOp τ sig (Elt F)) := (main_part2_ops1.drop 8)

theorem lsm_steps : (main_part2_ops1 : List (HloOp τ sig (Elt F))) = lsm1 ++ (lsm2 ++ (lsm3 ++ (lsm4 ++ (lsm5 ++ lsm6)))) := rfl

/-- Evaluate one step at one buffer. -/
local macro "lsm_eval" : tactic =>
  `(tactic| (dsimp only [lsm1, lsm2, lsm3, lsm4, lsm5, lsm6, main_part2_ops1, List.take, List.drop]; after_results_simp; try rfl))

/-- The row maximum, from -inf. -/
def rowMax (x : Cert.RefSpec.T F S100000x64 .f32) : Cert.RefSpec.T F S100000 .f32 :=
  Host.reduce FloatOps.maximumf x (constant S_ .f32 0xFF800000#32) reducesTo_S100000x64_S100000_d1 h_S_

/-- The vector of -inf. -/
def negInf : Cert.RefSpec.T F S100000 .f32 :=
  broadcastInDim S100000 ![] bcast_S_S100000 (constant S_ .f32 0xFF800000#32)

/-- A per-row number spread over the row's 64 channels. -/
def spread (v : Cert.RefSpec.T F S100000 .f32) : Cert.RefSpec.T F S100000x64 .f32 :=
  broadcastInDim S100000x64 ![0, 1] bcast_S100000x1_S100000x64_0_1 (broadcastInDim S100000x1 ![0] bcast_S100000_S100000x1_0 v)

theorem lsm1_v0 : after lsm1 W (main_call5_v0 : DevRef τ sig) = rowMax (F := F) (W (main_v100 : DevRef τ sig)) := by
  dsimp only [lsm1, main_part2_ops1, List.take]; after_results_simp
  simp only [StableHlo.TRef.toBuf, StableHlo.TRef.ofBuf, cast_eq]; rfl
theorem lsm1_v100 : after lsm1 W (main_v100 : DevRef τ sig) = W (main_v100 : DevRef τ sig) := by lsm_eval

theorem lsm2_v1 : after lsm2 W (main_call5_v1 : DevRef τ sig) = negInf (F := F) := by lsm_eval
theorem lsm2_v0 : after lsm2 W (main_call5_v0 : DevRef τ sig) = W (main_call5_v0 : DevRef τ sig) := by lsm_eval
theorem lsm2_v100 : after lsm2 W (main_v100 : DevRef τ sig) = W (main_v100 : DevRef τ sig) := by lsm_eval

theorem lsm3_v2 : after lsm3 W (main_call5_v2 : DevRef τ sig)
    = (maximumf (W (main_call5_v1 : DevRef τ sig)) (W (main_call5_v0 : DevRef τ sig)) : Cert.RefSpec.T F S100000 .f32) := by lsm_eval
theorem lsm3_v100 : after lsm3 W (main_v100 : DevRef τ sig) = W (main_v100 : DevRef τ sig) := by lsm_eval

theorem lsm4_v4 : after lsm4 W (main_call5_v4 : DevRef τ sig) = spread (F := F) (W (main_call5_v2 : DevRef τ sig)) := by lsm_eval
theorem lsm4_v100 : after lsm4 W (main_v100 : DevRef τ sig) = W (main_v100 : DevRef τ sig) := by lsm_eval

theorem lsm5_v5 : after lsm5 W (main_call5_v5 : DevRef τ sig)
    = (subf (W (main_v100 : DevRef τ sig)) (W (main_call5_v4 : DevRef τ sig)) : Cert.RefSpec.T F S100000x64 .f32) := by lsm_eval

theorem lsm6_v101 : after lsm6 W (main_v101 : DevRef τ sig) = Cert.RefSpec.lsmTail (F := F) (W (main_call5_v5 : DevRef τ sig)) := by lsm_eval

/-- The centred input, by its steps. -/
theorem centered_eq (x : Cert.RefSpec.T F S100000x64 .f32) :
    subf x (spread (maximumf (negInf (F := F)) (rowMax x))) = Cert.RefSpec.centered x := rfl

/-- The last item: the row-wise log-softmax of the second layer's buffer. -/
theorem stage3 : after main_part2_ops1 W (main_v101 : DevRef τ sig) = Cert.RefSpec.logSoftmax (F := F) (W (main_v100 : DevRef τ sig)) := by
  rw [lsm_steps, after_append, after_append, after_append, after_append, after_append]
  rw [lsm6_v101, lsm5_v5, lsm4_v4, lsm4_v100, lsm3_v2, lsm3_v100, lsm2_v1, lsm2_v0, lsm2_v100, lsm1_v0, lsm1_v100]
  exact congrArg Cert.RefSpec.lsmTail (centered_eq _)

end LogSoftmax

/-- The result buffer after the whole line holds the network of the twelve arguments' contents. -/
theorem out_eq (V : Valuation τ sig (Elt F)) :
    after ops V (main_v101 : DevRef τ sig) = Cert.RefSpec.model (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp only [ops, items, List.flatten_cons, List.flatten_nil, List.append_nil, after_append]
  rw [stage3, stage2, stage1, stage1_arg1, stage1_arg7, stage1_arg8, stage1_arg9, stage1_arg10, stage1_arg11]
  rfl

/-! ## The arguments are not written -/

set_option maxHeartbeats 4000000 in
theorem arg0_eq (V : Valuation τ sig (Elt F)) :
    after ops V (main_arg0 : DevRef τ sig) = V (main_arg0 : DevRef τ sig) := by
  simp only [ops, items, List.flatten_cons, List.flatten_nil, List.append_nil, after_append]
  after_results_simp

set_option maxHeartbeats 4000000 in
theorem arg1_eq (V : Valuation τ sig (Elt F)) :
    after ops V (main_arg1 : DevRef τ sig) = V (main_arg1 : DevRef τ sig) := by
  simp only [ops, items, List.flatten_cons, List.flatten_nil, List.append_nil, after_append]
  after_results_simp

set_option maxHeartbeats 4000000 in
theorem arg2_eq (V : Valuation τ sig (Elt F)) :
    after ops V (main_arg2 : DevRef τ sig) = V (main_arg2 : DevRef τ sig) := by
  simp only [ops, items, List.flatten_cons, List.flatten_nil, List.append_nil, after_append]
  after_results_simp

set_option maxHeartbeats 4000000 in
theorem arg3_eq (V : Valuation τ sig (Elt F)) :
    after ops V (main_arg3 : DevRef τ sig) = V (main_arg3 : DevRef τ sig) := by
  simp only [ops, items, List.flatten_cons, List.flatten_nil, List.append_nil, after_append]
  after_results_simp

set_option maxHeartbeats 4000000 in
theorem arg4_eq (V : Valuation τ sig (Elt F)) :
    after ops V (main_arg4 : DevRef τ sig) = V (main_arg4 : DevRef τ sig) := by
  simp only [ops, items, List.flatten_cons, List.flatten_nil, List.append_nil, after_append]
  after_results_simp

set_option maxHeartbeats 4000000 in
theorem arg5_eq (V : Valuation τ sig (Elt F)) :
    after ops V (main_arg5 : DevRef τ sig) = V (main_arg5 : DevRef τ sig) := by
  simp only [ops, items, List.flatten_cons, List.flatten_nil, List.append_nil, after_append]
  after_results_simp

set_option maxHeartbeats 4000000 in
theorem arg6_eq (V : Valuation τ sig (Elt F)) :
    after ops V (main_arg6 : DevRef τ sig) = V (main_arg6 : DevRef τ sig) := by
  simp only [ops, items, List.flatten_cons, List.flatten_nil, List.append_nil, after_append]
  after_results_simp

set_option maxHeartbeats 4000000 in
theorem arg7_eq (V : Valuation τ sig (Elt F)) :
    after ops V (main_arg7 : DevRef τ sig) = V (main_arg7 : DevRef τ sig) := by
  simp only [ops, items, List.flatten_cons, List.flatten_nil, List.append_nil, after_append]
  after_results_simp

set_option maxHeartbeats 4000000 in
theorem arg8_eq (V : Valuation τ sig (Elt F)) :
    after ops V (main_arg8 : DevRef τ sig) = V (main_arg8 : DevRef τ sig) := by
  simp only [ops, items, List.flatten_cons, List.flatten_nil, List.append_nil, after_append]
  after_results_simp

set_option maxHeartbeats 4000000 in
theorem arg9_eq (V : Valuation τ sig (Elt F)) :
    after ops V (main_arg9 : DevRef τ sig) = V (main_arg9 : DevRef τ sig) := by
  simp only [ops, items, List.flatten_cons, List.flatten_nil, List.append_nil, after_append]
  after_results_simp

set_option maxHeartbeats 4000000 in
theorem arg10_eq (V : Valuation τ sig (Elt F)) :
    after ops V (main_arg10 : DevRef τ sig) = V (main_arg10 : DevRef τ sig) := by
  simp only [ops, items, List.flatten_cons, List.flatten_nil, List.append_nil, after_append]
  after_results_simp

set_option maxHeartbeats 4000000 in
theorem arg11_eq (V : Valuation τ sig (Elt F)) :
    after ops V (main_arg11 : DevRef τ sig) = V (main_arg11 : DevRef τ sig) := by
  simp only [ops, items, List.flatten_cons, List.flatten_nil, List.append_nil, after_append]
  after_results_simp

/-! ## The run -/

/-- On every device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = Cert.RefSpec.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v101).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ (fun _ => ops_fresh))

end Cert.ReferenceIdeal.RefRun

end
-- ==== Proof.lean ====
/-
  Both programs compute a two-layer graph network on 100000 nodes and 3200000 edges: per layer a dense map
  h = x·W + b, a per-edge gate ((leaky_relu(norm·mWa))·mWb + mb) ⊙ h[row] with norm = dinv[row]·dinv[col] from the
  out-degrees, and a scatter-add of the gated rows to the edges' target nodes; an ELU between the layers and a
  row-wise log-softmax at the end. The kernel program tiles the two dense maps and the two gates over row blocks
  (rounding the matrix operands to bf16, which at the extended reals is the identity) and leaves the gathers, the
  scatter-adds, ELU and log-softmax to plain array operations; the reference is plain array operations throughout.

  At the extended reals both results are ONE term of the twelve argument arrays, Cert.RefSpec.model:
  * the reference's run ends at it (the fold of its operations, read back);
  * the idealized kernel's run ends with the result buffer at the last segment boundary's contents, and those,
    walked back through the host stretches and the four regions — each region's output array being the dense map /
    the gate of the arrays it is entered with, block by block over a cover of the rows — are the same term.
  No law of arithmetic beyond the definitions is used: the sums are the same sums in the same order, so finiteness of
  the inputs is not needed for the value, and the three frames are the runs with the value forgotten. The ideal pass
  rewrote no operation, so the kernel's idealization has nothing to preserve.
-/
import proofs.«150491_j40063454937540_1_alg».proof.Defs
import proofs.«150491_j40063454937540_1_alg».proof.Proof.Gen.Kernel
import proofs.«150491_j40063454937540_1_alg».proof.Proof.Gen.Kernel.Skeleton
import proofs.«150491_j40063454937540_1_alg».proof.Proof.Gen.Kernel.Launch
import proofs.«150491_j40063454937540_1_alg».proof.Proof.Gen.Kernel.Points
import proofs.«150491_j40063454937540_1_alg».proof.Proof.Gen.Kernel.Frame
import proofs.«150491_j40063454937540_1_alg».proof.Proof.Gen.KernelIdeal
import proofs.«150491_j40063454937540_1_alg».proof.Proof.Gen.KernelIdeal.Skeleton
import proofs.«150491_j40063454937540_1_alg».proof.Proof.Gen.KernelIdeal.Launch
import proofs.«150491_j40063454937540_1_alg».proof.Proof.Gen.KernelIdeal.Points
import proofs.«150491_j40063454937540_1_alg».proof.Proof.Gen.KernelIdeal.Frame
import proofs.«150491_j40063454937540_1_alg».proof.Proof.Gen.ReferenceIdeal
import proofs.«150491_j40063454937540_1_alg».proof.Proof.Gen.Pre_finite_inputs
import proofs.«150491_j40063454937540_1_alg».proof.Proof.KRun
import proofs.«150491_j40063454937540_1_alg».proof.Proof.KValue
import proofs.«150491_j40063454937540_1_alg».proof.Proof.DenseValue
import proofs.«150491_j40063454937540_1_alg».proof.Proof.EdgeValue
import proofs.«150491_j40063454937540_1_alg».proof.Proof.RefRun
import Idealize.ShloMosaic.Adequacy
import Idealize.ShloMosaic.Init

noncomputable section

namespace Cert.Proof

open Idealize.ShloMosaic Idealize.SL.Sem

/-- The four regions' output arrays: the two dense maps and the two per-edge gates of the arrays they are entered with. -/
theorem regions : Cert.KernelIdeal.KValue.RegionValues :=
  ⟨Cert.KernelIdeal.DenseValue.dense0, Cert.KernelIdeal.EdgeValue.edge1,
   Cert.KernelIdeal.DenseValue.dense2, Cert.KernelIdeal.EdgeValue.edge3⟩

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both idealized programs end with the result at the network of the
    arguments: the kernel's by walking the last boundary's contents back, the reference's by its run. -/
theorem algebraic : Cert.algebraic_KernelIdeal_ReferenceIdeal := by
  intro m ρ m' ρ' _ hagree
  refine ⟨fun c => Cert.RefSpec.model (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result_eq m ρ c regions), (h c).2⟩)
      (Cert.KernelIdeal.KRun.run_named m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
